-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v22)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v22) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S1x1 : Shape := ⟨2, ![1, 1]⟩
abbrev S512x4096 : Shape := ⟨2, ![512, 4096]⟩
abbrev S512x1 : Shape := ⟨2, ![512, 1]⟩
abbrev S2048x1024 : Shape := ⟨2, ![2048, 1024]⟩
abbrev S1024x1024 : Shape := ⟨2, ![1024, 1024]⟩
abbrev S1x1024 : Shape := ⟨2, ![1, 1024]⟩

abbrev nBuf : Space → Nat
  | .hbm => 34
  | .vmem => 21
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S_, .f32⟩
  | .hbm, ⟨16, _⟩ => ⟨S4096, .f32⟩
  | .hbm, ⟨17, _⟩ => ⟨S4096, .f32⟩
  | .hbm, ⟨18, _⟩ => ⟨S4096x1, .f32⟩
  | .hbm, ⟨19, _⟩ => ⟨S1x4096, .f32⟩
  | .hbm, ⟨20, _⟩ => ⟨S8192x4096, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1x1, .f32⟩
  | .hbm, ⟨30, _⟩ => ⟨S1x1, .f32⟩
  | .hbm, ⟨31, _⟩ => ⟨S8192x4096, .bf16⟩
  | .hbm, ⟨32, _⟩ => ⟨S4096x4096, .bf16⟩
  | .hbm, ⟨33, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x1, .f32⟩
  | .local _ .vmem, ⟨3, _⟩ => ⟨S512x4096, .bf16⟩
  | .local _ .vmem, ⟨4, _⟩ => ⟨S512x4096, .bf16⟩
  | .local _ .vmem, ⟨5, _⟩ => ⟨S512x4096, .f32⟩
  | .local _ .vmem, ⟨6, _⟩ => ⟨S512x4096, .f32⟩
  | .local _ .vmem, ⟨7, _⟩ => ⟨S512x1, .f32⟩
  | .local _ .vmem, ⟨8, _⟩ => ⟨S512x1, .f32⟩
  | .local _ .vmem, ⟨9, _⟩ => ⟨S512x4096, .bf16⟩
  | .local _ .vmem, ⟨10, _⟩ => ⟨S512x4096, .bf16⟩
  | .local _ .vmem, ⟨11, _⟩ => ⟨S2048x1024, .bf16⟩
  | .local _ .vmem, ⟨12, _⟩ => ⟨S2048x1024, .bf16⟩
  | .local _ .vmem, ⟨13, _⟩ => ⟨S1024x1024, .bf16⟩
  | .local _ .vmem, ⟨14, _⟩ => ⟨S1024x1024, .bf16⟩
  | .local _ .vmem, ⟨15, _⟩ => ⟨S1x1, .f32⟩
  | .local _ .vmem, ⟨16, _⟩ => ⟨S1x1024, .f32⟩
  | .local _ .vmem, ⟨17, _⟩ => ⟨S1x1024, .f32⟩
  | .local _ .vmem, ⟨18, _⟩ => ⟨S2048x1024, .f32⟩
  | .local _ .vmem, ⟨19, _⟩ => ⟨S2048x1024, .f32⟩
  | .local _ .vmem, ⟨20, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_cst_3 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_4 : Ref sig .tc := ⟨.hbm, 21, rfl⟩
abbrev main_v14 : Ref sig .tc := ⟨.hbm, 22, rfl⟩
abbrev main_cst_5 : Ref sig .tc := ⟨.hbm, 23, rfl⟩
abbrev main_v15 : Ref sig .tc := ⟨.hbm, 24, rfl⟩
abbrev main_cst_6 : Ref sig .tc := ⟨.hbm, 25, rfl⟩
abbrev main_v16 : Ref sig .tc := ⟨.hbm, 26, rfl⟩
abbrev main_cst_7 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg1_1 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc2_scratch0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem1_1 : DmaSem sig := 14
abbrev cc2_sem2_0 : DmaSem sig := 15
abbrev cc2_sem3_0 : DmaSem sig := 16
abbrev cc2_sem3_1 : DmaSem sig := 17
abbrev cc2_sem4_0 : DmaSem sig := 18
abbrev cc2_sem4_1 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨3, ![4, 4, 4], ![false, false, false]⟩

def k2_cond2 (i : grid2.Coords) : BitVec 1 :=
  let arg2 : BitVec 32 := BitVec.ofNat 32 (i 2).val
  let c3_i32 : BitVec 32 := 3#32
  let v13 : BitVec 1 := Scalar.cmpi .eq arg2 c3_i32
  let v14 : BitVec 32 := Scalar.extui v13
  let c0_i32_8 : BitVec 32 := 0#32
  let v15 : BitVec 1 := Scalar.cmpi .ne v14 c0_i32_8
  v15

def cc2_transform_0 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc2_transform_1 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc2_transform_2 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage2_0 : Fin 2 → Memref sig .tc .vmem S2048x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false, false]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true, false]

abbrev stage2_4 : Fin 2 → Memref sig .tc .vmem S2048x1024 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true, false]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  shapeCasts_S4096_S4096x1 : S4096.ShapeCasts S4096x1
  shapeCasts_S4096_S1x4096 : S4096.ShapeCasts S1x4096
  reducesTo_S8192x4096_S_d0_1 : S8192x4096.ReducesTo [0, 1] S_
  shapeCasts_S_S1x1 : S_.ShapeCasts S1x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  packedbf16_S512x4096_S512x4096_0_0 : (Rect.unit (s := S512x4096) ![0, 0] S512x4096.size inb_S512x4096_S512x4096_0_0).PackedRows (EltTy.packing .bf16)
  inb_S512x1_S512x1_0_0 : ∀ a, (![0, 0] : Fin 2 → Nat) a + S512x1.size a ≤ S512x1.size a
  h_S512x1 : 0 < S512x1.numel
  shapeCasts_S512x1_S512x1 : S512x1.ShapeCasts S512x1
  broadcasts_S512x1_S512x4096 : S512x1.Broadcasts S512x4096
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S2048x1024 : S1x1024.Broadcasts S2048x1024
  dot_S2048x1024_S1024x1024_S2048x1024_1_1_0_0_n_n_wf : DotDims.WF S2048x1024 S1024x1024 S2048x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S8192x4096.size a
  hwx0_0 : ∀ i : grid0.Coords, EltTy.bits .f32 = 32 ∨ (Rect.block (s := S8192x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x1.size a ≤ S1x1.size a
  hwx0_1 : ∀ i : grid0.Coords, EltTy.bits .f32 = 32 ∨ (Rect.block (s := S1x1) S1x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x4096.size a ≤ S8192x4096.size a
  hwx0_2 : ∀ i : grid0.Coords, EltTy.bits .bf16 = 32 ∨ (Rect.block (s := S8192x4096) S512x4096.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x4096.size a ≤ S4096x4096.size a
  hwx1_0 : ∀ i : grid1.Coords, EltTy.bits .f32 = 32 ∨ (Rect.block (s := S4096x4096) S512x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S4096x1.size a
  hwx1_1 : ∀ i : grid1.Coords, EltTy.bits .f32 = 32 ∨ (Rect.block (s := S4096x1) S512x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S512x4096.size a ≤ S4096x4096.size a
  hwx1_2 : ∀ i : grid1.Coords, EltTy.bits .bf16 = 32 ∨ (Rect.block (s := S4096x4096) S512x4096.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2048x1024.size a ≤ S8192x4096.size a
  hwx2_0 : ∀ i : grid2.Coords, EltTy.bits .bf16 = 32 ∨ (Rect.block (s := S8192x4096) S2048x1024.size (cc2_transform_0 i) (hinb2_0 i)).WholeWords (EltTy.packing .bf16)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S4096x4096.size a
  hwx2_1 : ∀ i : grid2.Coords, EltTy.bits .bf16 = 32 ∨ (Rect.block (s := S4096x4096) S1024x1024.size (cc2_transform_1 i) (hinb2_1 i)).WholeWords (EltTy.packing .bf16)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024.size a ≤ S1x4096.size a
  hwx2_3 : ∀ i : grid2.Coords, EltTy.bits .f32 = 32 ∨ (Rect.block (s := S1x4096) S1x1024.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2048x1024.size a ≤ S8192x4096.size a
  hwx2_4 : ∀ i : grid2.Coords, EltTy.bits .f32 = 32 ∨ (Rect.block (s := S8192x4096) S2048x1024.size (cc2_transform_4 i) (hinb2_4 i)).WholeWords (EltTy.packing .f32)

variable [Facts₀]

def dot_S2048x1024_S1024x1024_S2048x1024_1_1_0_0_n_n : DotDims S2048x1024 S1024x1024 S2048x1024 where
  lhsContracting := [1]
  rhsContracting := [1]
  lhsNonContracting := [0]
  rhsNonContracting := [0]
  lhsBatch := []
  rhsBatch := []
  wf := dot_S2048x1024_S1024x1024_S2048x1024_1_1_0_0_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S1x1.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v20) S512x4096.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg1) S512x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v21) S512x4096.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v20) S2048x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v21) S1024x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v19) S1x1.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v12) S1x1024.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v22) S2048x1024.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev idle2 : Fin 5 → grid2.Coords → Bool := fun | 0 => fun _ => false | 1 => fun _ => false | 2 => fun _ => false | 3 => fun _ => false | 4 => fun i => !(k2_cond2 i == 1#1) | ⟨_ + 5, h⟩ => absurd h (Nat.not_lt.2 (Nat.le_add_left _ _))

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩

abbrev nBuf : Space → Nat
  | .hbm => 59
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S4096, .f32⟩
  | .hbm, ⟨4, _⟩ => ⟨S_, .f32⟩
  | .hbm, ⟨5, _⟩ => ⟨S4096, .f32⟩
  | .hbm, ⟨6, _⟩ => ⟨S4096, .f32⟩
  | .hbm, ⟨7, _⟩ => ⟨S4096, .f32⟩
  | .hbm, ⟨8, _⟩ => ⟨S4096, .f32⟩
  | .hbm, ⟨9, _⟩ => ⟨S_, .f32⟩
  | .hbm, ⟨10, _⟩ => ⟨S4096, .f32⟩
  | .hbm, ⟨11, _⟩ => ⟨S4096, .f32⟩
  | .hbm, ⟨12, _⟩ => ⟨S_, .f32⟩
  | .hbm, ⟨13, _⟩ => ⟨S4096, .f32⟩
  | .hbm, ⟨14, _⟩ => ⟨S4096, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S4096x4096, .f32⟩
  | .hbm, ⟨22, _⟩ => ⟨S4096x4096, .f32⟩
  | .hbm, ⟨23, _⟩ => ⟨S_, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S4096x4096, .f32⟩
  | .hbm, ⟨29, _⟩ => ⟨S8192x4096, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S8192x4096, .f32⟩
  | .hbm, ⟨42, _⟩ => ⟨S8192x4096, .f32⟩
  | .hbm, ⟨43, _⟩ => ⟨S_, .f32⟩
  | .hbm, ⟨44, _⟩ => ⟨S8192x4096, .f32⟩
  | .hbm, ⟨45, _⟩ => ⟨S8192x4096, .f32⟩
  | .hbm, ⟨46, _⟩ => ⟨S8192x4096, .f32⟩
  | .hbm, ⟨47, _⟩ => ⟨S8192x4096, .f32⟩
  | .hbm, ⟨48, _⟩ => ⟨S8192x4096, .f32⟩
  | .hbm, ⟨49, _⟩ => ⟨S4096x4096, .f32⟩
  | .hbm, ⟨50, _⟩ => ⟨S8192x4096, .f32⟩
  | .hbm, ⟨51, _⟩ => ⟨S8192x4096, .f32⟩
  | .hbm, ⟨52, _⟩ => ⟨S8192x4096, .f32⟩
  | .hbm, ⟨53, _⟩ => ⟨S8192x4096, .f32⟩
  | .hbm, ⟨54, _⟩ => ⟨S8192x4096, .f32⟩
  | .hbm, ⟨55, _⟩ => ⟨S8192x4096, .f32⟩
  | .hbm, ⟨56, _⟩ => ⟨S1x4096, .f32⟩
  | .hbm, ⟨57, _⟩ => ⟨S8192x4096, .f32⟩
  | .hbm, ⟨58, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_cst_0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_cst_2 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_3 : Ref sig .tc := ⟨.hbm, 18, rfl⟩
abbrev main_cst_4 : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_5 : Ref sig .tc := ⟨.hbm, 30, rfl⟩
abbrev main_v17 : Ref sig .tc := ⟨.hbm, 31, rfl⟩
abbrev main_cst_6 : Ref sig .tc := ⟨.hbm, 32, rfl⟩
abbrev main_v18 : Ref sig .tc := ⟨.hbm, 33, rfl⟩
abbrev main_cst_7 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_8 : Ref sig .tc := ⟨.hbm, 38, rfl⟩
abbrev main_cst_9 : Ref sig .tc := ⟨.hbm, 39, rfl⟩
abbrev main_call2_v0 : Ref sig .tc := ⟨.hbm, 40, rfl⟩
abbrev main_call2_v1 : Ref sig .tc := ⟨.hbm, 41, rfl⟩
abbrev main_call2_v2 : Ref sig .tc := ⟨.hbm, 42, rfl⟩
abbrev main_call2_v3 : Ref sig .tc := ⟨.hbm, 43, rfl⟩
abbrev main_call2_v4 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩

abbrev nD : Nat := 1
abbrev τ : Topo := Topo.v7x

variable {F : FTy → Type} [FloatOps F]

class Facts₀ : Prop where
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  bcast_S_S4096x4096 : S_.BroadcastsInDim S4096x4096 (![] : Fin 0 → Fin S4096x4096.rank)
  reducesTo_S8192x4096_S_d0_1 : S8192x4096.ReducesTo [0, 1] S_
  bcast_S_S8192x4096 : S_.BroadcastsInDim S8192x4096 (![] : Fin 0 → Fin S8192x4096.rank)
  transposes_S4096x4096_S4096x4096_1_0 : S4096x4096.Transposes [1, 0] S4096x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.BitsRegion0.lean ====
/-
  Region 0 of the program: the quantization pass over the activations.  Its grid walks the array in
  slabs of 512 rows; at a point the body reads the slab and the one-entry block holding the reciprocal activation scale, and writes the
  slab of quantized entries.  Stated at a parameter `V`, the buffers' contents when the region is entered:
  what the output slab holds after the body as a function of the two input blocks, the body's triple, the
  pipeline's proof data and the body obligation at every point.
-/
import proofs.«120888_j49770081026763_2_alg».proof.Proof.Gen.Kernel.Launch
import proofs.«120888_j49770081026763_2_alg».proof.Proof.Gen.Kernel.Skeleton
import proofs.«120888_j49770081026763_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a block that
    is not fetched again has not moved). -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole scale block and the whole slab, as rectangles. -/
abbrev rs0 : Rect S1x1 := Rect.unit (s := S1x1) ![0, 0] S1x1.size inb_S1x1_S1x1_0_0
abbrev rb0 : Rect S512x4096 := Rect.unit (s := S512x4096) ![0, 0] S512x4096.size inb_S512x4096_S512x4096_0_0

/-- The output slab after the body: its one store, of the quantized product of the slab and the scale. -/
def slab0 (xs : Vec F S1x1 .f32) (x : Vec F S512x4096 .f32) : Vec F S512x4096 .bf16 :=
  View.canon [⟨rb0, k0_pay1 (View.ld xs rs0) (View.ld x rb0)⟩]

/-- The store covers the slab. -/
theorem slab0_cover (p0 : Vec F S512x4096 .bf16) (y : S512x4096.Idx) :
    ∃ pc ∈ ([⟨rb0, p0⟩] : List (View.Piece (Elt F) S512x4096 .bf16)), y ∈ pc.1.set :=
  View.cover_of_tiled [⟨rb0, p0⟩] S512x4096.size (by rfl) y

set_option maxHeartbeats 1000000 in
/-- The body on whole staging buffers: the two inputs at their contents, the output at anything, runs to
    the continuation with the inputs as they were and the output at `slab0` of them. -/
theorem body0_triple (c : Dev nD) (E : Set ℕ) (i : grid0.Coords) (arg1 : Memref sig .tc .vmem S512x4096 .f32) (harg1 : arg1.IsWhole) (arg2 : Memref sig .tc .vmem S1x1 .f32) (harg2 : arg2.IsWhole) (arg3 : Memref sig .tc .vmem S512x4096 .bf16) (harg3 : arg3.IsWhole)
    (x : Vec F S512x4096 .f32) (xs : Vec F S1x1 .f32) (K : PUnit → sProp 𝕄) :
    iprop(owns (c : Thread nD τ) arg1 fullShare x ∗ owns (c : Thread nD τ) arg2 fullShare xs ∗ (∃ d, owns (c : Thread nD τ) arg3 fullShare d)
        ∗ (iprop(owns (c : Thread nD τ) arg1 fullShare x ∗ owns (c : Thread nD τ) arg2 fullShare xs ∗ owns (c : Thread nD τ) arg3 fullShare (slab0 xs x)) -∗ K ⟨⟩))
      ⊢ wp frame (wpE (defs₀ (F := F)) Variants.none c none) E (cc0__quantize_x_kernel i arg1 harg1 arg2 harg2 arg3 harg3) K := by
  simp only [cc0__quantize_x_kernel_eq_skeleton]; unfold cc0__quantize_x_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slab0_cover _)

/-- The proof data of the pipeline on core `c`: the arrays as the region finds them; after the body at a
    point each input's buffer at its block, the output's at the slab of the two blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => slab0 (blk0 V c 1 t) (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = slab0 (blk0 V c 1 t) (blk0 V c 0 t) := by dsimp only [dat0]
theorem dat0_found0 (c : Dev nD) (t : Fin cfg0.N) (d) : (dat0 V c).before 0 t d = blk0 V c 0 t :=
  found0_0_of V (dat0 V c) (dat0_A V c 0) (dat0_after0 V c) t d
theorem dat0_found1 (c : Dev nD) (t : Fin cfg0.N) (d) : (dat0 V c).before 1 t d = blk0 V c 1 t :=
  found0_1_of V (dat0 V c) (dat0_A V c 1) (dat0_after1 V c) t d

/-- What the body is called with at a point, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and
    the core's dues pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_found0, dat0_found1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_triple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem obligation0 (c : Dev nD) : BodyObligation (dat0 (F := F) V c) (defs₀ (F := F)) Variants.none () Set.univ := fun t => by
  rw [bigSep_W0, bigSep_W0]
  exact body0_at V c t

end Cert.Kernel.Hand

end
-- ==== Proof.BitsRegion1.lean ====
/-
  Region 1 of the program: the quantization pass over the weights.  Its grid walks the array in
  slabs of 512 rows; at a point the body reads the slab and the column of that slab's reciprocal row scales, and writes the
  slab of quantized entries.  Stated at a parameter `V`, the buffers' contents when the region is entered:
  what the output slab holds after the body as a function of the two input blocks, the body's triple, the
  pipeline's proof data and the body obligation at every point.
-/
import proofs.«120888_j49770081026763_2_alg».proof.Proof.Gen.Kernel.Launch
import proofs.«120888_j49770081026763_2_alg».proof.Proof.Gen.Kernel.Skeleton
import proofs.«120888_j49770081026763_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a block that
    is not fetched again has not moved). -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole scale block and the whole slab, as rectangles. -/
abbrev rs1 : Rect S512x1 := Rect.unit (s := S512x1) ![0, 0] S512x1.size inb_S512x1_S512x1_0_0
abbrev rb1 : Rect S512x4096 := Rect.unit (s := S512x4096) ![0, 0] S512x4096.size inb_S512x4096_S512x4096_0_0

/-- The output slab after the body: its one store, of the quantized product of the slab and the scale. -/
def slab1 (xs : Vec F S512x1 .f32) (x : Vec F S512x4096 .f32) : Vec F S512x4096 .bf16 :=
  View.canon [⟨rb1, k1_pay1 (View.ld xs rs1) (View.ld x rb1)⟩]

/-- The store covers the slab. -/
theorem slab1_cover (p0 : Vec F S512x4096 .bf16) (y : S512x4096.Idx) :
    ∃ pc ∈ ([⟨rb1, p0⟩] : List (View.Piece (Elt F) S512x4096 .bf16)), y ∈ pc.1.set :=
  View.cover_of_tiled [⟨rb1, p0⟩] S512x4096.size (by rfl) y

set_option maxHeartbeats 1000000 in
/-- The body on whole staging buffers: the two inputs at their contents, the output at anything, runs to
    the continuation with the inputs as they were and the output at `slab1` of them. -/
theorem body1_triple (c : Dev nD) (E : Set ℕ) (i : grid1.Coords) (arg1 : Memref sig .tc .vmem S512x4096 .f32) (harg1 : arg1.IsWhole) (arg2 : Memref sig .tc .vmem S512x1 .f32) (harg2 : arg2.IsWhole) (arg3 : Memref sig .tc .vmem S512x4096 .bf16) (harg3 : arg3.IsWhole)
    (x : Vec F S512x4096 .f32) (xs : Vec F S512x1 .f32) (K : PUnit → sProp 𝕄) :
    iprop(owns (c : Thread nD τ) arg1 fullShare x ∗ owns (c : Thread nD τ) arg2 fullShare xs ∗ (∃ d, owns (c : Thread nD τ) arg3 fullShare d)
        ∗ (iprop(owns (c : Thread nD τ) arg1 fullShare x ∗ owns (c : Thread nD τ) arg2 fullShare xs ∗ owns (c : Thread nD τ) arg3 fullShare (slab1 xs x)) -∗ K ⟨⟩))
      ⊢ wp frame (wpE (defs₀ (F := F)) Variants.none c none) E (cc1__quantize_w_kernel i arg1 harg1 arg2 harg2 arg3 harg3) K := by
  simp only [cc1__quantize_w_kernel_eq_skeleton]; unfold cc1__quantize_w_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slab1_cover _)

/-- The proof data of the pipeline on core `c`: the arrays as the region finds them; after the body at a
    point each input's buffer at its block, the output's at the slab of the two blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => slab1 (blk1 V c 1 t) (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = slab1 (blk1 V c 1 t) (blk1 V c 0 t) := by dsimp only [dat1]
theorem dat1_found0 (c : Dev nD) (t : Fin cfg1.N) (d) : (dat1 V c).before 0 t d = blk1 V c 0 t :=
  found1_0_of V (dat1 V c) (dat1_A V c 0) (dat1_after0 V c) t d
theorem dat1_found1 (c : Dev nD) (t : Fin cfg1.N) (d) : (dat1 V c).before 1 t d = blk1 V c 1 t :=
  found1_1_of V (dat1 V c) (dat1_A V c 1) (dat1_after1 V c) t d

/-- What the body is called with at a point, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and
    the core's dues pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_found0, dat1_found1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (body1_triple c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem obligation1 (c : Dev nD) : BodyObligation (dat1 (F := F) V c) (defs₀ (F := F)) Variants.none () Set.univ := fun t => by
  rw [bigSep_W1, bigSep_W1]
  exact body1_at V c t

end Cert.Kernel.Hand

end
-- ==== Proof.BitsAccBase.lean ====
/-
  Region 2 of the program: the integer product, accumulated over the contraction axis.  The grid is
  (i, j, k) with k innermost; the body keeps an accumulator in a scratch buffer across the four points of a
  (i, j) tile: it clears it at k = 0, adds the product of the two operand blocks at every k, and at k = 3
  rounds it, scales it by the activation scale and the row of weight scales, and writes the output block.
  This module holds what the three cases of the body share: the windows' blocks as the region finds them,
  the two branch conditions in closed form over the grid, where the output window is idle, and the staging
  and scratch buffers' names.
-/
import proofs.«120888_j49770081026763_2_alg».proof.Proof.Gen.Kernel.Launch
import proofs.«120888_j49770081026763_2_alg».proof.Proof.Gen.Kernel.Skeleton
import proofs.«120888_j49770081026763_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem found2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## The two branch conditions over the grid -/

/-- "This is the first step along the contraction axis" (k = 0), as the body computes it. -/
abbrev atFirst (i : grid2.Coords) : Prop := (Scalar.cmpi .ne (Scalar.extui (Scalar.cmpi .eq (BitVec.ofNat 32 (i 2).val) 0#32)) 0#32) = 1#1
/-- It holds at the points ≡ 0 (mod 4). -/
theorem atFirst_iff : ∀ t : Fin cfg2.N, atFirst (grid2.coords t) ↔ t.val % 4 = 0 :=
  (by decide +kernel : ∀ t : Fin grid2.N, atFirst (grid2.coords t) ↔ t.val % 4 = 0)

/-- "This is the last step along the contraction axis" (k = 3), as the body computes it. -/
abbrev atLast (i : grid2.Coords) : Prop := k2_cond2 i = 1#1
/-- It holds at the points ≡ 3 (mod 4). -/
theorem atLast_iff : ∀ t : Fin cfg2.N, atLast (grid2.coords t) ↔ t.val % 4 = 3 :=
  (by decide +kernel : ∀ t : Fin grid2.N, atLast (grid2.coords t) ↔ t.val % 4 = 3)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- Away from the last step the output window is idle: nothing is stored into it, -/
theorem idle2_4 : ∀ t : Fin cfg2.N, ¬atLast (grid2.coords t) → cfg2.idle 4 (grid2.coords t) = true := by decide +kernel
/-- and its block is not written back. -/
theorem noFlush2_4 : ∀ t : Fin cfg2.N, ¬atLast (grid2.coords t) → (cfg2.win 4).flush t = false := by decide +kernel
/-- At the last step it is live. -/
theorem live2_4 : ∀ t : Fin cfg2.N, atLast (grid2.coords t) → cfg2.idle 4 (grid2.coords t) = false := by decide +kernel

/-! ## The buffers the body is called on -/

/-- One staging buffer of the output window, through which its contents are stated. -/
abbrev VO2 : View sig .tc .vmem S2048x1024 .f32 := (Memref.whole cc2_stg4_0 : Memref sig .tc .vmem S2048x1024 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev accM : Memref sig .tc .vmem S2048x1024 .f32 := Memref.whole cc2_scratch0
abbrev accV : View sig .tc .vmem S2048x1024 .f32 := accM.view

/-- The region's plain invariant with the accumulator as a buffer owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) accM fullShare d)) ∗ (∃ r, prngReg c r)) := by
  unfold Pipeline.ΦA; rw [scopedRest2_eq]; simp only [accM, owns_whole]; try rfl

end Cert.Kernel.Hand

end
-- ==== Proof.BitsAccFirst.lean ====
/-
  The accumulating body run whole in one of its three cases: the first step along the contraction axis (the accumulator is cleared, then the first product added; the output block is left alone).
  The pieces the stores leave in the output block and in the accumulator are found by running the body; the
  run is the witness.
-/
import proofs.«120888_j49770081026763_2_alg».proof.Proof.BitsAccBase

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave (last first) in the output block and in the accumulator in this
    case, with the proof that on whole buffers — the four inputs at their contents, the idle output handed back untouched, the
    accumulator at anything — the body runs to the continuation with the inputs as they were and those pieces written. -/
noncomputable def accRunFirst (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : atFirst i) (hc1 : ¬atLast i)
    (x0 : Vec F S2048x1024 .bf16) (x1 : Vec F S1024x1024 .bf16) (x2 : Vec F S1x1 .f32) (x3 : Vec F S1x1024 .f32) :
    Σ' (L4 : List (View.Piece (Elt F) S2048x1024 .f32)), { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2__qgemm_kernel i arg3 harg3 arg4 harg4 arg5 harg5 arg6 harg6 arg7 harg7 arg8 harg8) K } := by
  refine ⟨[], ?_, fun xi E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.BitsAccMid.lean ====
/-
  The accumulating body run whole in one of its three cases: a middle step (the product is added to what the step before left; the output block is left alone).
  The pieces the stores leave in the output block and in the accumulator are found by running the body; the
  run is the witness.
-/
import proofs.«120888_j49770081026763_2_alg».proof.Proof.BitsAccFirst

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave (last first) in the output block and in the accumulator in this
    case, with the proof that on whole buffers — the four inputs at their contents, the idle output handed back untouched, the
    accumulator at what the step before left — the body runs to the continuation with the inputs as they were and those pieces written. -/
noncomputable def accRunMid (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : ¬atLast i)
    (x0 : Vec F S2048x1024 .bf16) (x1 : Vec F S1024x1024 .bf16) (x2 : Vec F S1x1 .f32) (x3 : Vec F S1x1024 .f32) (acc : Vec F S2048x1024 .f32) :
    Σ' (L4 : List (View.Piece (Elt F) S2048x1024 .f32)), { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2__qgemm_kernel i arg3 harg3 arg4 harg4 arg5 harg5 arg6 harg6 arg7 harg7 arg8 harg8) K } := by
  refine ⟨[], ?_, fun xi E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.Kernel.Hand

end
-- ==== Proof.BitsAccLast.lean ====
/-
  The accumulating body run whole in one of its three cases: the last step (the product is added, and the rounded, rescaled accumulator is stored into the output block).
  The pieces the stores leave in the output block and in the accumulator are found by running the body; the
  run is the witness.
-/
import proofs.«120888_j49770081026763_2_alg».proof.Proof.BitsAccMid

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 1000000 in
/-- The pieces the body's stores leave (last first) in the output block and in the accumulator in this
    case, with the proof that on whole buffers — the four inputs at their contents, the output at anything, the
    accumulator at what the step before left — the body runs to the continuation with the inputs as they were and those pieces written. -/
noncomputable def accRunLast (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i)
    (x0 : Vec F S2048x1024 .bf16) (x1 : Vec F S1024x1024 .bf16) (x2 : Vec F S1x1 .f32) (x3 : Vec F S1x1024 .f32) (acc : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__qgemm_kernel i arg3 harg3 arg4 harg4 arg5 harg5 arg6 harg6 arg7 harg7 arg8 harg8) K } := by
  refine ⟨?_, ?_, fun E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.Kernel.Hand

end
-- ==== Proof.BitsAcc.lean ====
/-
  Region 2, the accumulating product: what the accumulator and the output block hold after every grid
  point, by recursion on the point (`stepAt`: the case the point is in, run on the point's blocks and on what
  the point before left in the accumulator); the region's invariant, which carries the accumulator at that
  value from one point to the next; the pipeline's proof data; and the body obligation at every point.
-/
import proofs.«120888_j49770081026763_2_alg».proof.Proof.BitsAccLast

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first step's stores cover the accumulator. -/
theorem accFirst_cover (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : atFirst i) (hc1 : ¬atLast i) (x0 : Vec F S2048x1024 .bf16) (x1 : Vec F S1024x1024 .bf16) (x2 : Vec F S1x1 .f32) (x3 : Vec F S1x1024 .f32) (y : S2048x1024.Idx) :
    ∃ pc ∈ (accRunFirst (F := F) c i arg3 harg3 arg4 harg4 arg5 harg5 arg6 harg6 arg7 harg7 arg8 harg8 hc0 hc1 x0 x1 x2 x3).2.1, y ∈ pc.1.set :=
  View.cover_of_tiledL (accRunFirst (F := F) c i arg3 harg3 arg4 harg4 arg5 harg5 arg6 harg6 arg7 harg7 arg8 harg8 hc0 hc1 x0 x1 x2 x3).2.1 S2048x1024.size (by sl_kernel_rfl) y
/-- What the first step leaves in the accumulator. -/
def accFirst (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : atFirst i) (hc1 : ¬atLast i) (x0 : Vec F S2048x1024 .bf16) (x1 : Vec F S1024x1024 .bf16) (x2 : Vec F S1x1 .f32) (x3 : Vec F S1x1024 .f32) : Vec F S2048x1024 .f32 :=
  accV.read (Elt F) (accV.writes (Elt F) accV.junk (accRunFirst (F := F) c i arg3 harg3 arg4 harg4 arg5 harg5 arg6 harg6 arg7 harg7 arg8 harg8 hc0 hc1 x0 x1 x2 x3).2.1)

/-- A middle step's store covers the accumulator. -/
theorem accMid_cover (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : ¬atLast i) (x0 : Vec F S2048x1024 .bf16) (x1 : Vec F S1024x1024 .bf16) (x2 : Vec F S1x1 .f32) (x3 : Vec F S1x1024 .f32) (acc : Vec F S2048x1024 .f32) (y : S2048x1024.Idx) :
    ∃ pc ∈ (accRunMid (F := F) c i arg3 harg3 arg4 harg4 arg5 harg5 arg6 harg6 arg7 harg7 arg8 harg8 hc0 hc1 x0 x1 x2 x3 acc).2.1, y ∈ pc.1.set :=
  View.cover_of_tiledL (accRunMid (F := F) c i arg3 harg3 arg4 harg4 arg5 harg5 arg6 harg6 arg7 harg7 arg8 harg8 hc0 hc1 x0 x1 x2 x3 acc).2.1 S2048x1024.size (by sl_kernel_rfl) y
/-- What a middle step leaves in the accumulator. -/
def accMid (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : ¬atLast i) (x0 : Vec F S2048x1024 .bf16) (x1 : Vec F S1024x1024 .bf16) (x2 : Vec F S1x1 .f32) (x3 : Vec F S1x1024 .f32) (acc : Vec F S2048x1024 .f32) : Vec F S2048x1024 .f32 :=
  accV.read (Elt F) (accV.writes (Elt F) accV.junk (accRunMid (F := F) c i arg3 harg3 arg4 harg4 arg5 harg5 arg6 harg6 arg7 harg7 arg8 harg8 hc0 hc1 x0 x1 x2 x3 acc).2.1)

/-- The last step's store covers the accumulator, -/
theorem accLast_cover (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i) (x0 : Vec F S2048x1024 .bf16) (x1 : Vec F S1024x1024 .bf16) (x2 : Vec F S1x1 .f32) (x3 : Vec F S1x1024 .f32) (acc : Vec F S2048x1024 .f32) (y : S2048x1024.Idx) :
    ∃ pc ∈ (accRunLast (F := F) c i arg3 harg3 arg4 harg4 arg5 harg5 arg6 harg6 arg7 harg7 arg8 harg8 hc0 hc1 x0 x1 x2 x3 acc).2.1, y ∈ pc.1.set :=
  View.cover_of_tiledL (accRunLast (F := F) c i arg3 harg3 arg4 harg4 arg5 harg5 arg6 harg6 arg7 harg7 arg8 harg8 hc0 hc1 x0 x1 x2 x3 acc).2.1 S2048x1024.size (by sl_kernel_rfl) y
/-- and this is what it leaves there. -/
def accLast (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i) (x0 : Vec F S2048x1024 .bf16) (x1 : Vec F S1024x1024 .bf16) (x2 : Vec F S1x1 .f32) (x3 : Vec F S1x1024 .f32) (acc : Vec F S2048x1024 .f32) : Vec F S2048x1024 .f32 :=
  accV.read (Elt F) (accV.writes (Elt F) accV.junk (accRunLast (F := F) c i arg3 harg3 arg4 harg4 arg5 harg5 arg6 harg6 arg7 harg7 arg8 harg8 hc0 hc1 x0 x1 x2 x3 acc).2.1)
/-- The last step's store covers the output block, -/
theorem outLast_cover (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i) (x0 : Vec F S2048x1024 .bf16) (x1 : Vec F S1024x1024 .bf16) (x2 : Vec F S1x1 .f32) (x3 : Vec F S1x1024 .f32) (acc : Vec F S2048x1024 .f32) (y : S2048x1024.Idx) :
    ∃ pc ∈ (accRunLast (F := F) c i arg3 harg3 arg4 harg4 arg5 harg5 arg6 harg6 arg7 harg7 arg8 harg8 hc0 hc1 x0 x1 x2 x3 acc).1, y ∈ pc.1.set :=
  View.cover_of_tiledL (accRunLast (F := F) c i arg3 harg3 arg4 harg4 arg5 harg5 arg6 harg6 arg7 harg7 arg8 harg8 hc0 hc1 x0 x1 x2 x3 acc).1 S2048x1024.size (by sl_kernel_rfl) y
/-- and this is what it leaves there. -/
def outLast (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i) (x0 : Vec F S2048x1024 .bf16) (x1 : Vec F S1024x1024 .bf16) (x2 : Vec F S1x1 .f32) (x3 : Vec F S1x1024 .f32) (acc : Vec F S2048x1024 .f32) : Vec F S2048x1024 .f32 :=
  VO2.read (Elt F) (VO2.writes (Elt F) VO2.junk (accRunLast (F := F) c i arg3 harg3 arg4 harg4 arg5 harg5 arg6 harg6 arg7 harg7 arg8 harg8 hc0 hc1 x0 x1 x2 x3 acc).1)

/-- The output block where no step stores into it: a placeholder nothing consults (the window is idle there
    and its block is not written back). -/
def outIdle : Vec F S2048x1024 .f32 := VO2.read (Elt F) (VO2.writes (Elt F) VO2.junk [])

/-! ## Point by point -/

/-- What the output block and the accumulator hold after the body at position `n`: the case the position is
    in, run on the point's blocks and, past the first step of a tile, on what the point before left in the
    accumulator. -/
def stepAt (c : Dev nD) : (n : ℕ) → n < cfg2.N → Vec F S2048x1024 .f32 × Vec F S2048x1024 .f32
  | 0, hn => (outIdle, accFirst c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) accM (Memref.isWhole_whole _) ((atFirst_iff ⟨0, hn⟩).mpr (Nat.zero_mod _)) (fun h => (fun h => by (try dsimp only at h); omega) ((atLast_iff ⟨0, hn⟩).mp h)) (blk2 V c 0 ⟨0, hn⟩) (blk2 V c 1 ⟨0, hn⟩) (blk2 V c 2 ⟨0, hn⟩) (blk2 V c 3 ⟨0, hn⟩))
  | n + 1, hn =>
    if h0 : (n + 1) % 4 = 0 then
      if h1 : (n + 1) % 4 = 3 then
        False.elim (by omega)
      else
        (outIdle, accFirst c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) accM (Memref.isWhole_whole _) ((atFirst_iff ⟨n + 1, hn⟩).mpr h0) (fun h => h1 ((atLast_iff ⟨n + 1, hn⟩).mp h)) (blk2 V c 0 ⟨n + 1, hn⟩) (blk2 V c 1 ⟨n + 1, hn⟩) (blk2 V c 2 ⟨n + 1, hn⟩) (blk2 V c 3 ⟨n + 1, hn⟩))
    else
      if h1 : (n + 1) % 4 = 3 then
        (outLast c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) accM (Memref.isWhole_whole _) (fun h => h0 ((atFirst_iff ⟨n + 1, hn⟩).mp h)) ((atLast_iff ⟨n + 1, hn⟩).mpr h1) (blk2 V c 0 ⟨n + 1, hn⟩) (blk2 V c 1 ⟨n + 1, hn⟩) (blk2 V c 2 ⟨n + 1, hn⟩) (blk2 V c 3 ⟨n + 1, hn⟩) (stepAt c n (Nat.lt_of_succ_lt hn)).2, accLast c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) accM (Memref.isWhole_whole _) (fun h => h0 ((atFirst_iff ⟨n + 1, hn⟩).mp h)) ((atLast_iff ⟨n + 1, hn⟩).mpr h1) (blk2 V c 0 ⟨n + 1, hn⟩) (blk2 V c 1 ⟨n + 1, hn⟩) (blk2 V c 2 ⟨n + 1, hn⟩) (blk2 V c 3 ⟨n + 1, hn⟩) (stepAt c n (Nat.lt_of_succ_lt hn)).2)
      else
        (outIdle, accMid c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) accM (Memref.isWhole_whole _) (fun h => h0 ((atFirst_iff ⟨n + 1, hn⟩).mp h)) (fun h => h1 ((atLast_iff ⟨n + 1, hn⟩).mp h)) (blk2 V c 0 ⟨n + 1, hn⟩) (blk2 V c 1 ⟨n + 1, hn⟩) (blk2 V c 2 ⟨n + 1, hn⟩) (blk2 V c 3 ⟨n + 1, hn⟩) (stepAt c n (Nat.lt_of_succ_lt hn)).2)

/-- At a first step. -/
theorem stepAt_first (c : Dev nD) (t : Fin cfg2.N) (h0 : t.val % 4 = 0) (h1 : ¬t.val % 4 = 3) :
    stepAt V c t.val t.isLt = (outIdle, accFirst c (grid2.coords t) (ms2_0 t) (hs2_0 t) (ms2_1 t) (hs2_1 t) (ms2_2 t) (hs2_2 t) (ms2_3 t) (hs2_3 t) (ms2_4 t) (hs2_4 t) accM (Memref.isWhole_whole _) ((atFirst_iff t).mpr h0) (fun h => h1 ((atLast_iff t).mp h)) (blk2 V c 0 t) (blk2 V c 1 t) (blk2 V c 2 t) (blk2 V c 3 t)) := by
  obtain ⟨n, hn⟩ := t
  cases n with
  | zero => exact rfl
  | succ n => exact (dif_pos h0).trans ((dif_neg h1).trans rfl)

/-- At a middle step: over what the point before left. -/
theorem stepAt_mid (c : Dev nD) (t : Fin cfg2.N) (h0 : ¬t.val % 4 = 0) (h1 : ¬t.val % 4 = 3) :
    stepAt V c t.val t.isLt = (outIdle, accMid c (grid2.coords t) (ms2_0 t) (hs2_0 t) (ms2_1 t) (hs2_1 t) (ms2_2 t) (hs2_2 t) (ms2_3 t) (hs2_3 t) (ms2_4 t) (hs2_4 t) accM (Memref.isWhole_whole _) (fun h => h0 ((atFirst_iff t).mp h)) (fun h => h1 ((atLast_iff t).mp h)) (blk2 V c 0 t) (blk2 V c 1 t) (blk2 V c 2 t) (blk2 V c 3 t) (stepAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem stepAt_last (c : Dev nD) (t : Fin cfg2.N) (h0 : ¬t.val % 4 = 0) (h1 : t.val % 4 = 3) :
    stepAt V c t.val t.isLt = (outLast c (grid2.coords t) (ms2_0 t) (hs2_0 t) (ms2_1 t) (hs2_1 t) (ms2_2 t) (hs2_2 t) (ms2_3 t) (hs2_3 t) (ms2_4 t) (hs2_4 t) accM (Memref.isWhole_whole _) (fun h => h0 ((atFirst_iff t).mp h)) ((atLast_iff t).mpr h1) (blk2 V c 0 t) (blk2 V c 1 t) (blk2 V c 2 t) (blk2 V c 3 t) (stepAt V c (t.val - 1) (Nat.lt_of_le_of_lt (Nat.sub_le _ _) t.isLt)).2, accLast c (grid2.coords t) (ms2_0 t) (hs2_0 t) (ms2_1 t) (hs2_1 t) (ms2_2 t) (hs2_2 t) (ms2_3 t) (hs2_3 t) (ms2_4 t) (hs2_4 t) accM (Memref.isWhole_whole _) (fun h => h0 ((atFirst_iff t).mp h)) ((atLast_iff t).mpr h1) (blk2 V c 0 t) (blk2 V c 1 t) (blk2 V c 2 t) (blk2 V c 3 t) (stepAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the plain one (every scoped buffer
    that is no staging buffer of this region at anything); afterwards the same with the accumulator at what
    the point before left in it. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) accM fullShare ((stepAt V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) accM fullShare ((stepAt V c n hn).2)) ∗ (∃ r, prngReg c r)) := rfl

theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) accM fullShare ((stepAt V c (n - 1) (by omega)).2)) ∗ (∃ r, prngReg c r)) := by
  cases n with
  | zero => exact absurd rfl hz
  | succ n => rfl

/-! ## The pipeline's proof data -/

/-- The proof data of the pipeline on core `c`: the arrays as the region finds them; after the body at a
    point each input's buffer at its block and the output's at `stepAt`'s first component; the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => (stepAt V c t.val t.isLt).1
  Φ t := PhiS2 V c t.val (Nat.le_of_lt_succ t.isLt)
  q _ := fullShare
  owed _ := 0

theorem dat2_A (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) : (dat2 V c).after 4 t = (stepAt V c t.val t.isLt).1 := by dsimp only [dat2]

theorem dat2_found0 (c : Dev nD) (t : Fin cfg2.N) (d) : (dat2 V c).before 0 t d = blk2 V c 0 t :=
  found2_0_of V (dat2 V c) (dat2_A V c 0) (dat2_after0 V c) t d
theorem dat2_found1 (c : Dev nD) (t : Fin cfg2.N) (d) : (dat2 V c).before 1 t d = blk2 V c 1 t :=
  found2_1_of V (dat2 V c) (dat2_A V c 1) (dat2_after1 V c) t d
theorem dat2_found2 (c : Dev nD) (t : Fin cfg2.N) (d) : (dat2 V c).before 2 t d = blk2 V c 2 t :=
  found2_2_of V (dat2 V c) (dat2_A V c 2) (dat2_after2 V c) t d
theorem dat2_found3 (c : Dev nD) (t : Fin cfg2.N) (d) : (dat2 V c).before 3 t d = blk2 V c 3 t :=
  found2_3_of V (dat2 V c) (dat2_A V c 3) (dat2_after3 V c) t d

/-! ## The body obligation -/

/-- What the body is called with at a point, the windows one by one, -/
def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the closed forms say which case the point
    is in; the invariant hands the body the accumulator at what the point before left (at anything before
    the first point) and takes it back at this point's value; the core owes nothing throughout. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_found0, dat2_found1, dat2_found2, dat2_found3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [live2_0 t], dat2_after0]
  rw [show (dat2 V c).leavesExact 1 t = owns (c : Thread nD τ) (ms2_1 t) fullShare ((dat2 V c).after 1 t) from by
    unfold Dat.leavesExact; rw [live2_1 t], dat2_after1]
  rw [show (dat2 V c).leavesExact 2 t = owns (c : Thread nD τ) (ms2_2 t) fullShare ((dat2 V c).after 2 t) from by
    unfold Dat.leavesExact; rw [live2_2 t], dat2_after2]
  rw [show (dat2 V c).leavesExact 3 t = owns (c : Thread nD τ) (ms2_3 t) fullShare ((dat2 V c).after 3 t) from by
    unfold Dat.leavesExact; rw [live2_3 t], dat2_after3]
  by_cases h0 : t.val % 4 = 0
  · by_cases h1 : t.val % 4 = 3
    · exfalso; omega
    · rw [Dat.leavesExact_idle (dat2 V c) 4 t (idle2_4 t (fun h => h1 ((atLast_iff t).mp h))) (noFlush2_4 t (fun h => h1 ((atLast_iff t).mp h)))]
      rw [stepAt_first V c t h0 h1]
      unfold accFirst; (try dsimp only)
      by_cases hz : t.val = 0
      · rw [PhiS2_castSucc V c t, PhiS2_zero V c _ _ hz, PhiA2_eq]
        iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩⟩
        iapply ((accRunFirst c (grid2.coords t) _ _ _ _ _ _ _ _ _ _ _ _ ((atFirst_iff t).mpr h0) (fun h => h1 ((atLast_iff t).mp h)) (blk2 V c 0 t) (blk2 V c 1 t) (blk2 V c 2 t) (blk2 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [R0 R1 R2 R3 R4 R5 R6 R7 R8 R9 R10 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS
          ipureintro; exact View.read_writes_of_cover _ _ _ _ _ (accFirst_cover c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩⟩
        iapply ((accRunFirst c (grid2.coords t) _ _ _ _ _ _ _ _ _ _ _ _ ((atFirst_iff t).mpr h0) (fun h => h1 ((atLast_iff t).mp h)) (blk2 V c 0 t) (blk2 V c 1 t) (blk2 V c 2 t) (blk2 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [R0 R1 R2 R3 R4 R5 R6 R7 R8 R9 R10 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS
          ipureintro; exact View.read_writes_of_cover _ _ _ _ _ (accFirst_cover c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat2 V c).leavesExact 4 t = owns (c : Thread nD τ) (ms2_4 t) fullShare ((dat2 V c).after 4 t) from by
        unfold Dat.leavesExact; rw [live2_4 t ((atLast_iff t).mpr h1)], dat2_after4]
      rw [stepAt_last V c t h0 h1]
      unfold outLast accLast; (try dsimp only)
      by_cases hz : t.val = 0
      · exfalso; omega
      · rw [PhiS2_castSucc V c t, PhiS2_pos V c _ _ hz]
        iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩⟩
        iapply ((accRunLast c (grid2.coords t) _ _ _ _ _ _ _ _ _ _ _ _ (fun h => h0 ((atFirst_iff t).mp h)) ((atLast_iff t).mpr h1) (blk2 V c 0 t) (blk2 V c 1 t) (blk2 V c 2 t) (blk2 V c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [R0 R1 R2 R3 R4 R5 R6 R7 R8 R9 R10 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS
          ipureintro; exact View.read_writes_of_cover _ _ _ _ _ (accLast_cover c _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (outLast_cover c _ _ _ _ _ _ _ _ _ _ _ _ _ _ _ _ _ _ _ _)
    · rw [Dat.leavesExact_idle (dat2 V c) 4 t (idle2_4 t (fun h => h1 ((atLast_iff t).mp h))) (noFlush2_4 t (fun h => h1 ((atLast_iff t).mp h)))]
      rw [stepAt_mid V c t h0 h1]
      unfold accMid; (try dsimp only)
      by_cases hz : t.val = 0
      · exfalso; omega
      · rw [PhiS2_castSucc V c t, PhiS2_pos V c _ _ hz]
        iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩⟩
        iapply ((accRunMid c (grid2.coords t) _ _ _ _ _ _ _ _ _ _ _ _ (fun h => h0 ((atFirst_iff t).mp h)) (fun h => h1 ((atLast_iff t).mp h)) (blk2 V c 0 t) (blk2 V c 1 t) (blk2 V c 2 t) (blk2 V c 3 t) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [R0 R1 R2 R3 R4 R5 R6 R7 R8 R9 R10 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS
          ipureintro; exact View.read_writes_of_cover _ _ _ _ _ (accMid_cover c _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4

/-- The body obligation, at every point. -/
theorem obligation2 (c : Dev nD) : BodyObligation (dat2 (F := F) V c) (defs₀ (F := F)) Variants.none () Set.univ := fun t => by
  rw [bigSep_W2, bigSep_W2]
  exact body2_at V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the plain one back: the accumulator's value is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨R0, R1, R2, R3, R4, R5, R6, R7, R8, R9, R10, HS⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexists _; iexact HS

end Cert.Kernel.Hand

end
-- ==== Proof.BitsRun.lean ====
/-
  The run of the whole program: one stretch of host operations (the two scales, their reciprocals, the
  reshapes), then the three regions.  The buffers' contents at each boundary are a fold from the launch
  memory: after the host stretch, then after each region with that region's arrays at what its pipeline
  leaves and every other buffer as it was.  Each region is entered from "every unscoped buffer at the
  boundary's contents, the generator register at some state, nothing owed" and left in the same form, so the
  four segments chain.  The run ends with every unscoped buffer at the last boundary's contents; read there,
  the two arguments are as launched and the result array is what region 2's pipeline leaves.
-/
import proofs.«120888_j49770081026763_2_alg».proof.Proof.BitsRegion0
import proofs.«120888_j49770081026763_2_alg».proof.Proof.BitsRegion1
import proofs.«120888_j49770081026763_2_alg».proof.Proof.BitsAcc

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem left1 (c : Dev nD) (w : Fin cfg1.W) : (dat1 (V2 m ρ) c).arrAt w cfg1.N = V3 m ρ c (Pipeline.arrRef spec1 w) :=
  (W3_arr m ρ c w).symm
theorem kept1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
theorem left2 (c : Dev nD) (w : Fin cfg2.W) : (dat2 (V3 m ρ) c).arrAt w cfg2.N = V4 m ρ c (Pipeline.arrRef spec2 w) :=
  (W4_arr m ρ c w).symm
theorem kept2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (dat0_A (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (W3_arr m ρ c 0).trans (((dat1 (V2 m ρ) c).arrAt_in 0 rfl _).trans (dat1_A (V2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The result array ends at what region 2's pipeline leaves in its output window's array. -/
theorem W4_result (c : Dev nD) : W4 m ρ c (Proc.devRef .tc main_v22) = (dat2 (V3 m ρ) c).arrAt 4 cfg2.N :=
  W4_arr m ρ c 4

/-! ## The proof data family and the thread state -/

/-- No pipeline has a prefetched table. -/
abbrev noTables : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core
    owing nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps0_noAlloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`.  Its arrays
    are split out of the unscoped buffers and put back at the exit contents; the generator register goes into
    the region's invariant and comes out; nothing is owed; the kernel has no semaphore of its own. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`.  Its arrays
    are split out of the unscoped buffers and put back at the exit contents; the generator register goes into
    the region's invariant and comes out; nothing is owed; the kernel has no semaphore of its own. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`.  Its arrays
    are split out of the unscoped buffers and put back at the exit contents; the generator register goes into
    the region's invariant and comes out; nothing is owed; the kernel has no semaphore of its own. -/
def reg2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have hgive : (Pipeline.ΦA spec2 c : sProp 𝕄) ⊢ iprop((∃ r, prngReg c r) ∗ BI.emp ∗ Pipeline.scopedRest (Pipeline.pin (pcfgs (F := F)) noTables 2).spec c) := by
      unfold Pipeline.ΦA
      iintro ⟨Hr, Hp⟩
      isplitl [Hp]; · iexact Hp
      isplitr; · iempintro
      iexact Hr
    exact (hout2 (V3 m ρ) c).trans hgive
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) noTables (pdats m ρ) () defs₀ 𝒱₀ L lv) :=
  [ .host (hseg hostOps0 hostOps0_sub hostOps0_noAlloc (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates,
    nothing faulting, and every final state has the result array at what region 2's pipeline leaves in its
    output array and the two arguments as launched. -/
theorem run : θ_run defs (onTc (τ := τ) (main (F := F))) ⟨m, fun _ => 0, ρ⟩ (fun r => ∀ c : Dev nD,
      r.2.mem ((c.tc : Thread nD τ).loc main_v22) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v22 (by decide))).trans (W4_result m ρ c),
       (h c _ (mem_uc main_arg0 (by decide))).trans (W4_main_arg0 m ρ c),
       (h c _ (mem_uc main_arg1 (by decide))).trans (W4_main_arg1 m ρ c)⟩)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.Kernel.Hand

end
-- ==== Proof.IdealAccBase.lean ====
/-
  Region 2 of the program: the integer product, accumulated over the contraction axis.  The grid is
  (i, j, k) with k innermost; the body keeps an accumulator in a scratch buffer across the four points of a
  (i, j) tile: it clears it at k = 0, adds the product of the two operand blocks at every k, and at k = 3
  rounds it, scales it by the activation scale and the row of weight scales, and writes the output block.
  This module holds what the three cases of the body share: the windows' blocks as the region finds them,
  the two branch conditions in closed form over the grid, where the output window is idle, and the staging
  and scratch buffers' names.
-/
import proofs.«120888_j49770081026763_2_alg».proof.Proof.Gen.KernelIdeal.Launch
import proofs.«120888_j49770081026763_2_alg».proof.Proof.Gen.KernelIdeal.Skeleton
import proofs.«120888_j49770081026763_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's staging buffer holds its block at every point, fetched there or not. -/
theorem found2_0_of {c : Dev nD} (dat : Dat τ (Elt F) Unit ℕ (UR sig nD τ) ℕ cfg2 c) (hA : dat.A 0 = V c (Pipeline.arrRef spec2 0))
    (hafter : ∀ t, dat.after 0 t = blk2 V c 0 t) (t : Fin cfg2.N) (d) : dat.before 0 t d = blk2 V c 0 t :=
  (dat.before_in_eq_fetched 0 rfl (fun _ => rfl) (fun _ _ _ => rfl) (fun t => by rw [hafter]; unfold Dat.blockOf blk2; rw [hA]; try rfl) t d).trans
    (by unfold Dat.fetched Dat.blockOf blk2; rw [hA]; try rfl)
theorem found2_1_of {c : Dev nD} (dat : Dat τ (Elt F) Unit ℕ (UR sig nD τ) ℕ cfg2 c) (hA : dat.A 1 = V c (Pipeline.arrRef spec2 1))
    (hafter : ∀ t, dat.after 1 t = blk2 V c 1 t) (t : Fin cfg2.N) (d) : dat.before 1 t d = blk2 V c 1 t :=
  (dat.before_in_eq_fetched 1 rfl (fun _ => rfl) (fun _ _ _ => rfl) (fun t => by rw [hafter]; unfold Dat.blockOf blk2; rw [hA]; try rfl) t d).trans
    (by unfold Dat.fetched Dat.blockOf blk2; rw [hA]; try rfl)
theorem found2_2_of {c : Dev nD} (dat : Dat τ (Elt F) Unit ℕ (UR sig nD τ) ℕ cfg2 c) (hA : dat.A 2 = V c (Pipeline.arrRef spec2 2))
    (hafter : ∀ t, dat.after 2 t = blk2 V c 2 t) (t : Fin cfg2.N) (d) : dat.before 2 t d = blk2 V c 2 t :=
  (dat.before_in_eq_fetched 2 rfl (fun _ => rfl) (fun _ _ _ => rfl) (fun t => by rw [hafter]; unfold Dat.blockOf blk2; rw [hA]; try rfl) t d).trans
    (by unfold Dat.fetched Dat.blockOf blk2; rw [hA]; try rfl)
theorem found2_3_of {c : Dev nD} (dat : Dat τ (Elt F) Unit ℕ (UR sig nD τ) ℕ cfg2 c) (hA : dat.A 3 = V c (Pipeline.arrRef spec2 3))
    (hafter : ∀ t, dat.after 3 t = blk2 V c 3 t) (t : Fin cfg2.N) (d) : dat.before 3 t d = blk2 V c 3 t :=
  (dat.before_in_eq_fetched 3 rfl (fun _ => rfl) (fun _ _ _ => rfl) (fun t => by rw [hafter]; unfold Dat.blockOf blk2; rw [hA]; try rfl) t d).trans
    (by unfold Dat.fetched Dat.blockOf blk2; rw [hA]; try rfl)

/-! ## The two branch conditions over the grid -/

/-- "This is the first step along the contraction axis" (k = 0), as the body computes it. -/
abbrev atFirst (i : grid2.Coords) : Prop := (Scalar.cmpi .ne (Scalar.extui (Scalar.cmpi .eq (BitVec.ofNat 32 (i 2).val) 0#32)) 0#32) = 1#1
/-- It holds at the points ≡ 0 (mod 4). -/
theorem atFirst_iff : ∀ t : Fin cfg2.N, atFirst (grid2.coords t) ↔ t.val % 4 = 0 :=
  (by decide +kernel : ∀ t : Fin grid2.N, atFirst (grid2.coords t) ↔ t.val % 4 = 0)

/-- "This is the last step along the contraction axis" (k = 3), as the body computes it. -/
abbrev atLast (i : grid2.Coords) : Prop := k2_cond2 i = 1#1
/-- It holds at the points ≡ 3 (mod 4). -/
theorem atLast_iff : ∀ t : Fin cfg2.N, atLast (grid2.coords t) ↔ t.val % 4 = 3 :=
  (by decide +kernel : ∀ t : Fin grid2.N, atLast (grid2.coords t) ↔ t.val % 4 = 3)

/-! ## Where the windows are idle -/

theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel
theorem live2_3 : ∀ t : Fin cfg2.N, cfg2.idle 3 (grid2.coords t) = false := by decide +kernel
/-- Away from the last step the output window is idle: nothing is stored into it, -/
theorem idle2_4 : ∀ t : Fin cfg2.N, ¬atLast (grid2.coords t) → cfg2.idle 4 (grid2.coords t) = true := by decide +kernel
/-- and its block is not written back. -/
theorem noFlush2_4 : ∀ t : Fin cfg2.N, ¬atLast (grid2.coords t) → (cfg2.win 4).flush t = false := by decide +kernel
/-- At the last step it is live. -/
theorem live2_4 : ∀ t : Fin cfg2.N, atLast (grid2.coords t) → cfg2.idle 4 (grid2.coords t) = false := by decide +kernel

/-! ## The buffers the body is called on -/

/-- One staging buffer of the output window, through which its contents are stated. -/
abbrev VO2 : View sig .tc .vmem S2048x1024 .f32 := (Memref.whole cc2_stg4_0 : Memref sig .tc .vmem S2048x1024 .f32).view
abbrev ms2_0 (t : Fin cfg2.N) : Memref sig .tc .vmem S2048x1024 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1024x1024 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S1x1024 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S2048x1024 .f32 := win2_4.stage (cfg2.slots t 4)
abbrev hs2_4 (t : Fin cfg2.N) : (ms2_4 t).IsWhole := hstage2_4 ((cfg2.slots t 4).cast nbuf2_4)
/-- The accumulator: a whole scoped buffer of the kernel's own, passed beside the windows. -/
abbrev accM : Memref sig .tc .vmem S2048x1024 .f32 := Memref.whole cc2_scratch0
abbrev accV : View sig .tc .vmem S2048x1024 .f32 := accM.view

/-- The region's plain invariant with the accumulator as a buffer owned at some contents. -/
theorem PhiA2_eq (c : Dev nD) :
    (Pipeline.ΦA spec2 c : sProp 𝕄)
      = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ (∃ d, owns (c : Thread nD τ) accM fullShare d)) ∗ (∃ r, prngReg c r)) := by
  unfold Pipeline.ΦA; rw [scopedRest2_eq]; simp only [accM, owns_whole]; try rfl

end Cert.KernelIdeal.Hand

end
-- ==== Proof.IdealAccFirst.lean ====
/-
  The accumulating body run whole in one of its three cases: the first step along the contraction axis (the accumulator is cleared, then the first product added; the output block is left alone).
  The pieces the stores leave in the output block and in the accumulator are found by running the body; the
  run is the witness.
-/
import proofs.«120888_j49770081026763_2_alg».proof.Proof.IdealAccBase

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first) in the output block and in the accumulator in this
    case, with the proof that on whole buffers — the four inputs at their contents, the idle output handed back untouched, the
    accumulator at anything — the body runs to the continuation with the inputs as they were and those pieces written. -/
noncomputable def accRunFirst (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : atFirst i) (hc1 : ¬atLast i)
    (x0 : Vec F S2048x1024 .bf16) (x1 : Vec F S1024x1024 .bf16) (x2 : Vec F S1x1 .f32) (x3 : Vec F S1x1024 .f32) :
    Σ' (L4 : List (View.Piece (Elt F) S2048x1024 .f32)), { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ d, owns (c : Thread nD τ) arg8 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2__qgemm_kernel i arg3 harg3 arg4 harg4 arg5 harg5 arg6 harg6 arg7 harg7 arg8 harg8) K } := by
  refine ⟨[], ?_, fun xi E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%f4, %hf4, H4⟩, ⟨%ds, %fs, -, HS⟩, Hk⟩
    obtain rfl := harg3.eq_unread hf0; obtain rfl := harg4.eq_unread hf1; obtain rfl := harg5.eq_unread hf2; obtain rfl := harg6.eq_unread hf3; obtain rfl := harg7.eq_unread hf4
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.IdealAccMid.lean ====
/-
  The accumulating body run whole in one of its three cases: a middle step (the product is added to what the step before left; the output block is left alone).
  The pieces the stores leave in the output block and in the accumulator are found by running the body; the
  run is the witness.
-/
import proofs.«120888_j49770081026763_2_alg».proof.Proof.IdealAccFirst

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first) in the output block and in the accumulator in this
    case, with the proof that on whole buffers — the four inputs at their contents, the idle output handed back untouched, the
    accumulator at what the step before left — the body runs to the continuation with the inputs as they were and those pieces written. -/
noncomputable def accRunMid (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : ¬atLast i)
    (x0 : Vec F S2048x1024 .bf16) (x1 : Vec F S1024x1024 .bf16) (x2 : Vec F S1x1 .f32) (x3 : Vec F S1x1024 .f32) (acc : Vec F S2048x1024 .f32) :
    Σ' (L4 : List (View.Piece (Elt F) S2048x1024 .f32)), { LS : List (View.Piece (Elt F) S2048x1024 .f32) //
      ∀ (xi : Vec F S2048x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ owns (c : Thread nD τ) arg8 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare xi ∗ (∃ f, arg8.view.loc (c : Thread nD τ) ↦[arg8.view.set]{fullShare} arg8.view.writes (Elt F) f LS)) -∗ K ⟨⟩))
          ⊢ wp frame (wpE (defs₀ (F := F)) Variants.none c none) E (cc2__qgemm_kernel i arg3 harg3 arg4 harg4 arg5 harg5 arg6 harg6 arg7 harg7 arg8 harg8) K } := by
  refine ⟨[], ?_, fun xi E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%f4, %hf4, H4⟩, ⟨%fs, %hfs, HS⟩, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    iexists _; iexact HS

end Cert.KernelIdeal.Hand

end
-- ==== Proof.IdealAccLast.lean ====
/-
  The accumulating body run whole in one of its three cases: the last step (the product is added, and the rounded, rescaled accumulator is stored into the output block).
  The pieces the stores leave in the output block and in the accumulator are found by running the body; the
  run is the witness.
-/
import proofs.«120888_j49770081026763_2_alg».proof.Proof.IdealAccMid

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 1000000 in
/-- The pieces the body's stores leave (last first) in the output block and in the accumulator in this
    case, with the proof that on whole buffers — the four inputs at their contents, the output at anything, the
    accumulator at what the step before left — the body runs to the continuation with the inputs as they were and those pieces written. -/
noncomputable def accRunLast (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i)
    (x0 : Vec F S2048x1024 .bf16) (x1 : Vec F S1024x1024 .bf16) (x2 : Vec F S1x1 .f32) (x3 : Vec F S1x1024 .f32) (acc : Vec F S2048x1024 .f32) :
    Σ' (L4 : List (View.Piece (Elt F) S2048x1024 .f32)), { LS : List (View.Piece (Elt F) S2048x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ (∃ d, owns (c : Thread nD τ) arg7 fullShare d) ∗ owns (c : Thread nD τ) arg8 fullShare acc
            ∗ (iprop(owns (c : Thread nD τ) arg3 fullShare x0 ∗ owns (c : Thread nD τ) arg4 fullShare x1 ∗ owns (c : Thread nD τ) arg5 fullShare x2 ∗ owns (c : Thread nD τ) arg6 fullShare x3 ∗ (∃ f, arg7.view.loc (c : Thread nD τ) ↦[arg7.view.set]{fullShare} arg7.view.writes (Elt F) f L4) ∗ (∃ f, arg8.view.loc (c : Thread nD τ) ↦[arg8.view.set]{fullShare} arg8.view.writes (Elt F) f LS)) -∗ K ⟨⟩))
          ⊢ wp frame (wpE (defs₀ (F := F)) Variants.none c none) E (cc2__qgemm_kernel i arg3 harg3 arg4 harg4 arg5 harg5 arg6 harg6 arg7 harg7 arg8 harg8) K } := by
  refine ⟨?_, ?_, fun E K => ?run⟩
  case run =>
    simp only [cc2__qgemm_kernel_eq_skeleton]; unfold cc2__qgemm_kernel_skel
    unfold owns
    iintro ⟨⟨%f0, %hf0, H0⟩, ⟨%f1, %hf1, H1⟩, ⟨%f2, %hf2, H2⟩, ⟨%f3, %hf3, H3⟩, ⟨%d4, %f4, -, H4⟩, ⟨%fs, %hfs, HS⟩, Hk⟩
    obtain rfl := harg3.eq_unread hf0; obtain rfl := harg4.eq_unread hf1; obtain rfl := harg5.eq_unread hf2; obtain rfl := harg6.eq_unread hf3; obtain rfl := harg8.eq_unread hfs
    sl_exec (disch := first | exact hc0 | exact hc1)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]; · iexists _; iexact H4
    iexists _; iexact HS

end Cert.KernelIdeal.Hand

end
-- ==== Proof.IdealAcc.lean ====
/-
  Region 2, the accumulating product: what the accumulator and the output block hold after every grid
  point, by recursion on the point (`stepAt`: the case the point is in, run on the point's blocks and on what
  the point before left in the accumulator); the region's invariant, which carries the accumulator at that
  value from one point to the next; the pipeline's proof data; and the body obligation at every point.
-/
import proofs.«120888_j49770081026763_2_alg».proof.Proof.IdealAccLast

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What each case leaves -/

/-- The first step's stores cover the accumulator. -/
theorem accFirst_cover (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : atFirst i) (hc1 : ¬atLast i) (x0 : Vec F S2048x1024 .bf16) (x1 : Vec F S1024x1024 .bf16) (x2 : Vec F S1x1 .f32) (x3 : Vec F S1x1024 .f32) (y : S2048x1024.Idx) :
    ∃ pc ∈ (accRunFirst (F := F) c i arg3 harg3 arg4 harg4 arg5 harg5 arg6 harg6 arg7 harg7 arg8 harg8 hc0 hc1 x0 x1 x2 x3).2.1, y ∈ pc.1.set :=
  View.cover_of_tiledL (accRunFirst (F := F) c i arg3 harg3 arg4 harg4 arg5 harg5 arg6 harg6 arg7 harg7 arg8 harg8 hc0 hc1 x0 x1 x2 x3).2.1 S2048x1024.size (by sl_kernel_rfl) y
/-- What the first step leaves in the accumulator. -/
def accFirst (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : atFirst i) (hc1 : ¬atLast i) (x0 : Vec F S2048x1024 .bf16) (x1 : Vec F S1024x1024 .bf16) (x2 : Vec F S1x1 .f32) (x3 : Vec F S1x1024 .f32) : Vec F S2048x1024 .f32 :=
  accV.read (Elt F) (accV.writes (Elt F) accV.junk (accRunFirst (F := F) c i arg3 harg3 arg4 harg4 arg5 harg5 arg6 harg6 arg7 harg7 arg8 harg8 hc0 hc1 x0 x1 x2 x3).2.1)

/-- A middle step's store covers the accumulator. -/
theorem accMid_cover (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : ¬atLast i) (x0 : Vec F S2048x1024 .bf16) (x1 : Vec F S1024x1024 .bf16) (x2 : Vec F S1x1 .f32) (x3 : Vec F S1x1024 .f32) (acc : Vec F S2048x1024 .f32) (y : S2048x1024.Idx) :
    ∃ pc ∈ (accRunMid (F := F) c i arg3 harg3 arg4 harg4 arg5 harg5 arg6 harg6 arg7 harg7 arg8 harg8 hc0 hc1 x0 x1 x2 x3 acc).2.1, y ∈ pc.1.set :=
  View.cover_of_tiledL (accRunMid (F := F) c i arg3 harg3 arg4 harg4 arg5 harg5 arg6 harg6 arg7 harg7 arg8 harg8 hc0 hc1 x0 x1 x2 x3 acc).2.1 S2048x1024.size (by sl_kernel_rfl) y
/-- What a middle step leaves in the accumulator. -/
def accMid (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : ¬atLast i) (x0 : Vec F S2048x1024 .bf16) (x1 : Vec F S1024x1024 .bf16) (x2 : Vec F S1x1 .f32) (x3 : Vec F S1x1024 .f32) (acc : Vec F S2048x1024 .f32) : Vec F S2048x1024 .f32 :=
  accV.read (Elt F) (accV.writes (Elt F) accV.junk (accRunMid (F := F) c i arg3 harg3 arg4 harg4 arg5 harg5 arg6 harg6 arg7 harg7 arg8 harg8 hc0 hc1 x0 x1 x2 x3 acc).2.1)

/-- The last step's store covers the accumulator, -/
theorem accLast_cover (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i) (x0 : Vec F S2048x1024 .bf16) (x1 : Vec F S1024x1024 .bf16) (x2 : Vec F S1x1 .f32) (x3 : Vec F S1x1024 .f32) (acc : Vec F S2048x1024 .f32) (y : S2048x1024.Idx) :
    ∃ pc ∈ (accRunLast (F := F) c i arg3 harg3 arg4 harg4 arg5 harg5 arg6 harg6 arg7 harg7 arg8 harg8 hc0 hc1 x0 x1 x2 x3 acc).2.1, y ∈ pc.1.set :=
  View.cover_of_tiledL (accRunLast (F := F) c i arg3 harg3 arg4 harg4 arg5 harg5 arg6 harg6 arg7 harg7 arg8 harg8 hc0 hc1 x0 x1 x2 x3 acc).2.1 S2048x1024.size (by sl_kernel_rfl) y
/-- and this is what it leaves there. -/
def accLast (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i) (x0 : Vec F S2048x1024 .bf16) (x1 : Vec F S1024x1024 .bf16) (x2 : Vec F S1x1 .f32) (x3 : Vec F S1x1024 .f32) (acc : Vec F S2048x1024 .f32) : Vec F S2048x1024 .f32 :=
  accV.read (Elt F) (accV.writes (Elt F) accV.junk (accRunLast (F := F) c i arg3 harg3 arg4 harg4 arg5 harg5 arg6 harg6 arg7 harg7 arg8 harg8 hc0 hc1 x0 x1 x2 x3 acc).2.1)
/-- The last step's store covers the output block, -/
theorem outLast_cover (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i) (x0 : Vec F S2048x1024 .bf16) (x1 : Vec F S1024x1024 .bf16) (x2 : Vec F S1x1 .f32) (x3 : Vec F S1x1024 .f32) (acc : Vec F S2048x1024 .f32) (y : S2048x1024.Idx) :
    ∃ pc ∈ (accRunLast (F := F) c i arg3 harg3 arg4 harg4 arg5 harg5 arg6 harg6 arg7 harg7 arg8 harg8 hc0 hc1 x0 x1 x2 x3 acc).1, y ∈ pc.1.set :=
  View.cover_of_tiledL (accRunLast (F := F) c i arg3 harg3 arg4 harg4 arg5 harg5 arg6 harg6 arg7 harg7 arg8 harg8 hc0 hc1 x0 x1 x2 x3 acc).1 S2048x1024.size (by sl_kernel_rfl) y
/-- and this is what it leaves there. -/
def outLast (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i) (x0 : Vec F S2048x1024 .bf16) (x1 : Vec F S1024x1024 .bf16) (x2 : Vec F S1x1 .f32) (x3 : Vec F S1x1024 .f32) (acc : Vec F S2048x1024 .f32) : Vec F S2048x1024 .f32 :=
  VO2.read (Elt F) (VO2.writes (Elt F) VO2.junk (accRunLast (F := F) c i arg3 harg3 arg4 harg4 arg5 harg5 arg6 harg6 arg7 harg7 arg8 harg8 hc0 hc1 x0 x1 x2 x3 acc).1)

/-- The output block where no step stores into it: a placeholder nothing consults (the window is idle there
    and its block is not written back). -/
def outIdle : Vec F S2048x1024 .f32 := VO2.read (Elt F) (VO2.writes (Elt F) VO2.junk [])

/-! ## Point by point -/

/-- What the output block and the accumulator hold after the body at position `n`: the case the position is
    in, run on the point's blocks and, past the first step of a tile, on what the point before left in the
    accumulator. -/
def stepAt (c : Dev nD) : (n : ℕ) → n < cfg2.N → Vec F S2048x1024 .f32 × Vec F S2048x1024 .f32
  | 0, hn => (outIdle, accFirst c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) (ms2_3 ⟨0, hn⟩) (hs2_3 ⟨0, hn⟩) (ms2_4 ⟨0, hn⟩) (hs2_4 ⟨0, hn⟩) accM (Memref.isWhole_whole _) ((atFirst_iff ⟨0, hn⟩).mpr (Nat.zero_mod _)) (fun h => (fun h => by (try dsimp only at h); omega) ((atLast_iff ⟨0, hn⟩).mp h)) (blk2 V c 0 ⟨0, hn⟩) (blk2 V c 1 ⟨0, hn⟩) (blk2 V c 2 ⟨0, hn⟩) (blk2 V c 3 ⟨0, hn⟩))
  | n + 1, hn =>
    if h0 : (n + 1) % 4 = 0 then
      if h1 : (n + 1) % 4 = 3 then
        False.elim (by omega)
      else
        (outIdle, accFirst c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) accM (Memref.isWhole_whole _) ((atFirst_iff ⟨n + 1, hn⟩).mpr h0) (fun h => h1 ((atLast_iff ⟨n + 1, hn⟩).mp h)) (blk2 V c 0 ⟨n + 1, hn⟩) (blk2 V c 1 ⟨n + 1, hn⟩) (blk2 V c 2 ⟨n + 1, hn⟩) (blk2 V c 3 ⟨n + 1, hn⟩))
    else
      if h1 : (n + 1) % 4 = 3 then
        (outLast c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) accM (Memref.isWhole_whole _) (fun h => h0 ((atFirst_iff ⟨n + 1, hn⟩).mp h)) ((atLast_iff ⟨n + 1, hn⟩).mpr h1) (blk2 V c 0 ⟨n + 1, hn⟩) (blk2 V c 1 ⟨n + 1, hn⟩) (blk2 V c 2 ⟨n + 1, hn⟩) (blk2 V c 3 ⟨n + 1, hn⟩) (stepAt c n (Nat.lt_of_succ_lt hn)).2, accLast c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) accM (Memref.isWhole_whole _) (fun h => h0 ((atFirst_iff ⟨n + 1, hn⟩).mp h)) ((atLast_iff ⟨n + 1, hn⟩).mpr h1) (blk2 V c 0 ⟨n + 1, hn⟩) (blk2 V c 1 ⟨n + 1, hn⟩) (blk2 V c 2 ⟨n + 1, hn⟩) (blk2 V c 3 ⟨n + 1, hn⟩) (stepAt c n (Nat.lt_of_succ_lt hn)).2)
      else
        (outIdle, accMid c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) (ms2_3 ⟨n + 1, hn⟩) (hs2_3 ⟨n + 1, hn⟩) (ms2_4 ⟨n + 1, hn⟩) (hs2_4 ⟨n + 1, hn⟩) accM (Memref.isWhole_whole _) (fun h => h0 ((atFirst_iff ⟨n + 1, hn⟩).mp h)) (fun h => h1 ((atLast_iff ⟨n + 1, hn⟩).mp h)) (blk2 V c 0 ⟨n + 1, hn⟩) (blk2 V c 1 ⟨n + 1, hn⟩) (blk2 V c 2 ⟨n + 1, hn⟩) (blk2 V c 3 ⟨n + 1, hn⟩) (stepAt c n (Nat.lt_of_succ_lt hn)).2)

/-- At a first step. -/
theorem stepAt_first (c : Dev nD) (t : Fin cfg2.N) (h0 : t.val % 4 = 0) (h1 : ¬t.val % 4 = 3) :
    stepAt V c t.val t.isLt = (outIdle, accFirst c (grid2.coords t) (ms2_0 t) (hs2_0 t) (ms2_1 t) (hs2_1 t) (ms2_2 t) (hs2_2 t) (ms2_3 t) (hs2_3 t) (ms2_4 t) (hs2_4 t) accM (Memref.isWhole_whole _) ((atFirst_iff t).mpr h0) (fun h => h1 ((atLast_iff t).mp h)) (blk2 V c 0 t) (blk2 V c 1 t) (blk2 V c 2 t) (blk2 V c 3 t)) := by
  obtain ⟨n, hn⟩ := t
  cases n with
  | zero => exact rfl
  | succ n => exact (dif_pos h0).trans ((dif_neg h1).trans rfl)

/-- At a middle step: over what the point before left. -/
theorem stepAt_mid (c : Dev nD) (t : Fin cfg2.N) (h0 : ¬t.val % 4 = 0) (h1 : ¬t.val % 4 = 3) :
    stepAt V c t.val t.isLt = (outIdle, accMid c (grid2.coords t) (ms2_0 t) (hs2_0 t) (ms2_1 t) (hs2_1 t) (ms2_2 t) (hs2_2 t) (ms2_3 t) (hs2_3 t) (ms2_4 t) (hs2_4 t) accM (Memref.isWhole_whole _) (fun h => h0 ((atFirst_iff t).mp h)) (fun h => h1 ((atLast_iff t).mp h)) (blk2 V c 0 t) (blk2 V c 1 t) (blk2 V c 2 t) (blk2 V c 3 t) (stepAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_neg h1).trans rfl)

/-- At a last step: over what the point before left. -/
theorem stepAt_last (c : Dev nD) (t : Fin cfg2.N) (h0 : ¬t.val % 4 = 0) (h1 : t.val % 4 = 3) :
    stepAt V c t.val t.isLt = (outLast c (grid2.coords t) (ms2_0 t) (hs2_0 t) (ms2_1 t) (hs2_1 t) (ms2_2 t) (hs2_2 t) (ms2_3 t) (hs2_3 t) (ms2_4 t) (hs2_4 t) accM (Memref.isWhole_whole _) (fun h => h0 ((atFirst_iff t).mp h)) ((atLast_iff t).mpr h1) (blk2 V c 0 t) (blk2 V c 1 t) (blk2 V c 2 t) (blk2 V c 3 t) (stepAt V c (t.val - 1) (Nat.lt_of_le_of_lt (Nat.sub_le _ _) t.isLt)).2, accLast c (grid2.coords t) (ms2_0 t) (hs2_0 t) (ms2_1 t) (hs2_1 t) (ms2_2 t) (hs2_2 t) (ms2_3 t) (hs2_3 t) (ms2_4 t) (hs2_4 t) accM (Memref.isWhole_whole _) (fun h => h0 ((atFirst_iff t).mp h)) ((atLast_iff t).mpr h1) (blk2 V c 0 t) (blk2 V c 1 t) (blk2 V c 2 t) (blk2 V c 3 t) (stepAt V c (t.val - 1) (Nat.lt_of_le_of_lt (Nat.sub_le _ _) t.isLt)).2) := by
  obtain ⟨n, hn⟩ := t
  cases n with
  | zero => exact (by exfalso; (try dsimp only at h0); exact absurd (Nat.zero_mod _) h0)
  | succ n => exact (dif_neg h0).trans ((dif_pos h1).trans rfl)

/-! ## The invariant -/

/-- The region's invariant before position `n`: before the first point the plain one (every scoped buffer
    that is no staging buffer of this region at anything); afterwards the same with the accumulator at what
    the point before left in it. -/
def PhiS2 (c : Dev nD) : (n : ℕ) → n ≤ cfg2.N → sProp 𝕄
  | 0, _ => Pipeline.ΦA spec2 c
  | n + 1, hn => iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) accM fullShare ((stepAt V c n hn).2)) ∗ (∃ r, prngReg c r))

theorem PhiS2_zero (c : Dev nD) (n : ℕ) (h : n ≤ cfg2.N) (hz : n = 0) : PhiS2 V c n h = Pipeline.ΦA spec2 c := by
  subst hz; rfl

theorem PhiS2_succ (c : Dev nD) (n : ℕ) (hn : n < cfg2.N) :
    PhiS2 V c (n + 1) hn = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) accM fullShare ((stepAt V c n hn).2)) ∗ (∃ r, prngReg c r)) := rfl

theorem PhiS2_pos (c : Dev nD) (n : ℕ) (h : n ≤ cfg2.N) (hz : n ≠ 0) :
    PhiS2 V c n h = iprop(iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg2_1), ((c : Thread nD τ).loc cc0_stg2_1) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_stg2_1), ((c : Thread nD τ).loc cc1_stg2_1) ↦{fullShare} f) ∗ owns (c : Thread nD τ) accM fullShare ((stepAt V c (n - 1) (by omega)).2)) ∗ (∃ r, prngReg c r)) := by
  cases n with
  | zero => exact absurd rfl hz
  | succ n => rfl

/-! ## The pipeline's proof data -/

/-- The proof data of the pipeline on core `c`: the arrays as the region finds them; after the body at a
    point each input's buffer at its block and the output's at `stepAt`'s first component; the invariant
    `PhiS2`; nothing owed; full shares. -/
def dat2 (c : Dev nD) : Dat τ (Elt F) Unit ℕ (UR sig nD τ) ℕ cfg2 c where
  A w := V c (Pipeline.arrRef spec2 w)
  after w t := match w with
    | ⟨0, _⟩ => blk2 V c 0 t
    | ⟨1, _⟩ => blk2 V c 1 t
    | ⟨2, _⟩ => blk2 V c 2 t
    | ⟨3, _⟩ => blk2 V c 3 t
    | ⟨4, _⟩ => (stepAt V c t.val t.isLt).1
  Φ t := PhiS2 V c t.val (Nat.le_of_lt_succ t.isLt)
  q _ := fullShare
  owed _ := 0

theorem dat2_A (c : Dev nD) (w : Fin cfg2.W) : (dat2 V c).A w = V c (Pipeline.arrRef spec2 w) := by
  dsimp only [dat2]

theorem PhiS2_castSucc (c : Dev nD) (t : Fin cfg2.N) :
    (dat2 V c).Φ t.castSucc = PhiS2 V c t.val (Nat.le_of_lt t.isLt) := by
  dsimp only [dat2]; simp only [Fin.coe_castSucc]

theorem dat2_after0 (c : Dev nD) (t : Fin cfg2.N) : (dat2 V c).after 0 t = blk2 V c 0 t := by dsimp only [dat2]
theorem dat2_after1 (c : Dev nD) (t : Fin cfg2.N) : (dat2 V c).after 1 t = blk2 V c 1 t := by dsimp only [dat2]
theorem dat2_after2 (c : Dev nD) (t : Fin cfg2.N) : (dat2 V c).after 2 t = blk2 V c 2 t := by dsimp only [dat2]
theorem dat2_after3 (c : Dev nD) (t : Fin cfg2.N) : (dat2 V c).after 3 t = blk2 V c 3 t := by dsimp only [dat2]
theorem dat2_after4 (c : Dev nD) (t : Fin cfg2.N) : (dat2 V c).after 4 t = (stepAt V c t.val t.isLt).1 := by dsimp only [dat2]

theorem dat2_found0 (c : Dev nD) (t : Fin cfg2.N) (d) : (dat2 V c).before 0 t d = blk2 V c 0 t :=
  found2_0_of V (dat2 V c) (dat2_A V c 0) (dat2_after0 V c) t d
theorem dat2_found1 (c : Dev nD) (t : Fin cfg2.N) (d) : (dat2 V c).before 1 t d = blk2 V c 1 t :=
  found2_1_of V (dat2 V c) (dat2_A V c 1) (dat2_after1 V c) t d
theorem dat2_found2 (c : Dev nD) (t : Fin cfg2.N) (d) : (dat2 V c).before 2 t d = blk2 V c 2 t :=
  found2_2_of V (dat2 V c) (dat2_A V c 2) (dat2_after2 V c) t d
theorem dat2_found3 (c : Dev nD) (t : Fin cfg2.N) (d) : (dat2 V c).before 3 t d = blk2 V c 3 t :=
  found2_3_of V (dat2 V c) (dat2_A V c 3) (dat2_after3 V c) t d

/-! ## The body obligation -/

/-- What the body is called with at a point, the windows one by one, -/
def pre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

/-- and what it returns. -/
def post2 (c : Dev nD) (t : Fin cfg2.N) : sProp 𝕄 :=
  iprop((dat2 V c).Φ t.succ ∗ (dat2 V c).owesAt () t.succ
    ∗ (dat2 V c).leavesExact 0 t
    ∗ (dat2 V c).leavesExact 1 t
    ∗ (dat2 V c).leavesExact 2 t
    ∗ (dat2 V c).leavesExact 3 t
    ∗ (dat2 V c).leavesExact 4 t)

set_option maxHeartbeats 4800000 in
/-- The body at any point: the inputs' buffers hold their blocks; the closed forms say which case the point
    is in; the invariant hands the body the accumulator at what the point before left (at anything before
    the first point) and takes it back at this point's value; the core owes nothing throughout. -/
theorem body2_at (c : Dev nD) (t : Fin cfg2.N) :
    pre2 V c t ⊢ wp frame (wpE (defs₀ (F := F)) Variants.none c none) Set.univ (bodyAt2 t) (fun _ => post2 V c t) := by
  unfold pre2 post2 bodyAt2
  simp only [dat2_found0, dat2_found1, dat2_found2, dat2_found3]
  rw [show (dat2 V c).owesAt () t.succ = (dat2 V c).owesAt () t.castSucc from rfl]
  rw [show (dat2 V c).Φ t.succ = PhiS2 V c (t.val + 1) t.isLt from rfl, PhiS2_succ]
  have hN : t.val < 64 := lt_of_lt_of_eq t.isLt (show cfg2.N = 64 from N_2)
  rw [show (dat2 V c).leavesExact 0 t = owns (c : Thread nD τ) (ms2_0 t) fullShare ((dat2 V c).after 0 t) from by
    unfold Dat.leavesExact; rw [live2_0 t], dat2_after0]
  rw [show (dat2 V c).leavesExact 1 t = owns (c : Thread nD τ) (ms2_1 t) fullShare ((dat2 V c).after 1 t) from by
    unfold Dat.leavesExact; rw [live2_1 t], dat2_after1]
  rw [show (dat2 V c).leavesExact 2 t = owns (c : Thread nD τ) (ms2_2 t) fullShare ((dat2 V c).after 2 t) from by
    unfold Dat.leavesExact; rw [live2_2 t], dat2_after2]
  rw [show (dat2 V c).leavesExact 3 t = owns (c : Thread nD τ) (ms2_3 t) fullShare ((dat2 V c).after 3 t) from by
    unfold Dat.leavesExact; rw [live2_3 t], dat2_after3]
  by_cases h0 : t.val % 4 = 0
  · by_cases h1 : t.val % 4 = 3
    · exfalso; omega
    · rw [Dat.leavesExact_idle (dat2 V c) 4 t (idle2_4 t (fun h => h1 ((atLast_iff t).mp h))) (noFlush2_4 t (fun h => h1 ((atLast_iff t).mp h)))]
      rw [stepAt_first V c t h0 h1]
      unfold accFirst; (try dsimp only)
      by_cases hz : t.val = 0
      · rw [PhiS2_castSucc V c t, PhiS2_zero V c _ _ hz, PhiA2_eq]
        iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩⟩
        iapply ((accRunFirst c (grid2.coords t) _ _ _ _ _ _ _ _ _ _ _ _ ((atFirst_iff t).mpr h0) (fun h => h1 ((atLast_iff t).mp h)) (blk2 V c 0 t) (blk2 V c 1 t) (blk2 V c 2 t) (blk2 V c 3 t)).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [R0 R1 R2 R3 R4 R5 R6 R7 R8 R9 R10 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS
          ipureintro; exact View.read_writes_of_cover _ _ _ _ _ (accFirst_cover c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
      · rw [PhiS2_castSucc V c t, PhiS2_pos V c _ _ hz]
        iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩⟩
        iapply ((accRunFirst c (grid2.coords t) _ _ _ _ _ _ _ _ _ _ _ _ ((atFirst_iff t).mpr h0) (fun h => h1 ((atLast_iff t).mp h)) (blk2 V c 0 t) (blk2 V c 1 t) (blk2 V c 2 t) (blk2 V c 3 t)).2.2 _ Set.univ _)
        isplitl [H0]; · iexact H0
        isplitl [H1]; · iexact H1
        isplitl [H2]; · iexact H2
        isplitl [H3]; · iexact H3
        isplitl [H4]; · iexact H4
        isplitl [HS]; · iexists _; iexact HS
        iintro ⟨H0, H1, H2, H3, H4, ⟨%es, HS⟩⟩
        isplitl [R0 R1 R2 R3 R4 R5 R6 R7 R8 R9 R10 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS
          ipureintro; exact View.read_writes_of_cover _ _ _ _ _ (accFirst_cover c _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4
  · by_cases h1 : t.val % 4 = 3
    · rw [show (dat2 V c).leavesExact 4 t = owns (c : Thread nD τ) (ms2_4 t) fullShare ((dat2 V c).after 4 t) from by
        unfold Dat.leavesExact; rw [live2_4 t ((atLast_iff t).mpr h1)], dat2_after4]
      rw [stepAt_last V c t h0 h1]
      unfold outLast accLast; (try dsimp only)
      by_cases hz : t.val = 0
      · exfalso; omega
      · rw [PhiS2_castSucc V c t, PhiS2_pos V c _ _ hz]
        iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩⟩
        iapply ((accRunLast c (grid2.coords t) _ _ _ _ _ _ _ _ _ _ _ _ (fun h => h0 ((atFirst_iff t).mp h)) ((atLast_iff t).mpr h1) (blk2 V c 0 t) (blk2 V c 1 t) (blk2 V c 2 t) (blk2 V c 3 t) _).2.2 Set.univ _)
        isplitl [H0]; · iexact H0
        isplitl [H1]; · iexact H1
        isplitl [H2]; · iexact H2
        isplitl [H3]; · iexact H3
        isplitl [H4]; · iexists _; iexact H4
        isplitl [HS]; · iexact HS
        iintro ⟨H0, H1, H2, H3, ⟨%e4, H4⟩, ⟨%es, HS⟩⟩
        isplitl [R0 R1 R2 R3 R4 R5 R6 R7 R8 R9 R10 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS
          ipureintro; exact View.read_writes_of_cover _ _ _ _ _ (accLast_cover c _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        unfold owns; iexists _; isplitr
        swap; · iexact H4
        ipureintro; exact View.read_writes_of_cover _ _ _ _ _ (outLast_cover c _ _ _ _ _ _ _ _ _ _ _ _ _ _ _ _ _ _ _ _)
    · rw [Dat.leavesExact_idle (dat2 V c) 4 t (idle2_4 t (fun h => h1 ((atLast_iff t).mp h))) (noFlush2_4 t (fun h => h1 ((atLast_iff t).mp h)))]
      rw [stepAt_mid V c t h0 h1]
      unfold accMid; (try dsimp only)
      by_cases hz : t.val = 0
      · exfalso; omega
      · rw [PhiS2_castSucc V c t, PhiS2_pos V c _ _ hz]
        iintro ⟨⟨⟨R0, R1, R2, R3, R4, R5, R6, R7, R8, R9, R10, HS⟩, Hg⟩, Ho, ⟨%d0, H0⟩, ⟨%d1, H1⟩, ⟨%d2, H2⟩, ⟨%d3, H3⟩, ⟨%d4, H4⟩⟩
        iapply ((accRunMid c (grid2.coords t) _ _ _ _ _ _ _ _ _ _ _ _ (fun h => h0 ((atFirst_iff t).mp h)) (fun h => h1 ((atLast_iff t).mp h)) (blk2 V c 0 t) (blk2 V c 1 t) (blk2 V c 2 t) (blk2 V c 3 t) _).2.2 _ Set.univ _)
        isplitl [H0]; · iexact H0
        isplitl [H1]; · iexact H1
        isplitl [H2]; · iexact H2
        isplitl [H3]; · iexact H3
        isplitl [H4]; · iexact H4
        isplitl [HS]; · iexact HS
        iintro ⟨H0, H1, H2, H3, H4, ⟨%es, HS⟩⟩
        isplitl [R0 R1 R2 R3 R4 R5 R6 R7 R8 R9 R10 HS Hg]
        · isplitr [Hg]
          swap; · iexact Hg
          isplitl [R0]; · iexact R0
          isplitl [R1]; · iexact R1
          isplitl [R2]; · iexact R2
          isplitl [R3]; · iexact R3
          isplitl [R4]; · iexact R4
          isplitl [R5]; · iexact R5
          isplitl [R6]; · iexact R6
          isplitl [R7]; · iexact R7
          isplitl [R8]; · iexact R8
          isplitl [R9]; · iexact R9
          isplitl [R10]; · iexact R10
          unfold owns; iexists _; isplitr
          swap; · iexact HS
          ipureintro; exact View.read_writes_of_cover _ _ _ _ _ (accMid_cover c _ _ _ _ _ _ _ _ _ _ _ _ _ _ _ _ _ _ _ _)
        isplitl [Ho]; · iexact Ho
        isplitl [H0]; · iexact H0
        isplitl [H1]; · iexact H1
        isplitl [H2]; · iexact H2
        isplitl [H3]; · iexact H3
        iexists _; iexact H4

/-- The body obligation, at every point. -/
theorem obligation2 (c : Dev nD) : BodyObligation (dat2 (F := F) V c) (defs₀ (F := F)) Variants.none () Set.univ := fun t => by
  rw [bigSep_W2, bigSep_W2]
  exact body2_at V c t

/-- What the region is entered with is the invariant before the first point. -/
theorem hin2 (c : Dev nD) : Pipeline.ΦA spec2 c ⊢ (dat2 V c).Φ 0 := by
  rw [show (dat2 V c).Φ 0 = PhiS2 V c 0 (Nat.zero_le _) from rfl, PhiS2_zero V c 0 _ rfl]
  try exact Idealize.SL.BI.Entails.refl _

/-- After the last point the invariant gives the plain one back: the accumulator's value is forgotten. -/
theorem hout2 (c : Dev nD) : (dat2 V c).Φ (Fin.last cfg2.N) ⊢ Pipeline.ΦA spec2 c := by
  rw [show (dat2 V c).Φ (Fin.last cfg2.N) = PhiS2 V c (Fin.last cfg2.N).val (Nat.le_of_lt_succ (Fin.last cfg2.N).isLt) from rfl,
    PhiS2_pos V c _ _ (by rw [Fin.val_last]; have : cfg2.N = 64 := N_2; omega), PhiA2_eq]
  iintro ⟨⟨R0, R1, R2, R3, R4, R5, R6, R7, R8, R9, R10, HS⟩, Hg⟩
  isplitr [Hg]
  swap; · iexact Hg
  isplitl [R0]; · iexact R0
  isplitl [R1]; · iexact R1
  isplitl [R2]; · iexact R2
  isplitl [R3]; · iexact R3
  isplitl [R4]; · iexact R4
  isplitl [R5]; · iexact R5
  isplitl [R6]; · iexact R6
  isplitl [R7]; · iexact R7
  isplitl [R8]; · iexact R8
  isplitl [R9]; · iexact R9
  isplitl [R10]; · iexact R10
  iexists _; iexact HS

end Cert.KernelIdeal.Hand

end
-- ==== Proof.IdealAccPieces.lean ====
/-
  What the three cases of the accumulating body leave, as plain terms of the body's arithmetic: the first
  step leaves the product of the two operand blocks added to a cleared accumulator; a later step leaves the
  product added to what the step before left; the last step moreover leaves, in the output block, the
  rounded and rescaled accumulator.
-/
import proofs.«120888_j49770081026763_2_alg».proof.Proof.IdealAcc
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

/-- The whole-buffer rectangle starts at the origin. -/
theorem zeroOff2 : (![0, 0] : Fin 2 → Nat) = fun _ => 0 := by funext a; fin_cases a <;> rfl

/-- The first step: the cleared accumulator plus the first product. -/
theorem accFirst_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : atFirst i) (hc1 : ¬atLast i) (x0 : Vec F S2048x1024 .bf16) (x1 : Vec F S1024x1024 .bf16) (x2 : Vec F S1x1 .f32) (x3 : Vec F S1x1024 .f32) :
    accFirst (F := F) c i arg3 harg3 arg4 harg4 arg5 harg5 arg6 harg6 arg7 harg7 arg8 harg8 hc0 hc1 x0 x1 x2 x3 = k2_pay2 x0 x1 (k2_pay1 (F := F)) := by
  unfold accFirst
  rw [View.read_writes_eq_canon _ _ _ (accFirst_cover c i arg3 harg3 arg4 harg4 arg5 harg5 arg6 harg6 arg7 harg7 arg8 harg8 hc0 hc1 x0 x1 x2 x3)]
  unfold accRunFirst
  dsimp only
  sl_unfold_words
  rw [View.canon_cons_unit_zero zeroOff2]
  sl_unfold_words
  simp only [View.readAt_eq_ld, harg3.read_unread, harg4.read_unread, View.ld_unit_zero (S := S2048x1024) zeroOff2, View.ld_unit_zero (S := S1024x1024) zeroOff2]
  rw [View.readCov_unit_zero _ zeroOff2]

/-- A middle step: what the step before left plus the product. -/
theorem accMid_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : ¬atLast i) (x0 : Vec F S2048x1024 .bf16) (x1 : Vec F S1024x1024 .bf16) (x2 : Vec F S1x1 .f32) (x3 : Vec F S1x1024 .f32) (acc : Vec F S2048x1024 .f32) :
    accMid (F := F) c i arg3 harg3 arg4 harg4 arg5 harg5 arg6 harg6 arg7 harg7 arg8 harg8 hc0 hc1 x0 x1 x2 x3 acc = k2_pay2 x0 x1 acc := by
  unfold accMid
  rw [View.read_writes_eq_canon _ _ _ (accMid_cover c i arg3 harg3 arg4 harg4 arg5 harg5 arg6 harg6 arg7 harg7 arg8 harg8 hc0 hc1 x0 x1 x2 x3 acc)]
  unfold accRunMid
  dsimp only
  sl_unfold_words
  rw [View.canon_cons_unit_zero zeroOff2]
  sl_unfold_words
  simp only [View.readAt_eq_ld, harg3.read_unread, harg4.read_unread, harg8.read_unread, View.ld_unit_zero (S := S2048x1024) zeroOff2, View.ld_unit_zero (S := S1024x1024) zeroOff2]

/-- The last step leaves the same in the accumulator, -/
theorem accLast_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i) (x0 : Vec F S2048x1024 .bf16) (x1 : Vec F S1024x1024 .bf16) (x2 : Vec F S1x1 .f32) (x3 : Vec F S1x1024 .f32) (acc : Vec F S2048x1024 .f32) :
    accLast (F := F) c i arg3 harg3 arg4 harg4 arg5 harg5 arg6 harg6 arg7 harg7 arg8 harg8 hc0 hc1 x0 x1 x2 x3 acc = k2_pay2 x0 x1 acc := by
  unfold accLast
  rw [View.read_writes_eq_canon _ _ _ (accLast_cover c i arg3 harg3 arg4 harg4 arg5 harg5 arg6 harg6 arg7 harg7 arg8 harg8 hc0 hc1 x0 x1 x2 x3 acc)]
  unfold accRunLast
  dsimp only
  sl_unfold_words
  rw [View.canon_cons_unit_zero zeroOff2]
  sl_unfold_words
  simp only [View.readAt_eq_ld, harg3.read_unread, harg4.read_unread, harg8.read_unread, View.ld_unit_zero (S := S2048x1024) zeroOff2, View.ld_unit_zero (S := S1024x1024) zeroOff2]

/-- and in the output block that value rounded, times the activation scale, times the row of weight scales. -/
theorem outLast_eq (c : Dev nD) (i : grid2.Coords) (arg3 : Memref sig .tc .vmem S2048x1024 .bf16) (harg3 : arg3.IsWhole) (arg4 : Memref sig .tc .vmem S1024x1024 .bf16) (harg4 : arg4.IsWhole) (arg5 : Memref sig .tc .vmem S1x1 .f32) (harg5 : arg5.IsWhole) (arg6 : Memref sig .tc .vmem S1x1024 .f32) (harg6 : arg6.IsWhole) (arg7 : Memref sig .tc .vmem S2048x1024 .f32) (harg7 : arg7.IsWhole) (arg8 : Memref sig .tc .vmem S2048x1024 .f32) (harg8 : arg8.IsWhole) (hc0 : ¬atFirst i) (hc1 : atLast i) (x0 : Vec F S2048x1024 .bf16) (x1 : Vec F S1024x1024 .bf16) (x2 : Vec F S1x1 .f32) (x3 : Vec F S1x1024 .f32) (acc : Vec F S2048x1024 .f32) :
    outLast (F := F) c i arg3 harg3 arg4 harg4 arg5 harg5 arg6 harg6 arg7 harg7 arg8 harg8 hc0 hc1 x0 x1 x2 x3 acc = k2_pay3 x2 x3 (k2_pay2 x0 x1 acc) := by
  unfold outLast
  rw [View.read_writes_eq_canon _ _ _ (outLast_cover c i arg3 harg3 arg4 harg4 arg5 harg5 arg6 harg6 arg7 harg7 arg8 harg8 hc0 hc1 x0 x1 x2 x3 acc)]
  unfold accRunLast
  dsimp only
  sl_unfold_words
  rw [View.canon_cons_unit_zero zeroOff2]
  sl_unfold_words
  simp only [View.readAt_eq_ld, harg3.read_unread, harg4.read_unread, harg5.read_unread, harg6.read_unread, harg8.read_unread, View.ld_unit_zero (S := S2048x1024) zeroOff2, View.ld_unit_zero (S := S1024x1024) zeroOff2, View.ld_unit_zero (S := S1x1) zeroOff2, View.ld_unit_zero (S := S1x1024) zeroOff2]
  rw [View.readCov_unit_zero _ zeroOff2]

end Cert.KernelIdeal.Hand

end
-- ==== Proof.IdealAccSteps.lean ====
/-
  The accumulator and the output block after a grid point of region 2, as plain terms of the body's
  arithmetic over the point's blocks: at the first step of a tile the cleared accumulator plus the product;
  at a later step what the point before left plus the product; at the last step, in the output block, that
  value rounded and rescaled.
-/
import proofs.«120888_j49770081026763_2_alg».proof.Proof.IdealAccPieces

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

variable (V : (c : Dev nD) → (b : Ref sig .tc) → Buf (Elt F) ((c : Thread nD τ).loc b))

/-- The accumulator after the first step of a tile. -/
theorem acc_at_first (c : Dev nD) (t : Fin cfg2.N) (h0 : t.val % 4 = 0) (h1 : ¬t.val % 4 = 3) :
    (stepAt V c t.val t.isLt).2 = k2_pay2 (blk2 V c 0 t) (blk2 V c 1 t) (k2_pay1 (F := F)) := by
  rw [stepAt_first V c t h0 h1]
  dsimp only
  exact accFirst_eq (F := F) c (grid2.coords t) (ms2_0 t) (hs2_0 t) (ms2_1 t) (hs2_1 t) (ms2_2 t) (hs2_2 t) (ms2_3 t) (hs2_3 t) (ms2_4 t) (hs2_4 t) accM (Memref.isWhole_whole _) ((atFirst_iff t).mpr h0) (fun h => h1 ((atLast_iff t).mp h)) (blk2 V c 0 t) (blk2 V c 1 t) (blk2 V c 2 t) (blk2 V c 3 t)

/-- The accumulator after a later step. -/
theorem acc_at_later (c : Dev nD) (t : Fin cfg2.N) (h0 : ¬t.val % 4 = 0) :
    (stepAt V c t.val t.isLt).2 = k2_pay2 (blk2 V c 0 t) (blk2 V c 1 t) (stepAt V c (t.val - 1) (Nat.lt_of_le_of_lt (Nat.sub_le _ _) t.isLt)).2 := by
  by_cases h1 : t.val % 4 = 3
  · rw [stepAt_last V c t h0 h1]
    dsimp only
    exact accLast_eq (F := F) c (grid2.coords t) (ms2_0 t) (hs2_0 t) (ms2_1 t) (hs2_1 t) (ms2_2 t) (hs2_2 t) (ms2_3 t) (hs2_3 t) (ms2_4 t) (hs2_4 t) accM (Memref.isWhole_whole _) (fun h => h0 ((atFirst_iff t).mp h)) ((atLast_iff t).mpr h1) (blk2 V c 0 t) (blk2 V c 1 t) (blk2 V c 2 t) (blk2 V c 3 t) (stepAt V c (t.val - 1) (Nat.lt_of_le_of_lt (Nat.sub_le _ _) t.isLt)).2
  · rw [stepAt_mid V c t h0 h1]
    dsimp only
    exact accMid_eq (F := F) c (grid2.coords t) (ms2_0 t) (hs2_0 t) (ms2_1 t) (hs2_1 t) (ms2_2 t) (hs2_2 t) (ms2_3 t) (hs2_3 t) (ms2_4 t) (hs2_4 t) accM (Memref.isWhole_whole _) (fun h => h0 ((atFirst_iff t).mp h)) (fun h => h1 ((atLast_iff t).mp h)) (blk2 V c 0 t) (blk2 V c 1 t) (blk2 V c 2 t) (blk2 V c 3 t) (stepAt V c (t.val - 1) (Nat.lt_of_le_of_lt (Nat.sub_le _ _) t.isLt)).2

/-- The output block after the last step of a tile. -/
theorem out_at_last (c : Dev nD) (t : Fin cfg2.N) (h0 : ¬t.val % 4 = 0) (h1 : t.val % 4 = 3) :
    (stepAt V c t.val t.isLt).1 = k2_pay3 (blk2 V c 2 t) (blk2 V c 3 t) (k2_pay2 (blk2 V c 0 t) (blk2 V c 1 t) (stepAt V c (t.val - 1) (Nat.lt_of_le_of_lt (Nat.sub_le _ _) t.isLt)).2) := by
  rw [stepAt_last V c t h0 h1]
  dsimp only
  exact outLast_eq (F := F) c (grid2.coords t) (ms2_0 t) (hs2_0 t) (ms2_1 t) (hs2_1 t) (ms2_2 t) (hs2_2 t) (ms2_3 t) (hs2_3 t) (ms2_4 t) (hs2_4 t) accM (Memref.isWhole_whole _) (fun h => h0 ((atFirst_iff t).mp h)) ((atLast_iff t).mpr h1) (blk2 V c 0 t) (blk2 V c 1 t) (blk2 V c 2 t) (blk2 V c 3 t) (stepAt V c (t.val - 1) (Nat.lt_of_le_of_lt (Nat.sub_le _ _) t.isLt)).2

end Cert.KernelIdeal.Hand

end
-- ==== Proof.Spec.lean ====
/-
  The quantized linear map both programs compute, as one function of the two argument arrays and the two
  scales, over the extended reals.

  An entry `v` is quantized by clipping it into [-127, 127] and rounding half to even (`quant`).  With a
  per-tensor activation scale `xs` and a per-row weight scale `ws q`, the output entry (p, q) is

      round (∑ k, quant (x p k · (1 / xs)) · quant (w q k · (1 / ws q))) · xs · ws q          (`Gk`)

  in the arrangement that multiplies by the reciprocal scales, and

      ste (∑ k, ste (clip (x p k / xs)) · ste (clip (w q k / ws q))) · xs · ws q,   ste v = v + (round v − v)   (`Gr`)

  in the arrangement that divides and rounds through the straight-through form.  On real entries and
  positive real scales the two agree: a division by a positive real is the product with its reciprocal,
  and `v + (round v − v) = round v` for a real `v`.
-/
import Idealize.ShloMosaic.PureOps.Ideal
import Idealize.ShloMosaic.Lib.ValueIdx

noncomputable section

namespace Cert.QuantSpec

open Idealize.ShloMosaic

/-- The lower clip bound, -127, as both programs spell it. -/
abbrev lo : EReal := Ideal.ofBits .f32 0xC2FE0000#32
/-- The upper clip bound, 127. -/
abbrev hi : EReal := Ideal.ofBits .f32 0x42FE0000#32
/-- The numerator of the reciprocal scales, 1. -/
abbrev one : EReal := Ideal.ofBits .f32 0x3F800000#32
/-- Rounding to the nearest integer, ties to even, on the extended reals. -/
abbrev rnd (v : EReal) : EReal := Ideal.liftRound Ideal.roundHalfEven v
/-- Clip into [-127, 127]. -/
def clip (v : EReal) : EReal := min hi (max lo v)
/-- Clip into [-127, 127], then round half to even. -/
def quant (v : EReal) : EReal := rnd (clip v)
/-- The straight-through form of rounding: `v + (round v − v)`. -/
def ste (v : EReal) : EReal := v + (rnd v - v)

/-- The arrangement that multiplies by reciprocal scales and rounds the integer product once. -/
def Gk (x : Fin 8192 → Fin 4096 → EReal) (w : Fin 4096 → Fin 4096 → EReal) (xs : EReal) (ws : Fin 4096 → EReal)
    (p : Fin 8192) (q : Fin 4096) : EReal :=
  rnd (∑ k : Fin 4096, quant (x p k * Ideal.div one xs) * quant (w q k * Ideal.div one (ws q))) * xs * ws q

/-- The arrangement that divides by the scales and rounds through the straight-through form. -/
def Gr (x : Fin 8192 → Fin 4096 → EReal) (w : Fin 4096 → Fin 4096 → EReal) (xs : EReal) (ws : Fin 4096 → EReal)
    (p : Fin 8192) (q : Fin 4096) : EReal :=
  ste (∑ k : Fin 4096, ste (clip (Ideal.div (x p k) xs)) * ste (clip (Ideal.div (w q k) (ws q)))) * xs * ws q

end Cert.QuantSpec

end
-- ==== Proof.Payloads.lean ====
/-
  The arithmetic of the three kernel bodies, read at one entry, over the extended reals.

  The two quantizing bodies compute, at entry (r, k) of their block, the clipped and rounded product of
  the block's entry with a scale: the one scale of the whole tensor for the activations, the scale of
  row r for the weights.  The product body's three stored values are: the zero block; the carried
  block plus the product of a block of quantized activations with the transpose of a block of
  quantized weights, that is at (r, c) the sum over k of x(r, k) · w(c, k); and the rounded carried
  block times the activation scale times the weight scale of column c.
-/
import proofs.«120888_j49770081026763_2_alg».proof.Proof.Gen.KernelIdeal.Skeleton
import proofs.«120888_j49770081026763_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Pay

open Idealize.ShloMosaic Idealize.SL.Sem
open Cert.KernelIdeal Cert.KernelIdeal.Gen Cert.QuantSpec ValueIdx

/-! ## Layout steps at an entry -/

/-- The one entry of a 1 × 1 array, taken out by position, is the entry at (0, 0). -/
theorem extract_one (v0 : Vec Ideal S1x1 .f32) (h : ∀ a, (![0, 0] : Fin 2 → Nat) a < S1x1.size a) :
    extractAt ![0, 0] v0 h = v0 (ix2 0 0) :=
  congrArg v0 (funext fun a => match a with | ⟨0, _⟩ => rfl | ⟨1, _⟩ => rfl)

/-- A column of 512 entries spread over 4096 columns reads, at (r, k), the column's entry r. -/
theorem column_spread (v : Vec Ideal S512x1 .f32) (h : S512x1.Broadcasts S512x4096) (r : Fin 512) (k : Fin 4096) :
    broadcastTo S512x4096 v h (ix2 r k) = v (ix2 r 0) := by
  refine broadcastTo_apply v h (ix2 r k) (ix2 r (0 : Fin 1)) fun ax => ?_
  match ax with
  | ⟨0, _⟩ => rfl
  | ⟨1, _⟩ => rfl

/-! ## The quantizing bodies -/

/-- The activation quantizer at (r, k): the entry times the tensor's scale, clipped and rounded. -/
theorem pay0_at (v0 : Vec Ideal S1x1 .f32) (v2 : Vec Ideal S512x4096 .f32) (r : Fin 512) (k : Fin 4096) :
    k0_pay1 (F := Ideal) v0 v2 (ix2 r k) = quant (v2 (ix2 r k) * v0 (ix2 0 0)) := by
  unfold k0_pay1
  show Ideal.liftRound Ideal.roundHalfEven (min hi (max lo (v2 (ix2 r k) * extractAt ![0, 0] v0 inpos_S1x1_p0_0))) = _
  rw [extract_one]
  rfl

/-- The weight quantizer at (r, k): the entry times the scale of its row r, clipped and rounded. -/
theorem pay1_at (v0 : Vec Ideal S512x1 .f32) (v2 : Vec Ideal S512x4096 .f32) (r : Fin 512) (k : Fin 4096) :
    k1_pay1 (F := Ideal) v0 v2 (ix2 r k) = quant (v2 (ix2 r k) * v0 (ix2 r 0)) := by
  unfold k1_pay1
  show Ideal.liftRound Ideal.roundHalfEven (min hi (max lo (v2 (ix2 r k) *
      broadcastTo S512x4096 (shapeCast S512x1 v0 shapeCasts_S512x1_S512x1) broadcasts_S512x1_S512x4096 (ix2 r k)))) = _
  rw [column_spread, shapeCast_self]
  rfl

/-! ## The product body -/

/-- The block the product body starts from is zero everywhere. -/
theorem pay2z_at (r : Fin 2048) (c : Fin 1024) : k2_pay1 (F := Ideal) (ix2 r c) = 0 := by
  unfold k2_pay1
  show shapeCast S2048x1024 (broadcast S2048x1024 (Ideal.ofBits .f32 0x00000000#32)) shapeCasts_S2048x1024_S2048x1024 (ix2 r c) = 0
  rw [shapeCast_self]
  exact Ideal.ofBits_zero_f32

/-- The left operand's row coordinate in the product is the output's row. -/
theorem dot_lhs_row (i : S2048x1024.Idx) (q : dot_S2048x1024_S1024x1024_S2048x1024_1_1_0_0_n_n.contr.Idx) :
    (dot_S2048x1024_S1024x1024_S2048x1024_1_1_0_0_n_n.lhsIdx i q 0).val = (i 0).val := by
  unfold DotDims.lhsIdx
  rw [dif_neg (show ¬(0 : Fin S2048x1024.rank) ∈ dot_S2048x1024_S1024x1024_S2048x1024_1_1_0_0_n_n.lhsBatch by decide),
    dif_pos (show (0 : Fin S2048x1024.rank) ∈ dot_S2048x1024_S1024x1024_S2048x1024_1_1_0_0_n_n.lhsNonContracting by decide)]
  rfl

/-- The right operand's row coordinate in the product is the output's column: the right operand enters transposed. -/
theorem dot_rhs_row (i : S2048x1024.Idx) (q : dot_S2048x1024_S1024x1024_S2048x1024_1_1_0_0_n_n.contr.Idx) :
    (dot_S2048x1024_S1024x1024_S2048x1024_1_1_0_0_n_n.rhsIdx i q 0).val = (i 1).val := by
  unfold DotDims.rhsIdx
  rw [dif_neg (show ¬(0 : Fin S1024x1024.rank) ∈ dot_S2048x1024_S1024x1024_S2048x1024_1_1_0_0_n_n.rhsBatch by decide),
    dif_pos (show (0 : Fin S1024x1024.rank) ∈ dot_S2048x1024_S1024x1024_S2048x1024_1_1_0_0_n_n.rhsNonContracting by decide)]
  rfl

/-- The product of a 2048 × 1024 block with the transpose of a 1024 × 1024 block, accumulated into zero, at (r, c):
    the sum over the shared axis k of the left entry (r, k) times the right entry (c, k). -/
theorem dot_at (a : FVec Ideal S2048x1024 .bf16) (b : FVec Ideal S1024x1024 .bf16) (r : Fin 2048) (c : Fin 1024) :
    matmul dot_S2048x1024_S1024x1024_S2048x1024_1_1_0_0_n_n none a b (constant (F := Ideal) S2048x1024 .f32 0x00000000#32) (ix2 r c)
      = ∑ k : Fin 1024, a (ix2 r k) * b (ix2 c k) := by
  simp only [matmul]
  rw [Ideal.matmul_constant_zero_apply,
    ← Equiv.sum_comp (contrEquiv1 dot_S2048x1024_S1024x1024_S2048x1024_1_1_0_0_n_n 1024 rfl rfl).symm]
  refine Finset.sum_congr rfl fun k _ => ?_
  have hk := contrEquiv1_symm_val dot_S2048x1024_S1024x1024_S2048x1024_1_1_0_0_n_n 1024 rfl rfl k
  have el : dot_S2048x1024_S1024x1024_S2048x1024_1_1_0_0_n_n.lhsIdx (ix2 r c)
      ((contrEquiv1 dot_S2048x1024_S1024x1024_S2048x1024_1_1_0_0_n_n 1024 rfl rfl).symm k) = ix2 r k :=
    funext fun ax => Fin.ext (by
      match ax with
      | ⟨0, _⟩ => exact dot_lhs_row _ _
      | ⟨1, _⟩ => exact (dot_S2048x1024_S1024x1024_S2048x1024_1_1_0_0_n_n.lhsIdx_val_of_single rfl _ _).trans hk)
  have er : dot_S2048x1024_S1024x1024_S2048x1024_1_1_0_0_n_n.rhsIdx (ix2 r c)
      ((contrEquiv1 dot_S2048x1024_S1024x1024_S2048x1024_1_1_0_0_n_n 1024 rfl rfl).symm k) = ix2 c k :=
    funext fun ax => Fin.ext (by
      match ax with
      | ⟨0, _⟩ => exact dot_rhs_row _ _
      | ⟨1, _⟩ => exact (dot_S2048x1024_S1024x1024_S2048x1024_1_1_0_0_n_n.rhsIdx_val_of_single rfl _ _).trans hk)
  rw [el, er]

/-- One accumulation step at (r, c): the carried entry plus the sum over k of x(r, k) · w(c, k). -/
theorem pay2_at (v3 : Vec Ideal S2048x1024 .bf16) (v5 : Vec Ideal S1024x1024 .bf16) (v7 : Vec Ideal S2048x1024 .f32)
    (r : Fin 2048) (c : Fin 1024) :
    k2_pay2 (F := Ideal) v3 v5 v7 (ix2 r c) = v7 (ix2 r c) + ∑ k : Fin 1024, v3 (ix2 r k) * v5 (ix2 c k) := by
  unfold k2_pay2
  simp only [shapeCast_self]
  exact congrArg (v7 (ix2 r c) + ·) (dot_at v3 v5 r c)

/-- The closing step at (r, c): the carried entry rounded, times the activation scale, times the weight scale of column c. -/
theorem pay3_at (v16 : Vec Ideal S1x1 .f32) (v18 : Vec Ideal S1x1024 .f32) (v20 : Vec Ideal S2048x1024 .f32)
    (r : Fin 2048) (c : Fin 1024) :
    k2_pay3 (F := Ideal) v16 v18 v20 (ix2 r c) = rnd (v20 (ix2 r c)) * v16 (ix2 0 0) * v18 (ix2 0 c) := by
  unfold k2_pay3
  show Ideal.liftRound Ideal.roundHalfEven (v20 (ix2 r c)) * extractAt ![0, 0] v16 inpos_S1x1_p0_0 *
      broadcastTo S2048x1024 (shapeCast S1x1024 v18 shapeCasts_S1x1024_S1x1024) broadcasts_S1x1024_S2048x1024 (ix2 r c) = _
  rw [extract_one, broadcastTo_1b_ab_apply, shapeCast_self]

end Cert.KernelIdeal.Pay

end
-- ==== Proof.LibChunkedSum.lean ====
import Mathlib.Algebra.BigOperators.Fin
import Mathlib.Algebra.BigOperators.Intervals

/-!
# A sum over an axis cut in equal chunks

An axis of `n * b` terms is cut in `n` consecutive chunks of width `b`.  In an additive
commutative monoid the sum of the chunk sums is the sum over the whole axis, and a
running total that starts from "first chunk plus a constant" and then adds one chunk at a
time is, at every stage, "sum of the chunks so far, plus the constant".  Only associativity
and commutativity of `+` are used.
-/

namespace Cert.Lib.ChunkedSum

open Finset

variable {M : Type*} [AddCommMonoid M]

/-- Chunk `p` of width `b` of the sequence `f`: the sum of the `b` consecutive terms
`f (b * p), f (b * p + 1), …, f (b * p + (b - 1))`. -/
def chunk (b : ℕ) (f : ℕ → M) (p : ℕ) : M := ∑ q : Fin b, f (b * p + q.val)

/-- A chunk written as a sum over the initial segment `{0, …, b - 1}` of the naturals. -/
theorem chunk_eq_sum_range (b : ℕ) (f : ℕ → M) (p : ℕ) :
    chunk b f p = ∑ q ∈ range b, f (b * p + q) :=
  Fin.sum_univ_eq_sum_range (fun q => f (b * p + q)) b

/-- The first `n` chunks of width `b` tile the first `n * b` terms: the sum of their sums is
the sum of `f 0, …, f (n * b - 1)`, written over the naturals. -/
theorem sum_chunks_range (n b : ℕ) (f : ℕ → M) :
    ∑ p ∈ range n, chunk b f p = ∑ j ∈ range (n * b), f j := by
  induction n with
  | zero => simp
  | succ n ih =>
    rw [sum_range_succ, ih, chunk_eq_sum_range, Nat.succ_mul, sum_range_add, Nat.mul_comm b n]

/-- The chunks tile the axis: the sum over `p < n` of chunk `p` is the sum of all
`n * b` terms. -/
theorem sum_chunks (n b : ℕ) (f : ℕ → M) :
    ∑ p ∈ Finset.range n, chunk b f p = ∑ j : Fin (n * b), f j.val := by
  rw [sum_chunks_range, Fin.sum_univ_eq_sum_range (fun j => f j) (n * b)]

/-- The first stage of the running total: chunk `0` plus the constant `β` is the sum of the
first one chunk, plus `β`. -/
theorem acc_first (b : ℕ) (f : ℕ → M) (β : M) :
    chunk b f 0 + β = (∑ p ∈ Finset.range 1, chunk b f p) + β := by
  rw [sum_range_one]

/-- One more stage of the running total: adding chunk `k + 1` to "the first `k + 1` chunks
plus `β`" gives "the first `k + 2` chunks plus `β`". -/
theorem acc_step (b k : ℕ) (f : ℕ → M) (β : M) :
    ((∑ p ∈ Finset.range (k + 1), chunk b f p) + β) + chunk b f (k + 1)
      = (∑ p ∈ Finset.range (k + 2), chunk b f p) + β := by
  rw [add_right_comm, ← sum_range_succ]

/-- Four chunks of width `256` tile an axis of `1024` terms. -/
theorem sum_chunks_1024 (f : ℕ → M) :
    ∑ p ∈ Finset.range 4, chunk 256 f p = ∑ j : Fin 1024, f j.val :=
  sum_chunks 4 256 f

end Cert.Lib.ChunkedSum
-- ==== Proof.IdealGemmAcc.lean ====
/-
  Region 2 at the exact instance, read by coordinates.  With the grid point t = 16·I + 4·J + K, the block of
  quantized activations the body sees holds rows 2048·I … and columns 1024·K … of its array, the block of
  quantized weights rows 1024·J … and columns 1024·K …; so the product of the two blocks at (r, c) is chunk K
  (of width 1024) of the 4096 terms of the integer product of activation row 2048·I + r with weight row
  1024·J + c.  The accumulator after step K of a tile therefore holds 0 plus chunks 0 … K, added one at a
  time, and the block stored at the last step is the rounding of the whole sum, times the activation scale,
  times the weight scale of column 1024·J + c.
-/
import proofs.«120888_j49770081026763_2_alg».proof.Proof.IdealAccSteps
import proofs.«120888_j49770081026763_2_alg».proof.Proof.Payloads
import proofs.«120888_j49770081026763_2_alg».proof.Proof.LibChunkedSum
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.QuantSpec Cert.Lib.ChunkedSum ValueIdx

variable (V : (c : Dev nD) → (b : Ref sig .tc) → Buf (Elt Ideal) ((c : Thread nD τ).loc b))

/-- The four arrays region 2 reads, as arrays of extended reals: the quantized activations, the quantized
    weights, the activation scale and the row of weight scales. -/
abbrev XQ (c : Dev nD) : S8192x4096.Idx → EReal := V c main_v20
abbrev WQ (c : Dev nD) : S4096x4096.Idx → EReal := V c main_v21
abbrev XS (c : Dev nD) : S1x1.Idx → EReal := V c main_v19
abbrev WS (c : Dev nD) : S1x4096.Idx → EReal := V c main_v12
/-- Their blocks at a grid point. -/
abbrev bXQ (c : Dev nD) (t : Fin cfg2.N) : S2048x1024.Idx → EReal := blk2 V c 0 t
abbrev bWQ (c : Dev nD) (t : Fin cfg2.N) : S1024x1024.Idx → EReal := blk2 V c 1 t
abbrev bXS (c : Dev nD) (t : Fin cfg2.N) : S1x1.Idx → EReal := blk2 V c 2 t
abbrev bWS (c : Dev nD) (t : Fin cfg2.N) : S1x1024.Idx → EReal := blk2 V c 3 t
/-- The accumulator and the output block after a point. -/
abbrev accOf (c : Dev nD) (t : Fin cfg2.N) : S2048x1024.Idx → EReal := (stepAt V c t.val t.isLt).2
abbrev outOf (c : Dev nD) (t : Fin cfg2.N) : S2048x1024.Idx → EReal := (stepAt V c t.val t.isLt).1

/-- Where each window's block sits at a grid point, decided once over the grid. -/
theorem gemm_idx : ∀ t : Fin cfg2.N,
    win2_0.index t (0 : Fin 2) = t.val / 16 ∧ win2_0.index t (1 : Fin 2) = t.val % 4
    ∧ win2_1.index t (0 : Fin 2) = (t.val / 4) % 4 ∧ win2_1.index t (1 : Fin 2) = t.val % 4
    ∧ win2_2.index t (0 : Fin 2) = 0 ∧ win2_2.index t (1 : Fin 2) = 0
    ∧ win2_3.index t (0 : Fin 2) = 0 ∧ win2_3.index t (1 : Fin 2) = (t.val / 4) % 4
    ∧ win2_4.index t (0 : Fin 2) = t.val / 16 ∧ win2_4.index t (1 : Fin 2) = (t.val / 4) % 4 :=
  (by decide +kernel : ∀ t : Fin grid2.N, _)

/-- Term `j` of the integer product of row `P` of the quantized activations with row `Q` of the quantized
    weights (zero past the contraction axis). -/
def term (Xq : S8192x4096.Idx → EReal) (Wq : S4096x4096.Idx → EReal) (P : Fin 8192) (Q : Fin 4096) (j : ℕ) : EReal :=
  if h : j < 4096 then Xq (ix2 P ⟨j, h⟩) * Wq (ix2 Q ⟨j, h⟩) else 0

/-- The activation block at a point, by coordinates. -/
theorem read_xq (c : Dev nD) (t : Fin cfg2.N) (r : Fin 2048) (kk : Fin 1024) (P : Fin 8192) (hP : P.val = 2048 * (t.val / 16) + r.val)
    (k : Fin 4096) (hk : k.val = 1024 * (t.val % 4) + kk.val) :
    bXQ V c t (ix2 r kk) = XQ V c (ix2 P k) := by
  obtain ⟨e0, e1, -⟩ := gemm_idx t
  show XQ V c (((cfg2.win 0).blk t).view.emb (ix2 r kk)) = _
  refine congrArg _ ?_
  funext a; apply Fin.ext
  match a with
  | ⟨0, _⟩ => show win2_0.index t (0 : Fin 2) * 2048 + 1 * r.val = P.val; omega
  | ⟨1, _⟩ => show win2_0.index t (1 : Fin 2) * 1024 + 1 * kk.val = k.val; omega

/-- The weight block at a point, by coordinates. -/
theorem read_wq (c : Dev nD) (t : Fin cfg2.N) (cc : Fin 1024) (kk : Fin 1024) (Q : Fin 4096) (hQ : Q.val = 1024 * ((t.val / 4) % 4) + cc.val)
    (k : Fin 4096) (hk : k.val = 1024 * (t.val % 4) + kk.val) :
    bWQ V c t (ix2 cc kk) = WQ V c (ix2 Q k) := by
  obtain ⟨-, -, e2, e3, -⟩ := gemm_idx t
  show WQ V c (((cfg2.win 1).blk t).view.emb (ix2 cc kk)) = _
  refine congrArg _ ?_
  funext a; apply Fin.ext
  match a with
  | ⟨0, _⟩ => show win2_1.index t (0 : Fin 2) * 1024 + 1 * cc.val = Q.val; omega
  | ⟨1, _⟩ => show win2_1.index t (1 : Fin 2) * 1024 + 1 * kk.val = k.val; omega

/-- The activation scale's one-entry block is the array's one entry. -/
theorem read_xs (c : Dev nD) (t : Fin cfg2.N) : bXS V c t (ix2 0 0) = XS V c (ix2 0 0) := by
  obtain ⟨-, -, -, -, e4, e5, -⟩ := gemm_idx t
  show XS V c (((cfg2.win 2).blk t).view.emb (ix2 0 0)) = _
  refine congrArg _ ?_
  funext a; apply Fin.ext
  match a with
  | ⟨0, _⟩ => show win2_2.index t (0 : Fin 2) * 1 + 1 * 0 = 0; omega
  | ⟨1, _⟩ => show win2_2.index t (1 : Fin 2) * 1 + 1 * 0 = 0; omega

/-- The block of weight scales at a point, by coordinates. -/
theorem read_ws (c : Dev nD) (t : Fin cfg2.N) (cc : Fin 1024) (Q : Fin 4096) (hQ : Q.val = 1024 * ((t.val / 4) % 4) + cc.val) :
    bWS V c t (ix2 0 cc) = WS V c (ix2 0 Q) := by
  obtain ⟨-, -, -, -, -, -, e6, e7, -⟩ := gemm_idx t
  show WS V c (((cfg2.win 3).blk t).view.emb (ix2 0 cc)) = _
  refine congrArg _ ?_
  funext a; apply Fin.ext
  match a with
  | ⟨0, _⟩ => show win2_3.index t (0 : Fin 2) * 1 + 1 * 0 = 0; omega
  | ⟨1, _⟩ => show win2_3.index t (1 : Fin 2) * 1024 + 1 * cc.val = Q.val; omega

/-- The product of the two operand blocks at a point is one chunk of the row product. -/
theorem block_product (c : Dev nD) (t : Fin cfg2.N) (r : Fin 2048) (cc : Fin 1024) (P : Fin 8192) (hP : P.val = 2048 * (t.val / 16) + r.val)
    (Q : Fin 4096) (hQ : Q.val = 1024 * ((t.val / 4) % 4) + cc.val) :
    ∑ kk : Fin 1024, bXQ V c t (ix2 r kk) * bWQ V c t (ix2 cc kk) = chunk 1024 (term (XQ V c) (WQ V c) P Q) (t.val % 4) := by
  unfold chunk
  refine Finset.sum_congr rfl fun kk _ => ?_
  have hk : 1024 * (t.val % 4) + kk.val < 4096 := by have := kk.isLt; omega
  rw [read_xq V c t r kk P hP ⟨1024 * (t.val % 4) + kk.val, hk⟩ rfl, read_wq V c t cc kk Q hQ ⟨1024 * (t.val % 4) + kk.val, hk⟩ rfl]
  unfold term
  rw [dif_pos hk]

/-- The body's arithmetic over any blocks: a cleared accumulator plus the product, -/
theorem first_val_of (x0 : Vec Ideal S2048x1024 .bf16) (x1 : Vec Ideal S1024x1024 .bf16) (r : Fin 2048) (cc : Fin 1024) (S : EReal)
    (hS : ∑ kk : Fin 1024, x0 (ix2 r kk) * x1 (ix2 cc kk) = S) : k2_pay2 (F := Ideal) x0 x1 (k2_pay1 (F := Ideal)) (ix2 r cc) = 0 + S := by
  rw [Pay.pay2_at, Pay.pay2z_at, hS]
/-- an accumulator plus the product, -/
theorem later_val_of (x0 : Vec Ideal S2048x1024 .bf16) (x1 : Vec Ideal S1024x1024 .bf16) (acc : Vec Ideal S2048x1024 .f32) (r : Fin 2048) (cc : Fin 1024) (S : EReal)
    (hS : ∑ kk : Fin 1024, x0 (ix2 r kk) * x1 (ix2 cc kk) = S) : k2_pay2 (F := Ideal) x0 x1 acc (ix2 r cc) = acc (ix2 r cc) + S := by
  rw [Pay.pay2_at, hS]
/-- and a value rounded, times the scale, times the row of scales. -/
theorem out_val_of (x2 : Vec Ideal S1x1 .f32) (x3 : Vec Ideal S1x1024 .f32) (y : Vec Ideal S2048x1024 .f32) (r : Fin 2048) (cc : Fin 1024) (A B C : EReal)
    (hA : y (ix2 r cc) = A) (hB : x2 (ix2 0 0) = B) (hC : x3 (ix2 0 cc) = C) : k2_pay3 (F := Ideal) x2 x3 y (ix2 r cc) = rnd A * B * C := by
  rw [Pay.pay3_at, hA, hB, hC]

set_option maxHeartbeats 1000000 in
/-- After the first step of a tile the accumulator holds zero plus chunk 0. -/
theorem acc_first_val (c : Dev nD) (t : Fin cfg2.N) (h0 : t.val % 4 = 0) (r : Fin 2048) (cc : Fin 1024) (P : Fin 8192) (hP : P.val = 2048 * (t.val / 16) + r.val)
    (Q : Fin 4096) (hQ : Q.val = 1024 * ((t.val / 4) % 4) + cc.val) :
    accOf V c t (ix2 r cc) = 0 + chunk 1024 (term (XQ V c) (WQ V c) P Q) 0 := by
  have h1 : ¬t.val % 4 = 3 := by omega
  have hb := block_product V c t r cc P hP Q hQ
  rw [h0] at hb
  exact (congrFun (acc_at_first V c t h0 h1) (ix2 r cc)).trans (first_val_of (blk2 V c 0 t) (blk2 V c 1 t) r cc _ hb)

set_option maxHeartbeats 1000000 in
/-- A later step adds its chunk to what the step before left. -/
theorem acc_step_val (c : Dev nD) (t : Fin cfg2.N) (h0 : ¬t.val % 4 = 0) (r : Fin 2048) (cc : Fin 1024) (P : Fin 8192) (hP : P.val = 2048 * (t.val / 16) + r.val)
    (Q : Fin 4096) (hQ : Q.val = 1024 * ((t.val / 4) % 4) + cc.val) :
    accOf V c t (ix2 r cc)
      = ((stepAt V c (t.val - 1) (Nat.lt_of_le_of_lt (Nat.sub_le _ _) t.isLt)).2 : S2048x1024.Idx → EReal) (ix2 r cc) + chunk 1024 (term (XQ V c) (WQ V c) P Q) (t.val % 4) :=
  (congrFun (acc_at_later V c t h0) (ix2 r cc)).trans (later_val_of (blk2 V c 0 t) (blk2 V c 1 t) (stepAt V c (t.val - 1) (Nat.lt_of_le_of_lt (Nat.sub_le _ _) t.isLt)).2 r cc _ (block_product V c t r cc P hP Q hQ))

/-- The whole row product as the four chunks. -/
theorem row_product_chunks (Xq : S8192x4096.Idx → EReal) (Wq : S4096x4096.Idx → EReal) (P : Fin 8192) (Q : Fin 4096) :
    0 + chunk 1024 (term Xq Wq P Q) 0 + chunk 1024 (term Xq Wq P Q) 1 + chunk 1024 (term Xq Wq P Q) 2 + chunk 1024 (term Xq Wq P Q) 3
      = ∑ k : Fin 4096, Xq (ix2 P k) * Wq (ix2 Q k) := by
  have h := sum_chunks 4 1024 (term Xq Wq P Q)
  rw [Finset.sum_range_succ, Finset.sum_range_succ, Finset.sum_range_succ, Finset.sum_range_one] at h
  rw [zero_add, h]
  refine Finset.sum_congr rfl fun k _ => ?_
  unfold term
  rw [dif_pos k.isLt]

set_option maxHeartbeats 1000000 in
/-- After the last step of a tile the accumulator holds the whole row product. -/
theorem acc_last_val (c : Dev nD) (t : Fin cfg2.N) (h1 : t.val % 4 = 3) (r : Fin 2048) (cc : Fin 1024) (P : Fin 8192) (hP : P.val = 2048 * (t.val / 16) + r.val)
    (Q : Fin 4096) (hQ : Q.val = 1024 * ((t.val / 4) % 4) + cc.val) :
    accOf V c t (ix2 r cc) = ∑ k : Fin 4096, XQ V c (ix2 P k) * WQ V c (ix2 Q k) := by
  have hN : t.val < 64 := lt_of_lt_of_eq t.isLt (show cfg2.N = 64 from N_2)
  have lt1 : t.val - 1 < cfg2.N := Nat.lt_of_le_of_lt (Nat.sub_le _ _) t.isLt
  have lt2 : t.val - 1 - 1 < cfg2.N := Nat.lt_of_le_of_lt (Nat.sub_le _ _) lt1
  have lt3 : t.val - 1 - 1 - 1 < cfg2.N := Nat.lt_of_le_of_lt (Nat.sub_le _ _) lt2
  have s3 := acc_step_val V c t (by omega) r cc P hP Q hQ
  have s2 := acc_step_val V c ⟨t.val - 1, lt1⟩ (by show ¬(t.val - 1) % 4 = 0; omega) r cc P (by show P.val = 2048 * ((t.val - 1) / 16) + r.val; omega) Q (by show Q.val = 1024 * (((t.val - 1) / 4) % 4) + cc.val; omega)
  have s1 := acc_step_val V c ⟨t.val - 1 - 1, lt2⟩ (by show ¬(t.val - 1 - 1) % 4 = 0; omega) r cc P (by show P.val = 2048 * ((t.val - 1 - 1) / 16) + r.val; omega) Q (by show Q.val = 1024 * (((t.val - 1 - 1) / 4) % 4) + cc.val; omega)
  have s0 := acc_first_val V c ⟨t.val - 1 - 1 - 1, lt3⟩ (by show (t.val - 1 - 1 - 1) % 4 = 0; omega) r cc P (by show P.val = 2048 * ((t.val - 1 - 1 - 1) / 16) + r.val; omega) Q (by show Q.val = 1024 * (((t.val - 1 - 1 - 1) / 4) % 4) + cc.val; omega)
  have e3 : t.val % 4 = 3 := h1
  have e2 : (t.val - 1) % 4 = 2 := by omega
  have e1 : (t.val - 1 - 1) % 4 = 1 := by omega
  refine s3.trans ?_
  rw [e3]
  refine (congrArg (· + chunk 1024 (term (XQ V c) (WQ V c) P Q) 3) (s2.trans ?_)).trans (row_product_chunks (XQ V c) (WQ V c) P Q)
  show _ + chunk 1024 (term (XQ V c) (WQ V c) P Q) ((t.val - 1) % 4) = _
  rw [e2]
  refine congrArg (· + chunk 1024 (term (XQ V c) (WQ V c) P Q) 2) (s1.trans ?_)
  show _ + chunk 1024 (term (XQ V c) (WQ V c) P Q) ((t.val - 1 - 1) % 4) = _
  rw [e1]
  exact congrArg (· + chunk 1024 (term (XQ V c) (WQ V c) P Q) 1) s0

set_option maxHeartbeats 1000000 in
/-- The output block stored at the last step of a tile, by coordinates. -/
theorem out_last_val (c : Dev nD) (t : Fin cfg2.N) (h1 : t.val % 4 = 3) (r : Fin 2048) (cc : Fin 1024) (P : Fin 8192) (hP : P.val = 2048 * (t.val / 16) + r.val)
    (Q : Fin 4096) (hQ : Q.val = 1024 * ((t.val / 4) % 4) + cc.val) :
    outOf V c t (ix2 r cc) = rnd (∑ k : Fin 4096, XQ V c (ix2 P k) * WQ V c (ix2 Q k)) * XS V c (ix2 0 0) * WS V c (ix2 0 Q) := by
  have h0 : ¬t.val % 4 = 0 := by omega
  have hsum := (congrFun (acc_at_later V c t h0) (ix2 r cc)).symm.trans (acc_last_val V c t h1 r cc P hP Q hQ)
  exact (congrFun (out_at_last V c t h0 h1) (ix2 r cc)).trans
    (out_val_of (blk2 V c 2 t) (blk2 V c 3 t) _ r cc _ _ _ hsum (read_xs V c t) (read_ws V c t cc Q hQ))

end Cert.KernelIdeal.Hand

end
-- ==== Proof.IdealGemmVals.lean ====
/-
  Region 2's result array as one function of the arrays the region finds.  Tile (I, J) of the result is
  written back once, at the last step along the contraction axis, and holds at (r, c) the rounded integer
  product of activation row 2048·I + r with weight row 1024·J + c, times the activation scale, times the
  weight scale of column 1024·J + c.  The sixteen tiles cover the array, so the array ends holding that
  function at every index.
-/
import proofs.«120888_j49770081026763_2_alg».proof.Proof.IdealGemmAcc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.QuantSpec ValueIdx

variable (V : (c : Dev nD) → (b : Ref sig .tc) → Buf (Elt Ideal) ((c : Thread nD τ).loc b))

/-- What the result array holds after region 2, index by index. -/
def Gm (c : Dev nD) : S8192x4096.Idx → EReal := fun i =>
  rnd (∑ k : Fin 4096, XQ V c (ix2 ⟨(i 0).val, (i 0).isLt⟩ k) * WQ V c (ix2 ⟨(i 1).val, (i 1).isLt⟩ k))
    * XS V c (ix2 0 0) * WS V c (ix2 0 ⟨(i 1).val, (i 1).isLt⟩)

/-- The same with the row and the column named. -/
theorem Gm_at (c : Dev nD) (i : S8192x4096.Idx) (P : Fin 8192) (hP : P.val = (i 0).val) (Q : Fin 4096) (hQ : Q.val = (i 1).val) :
    Gm V c i = rnd (∑ k : Fin 4096, XQ V c (ix2 P k) * WQ V c (ix2 Q k))
      * XS V c (ix2 0 0) * WS V c (ix2 0 Q) := by
  obtain rfl : P = ⟨(i 0).val, (i 0).isLt⟩ := Fin.ext hP
  obtain rfl : Q = ⟨(i 1).val, (i 1).isLt⟩ := Fin.ext hQ
  rfl

set_option maxHeartbeats 2000000 in
/-- What a last step writes back is its tile of `Gm`. -/
theorem gemm_flushed (c : Dev nD) (t : Fin cfg2.N) (hf : (cfg2.win 4).flush t = true) :
    (dat2 V c).flushed 4 t = ((cfg2.win 4).blk t).view.read (Elt Ideal) (Gm V c) := by
  have h1 : t.val % 4 = 3 := (flush2_4 t).mp hf
  have hN : t.val < 64 := lt_of_lt_of_eq t.isLt (show cfg2.N = 64 from N_2)
  obtain ⟨-, -, -, -, -, -, -, -, e8, e9⟩ := gemm_idx t
  show (cfg2.win 4).cut (grid2.coords t) ((dat2 V c).after 4 t) = _
  rw [dat2_after4]
  funext j
  have hj0 : (j 0).val < 2048 := (j 0).isLt
  have hj1 : (j 1).val < 1024 := (j 1).isLt
  have hj : j = ix2 (⟨(j 0).val, hj0⟩ : Fin 2048) (⟨(j 1).val, hj1⟩ : Fin 1024) := by
    funext a
    match a with
    | ⟨0, _⟩ => rfl
    | ⟨1, _⟩ => rfl
  have hE0 : ((((cfg2.win 4).blk t).view.emb j) 0).val = 2048 * (t.val / 16) + (j 0).val := by
    show win2_4.index t (0 : Fin 2) * 2048 + 1 * (j 0).val = _; omega
  have hE1 : ((((cfg2.win 4).blk t).view.emb j) 1).val = 1024 * ((t.val / 4) % 4) + (j 1).val := by
    show win2_4.index t (1 : Fin 2) * 1024 + 1 * (j 1).val = _; omega
  show outOf V c t j = Gm V c (((cfg2.win 4).blk t).view.emb j)
  rw [Gm_at V c _ ⟨2048 * (t.val / 16) + (j 0).val, by omega⟩ hE0.symm ⟨1024 * ((t.val / 4) % 4) + (j 1).val, by omega⟩ hE1.symm]
  exact (congrArg (outOf V c t) hj).trans
    (out_last_val V c t h1 ⟨(j 0).val, hj0⟩ ⟨(j 1).val, hj1⟩ ⟨2048 * (t.val / 16) + (j 0).val, by omega⟩ rfl ⟨1024 * ((t.val / 4) % 4) + (j 1).val, by omega⟩ rfl)

/-- An index is in a point's tile iff each coordinate is in the tile's range on its axis. -/
theorem gemm_mem_tile (t : Fin cfg2.N) (i : S8192x4096.Idx) :
    i ∈ ((cfg2.win 4).blk t).view.set ↔ ∀ a : Fin 2, win2_4.index t a * S2048x1024.size a ≤ (i a).val ∧ (i a).val < win2_4.index t a * S2048x1024.size a + S2048x1024.size a := by
  show i ∈ ((View.whole main_v22).slice (win2_4.rect t)).set ↔ _
  rw [View.set_slice_whole, Rect.mem_set_unit]
  exact Iff.rfl

/-- Every index of the result array is in the tile of some last step. -/
theorem gemm_cover (i : S8192x4096.Idx) :
    ∃ t : Fin cfg2.N, (cfg2.win 4).flush t = true ∧ i ∈ ((cfg2.win 4).blk t).view.set := by
  have hi0 : (i 0).val < 8192 := (i 0).isLt
  have hi1 : (i 1).val < 4096 := (i 1).isLt
  have hlt : 16 * ((i 0).val / 2048) + 4 * ((i 1).val / 1024) + 3 < cfg2.N := by rw [show cfg2.N = 64 from N_2]; omega
  refine ⟨⟨16 * ((i 0).val / 2048) + 4 * ((i 1).val / 1024) + 3, hlt⟩, (flush2_4 _).mpr (by show (16 * ((i 0).val / 2048) + 4 * ((i 1).val / 1024) + 3) % 4 = 3; omega), ?_⟩
  rw [gemm_mem_tile]
  obtain ⟨-, -, -, -, -, -, -, -, e8, e9⟩ := gemm_idx ⟨16 * ((i 0).val / 2048) + 4 * ((i 1).val / 1024) + 3, hlt⟩
  have e8' : win2_4.index ⟨16 * ((i 0).val / 2048) + 4 * ((i 1).val / 1024) + 3, hlt⟩ (0 : Fin 2) = (16 * ((i 0).val / 2048) + 4 * ((i 1).val / 1024) + 3) / 16 := e8
  have e9' : win2_4.index ⟨16 * ((i 0).val / 2048) + 4 * ((i 1).val / 1024) + 3, hlt⟩ (1 : Fin 2) = ((16 * ((i 0).val / 2048) + 4 * ((i 1).val / 1024) + 3) / 4) % 4 := e9
  intro a
  match a with
  | ⟨0, _⟩ =>
    show win2_4.index _ (0 : Fin 2) * 2048 ≤ (i 0).val ∧ (i 0).val < win2_4.index _ (0 : Fin 2) * 2048 + 2048
    rw [e8']; omega
  | ⟨1, _⟩ =>
    show win2_4.index _ (1 : Fin 2) * 1024 ≤ (i 1).val ∧ (i 1).val < win2_4.index _ (1 : Fin 2) * 1024 + 1024
    rw [e9']; omega

/-- THE RESULT ARRAY after region 2. -/
theorem gemm_array (c : Dev nD) : (dat2 V c).arrAt 4 cfg2.N = Gm V c :=
  (dat2 V c).arrAt_eq_of_cover 4 (Gm V c) (fun t hf => gemm_flushed V c t hf) (gemm_cover)

end Cert.KernelIdeal.Hand

end
-- ==== Proof.IdealRegion0.lean ====
/-
  Region 0 of the program: the quantization pass over the activations.  Its grid walks the array in
  slabs of 512 rows; at a point the body reads the slab and the one-entry block holding the reciprocal activation scale, and writes the
  slab of quantized entries.  Stated at a parameter `V`, the buffers' contents when the region is entered:
  what the output slab holds after the body as a function of the two input blocks, the body's triple, the
  pipeline's proof data and the body obligation at every point.
-/
import proofs.«120888_j49770081026763_2_alg».proof.Proof.Gen.KernelIdeal.Launch
import proofs.«120888_j49770081026763_2_alg».proof.Proof.Gen.KernelIdeal.Skeleton
import proofs.«120888_j49770081026763_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, fetched there or not (a block that
    is not fetched again has not moved). -/
theorem found0_0_of {c : Dev nD} (dat : Dat τ (Elt F) Unit ℕ (UR sig nD τ) ℕ cfg0 c) (hA : dat.A 0 = V c (Pipeline.arrRef spec0 0))
    (hafter : ∀ t, dat.after 0 t = blk0 V c 0 t) (t : Fin cfg0.N) (d) : dat.before 0 t d = blk0 V c 0 t :=
  (dat.before_in_eq_fetched 0 rfl (fun _ => rfl) (fun _ _ _ => rfl) (fun t => by rw [hafter]; unfold Dat.blockOf blk0; rw [hA]; try rfl) t d).trans
    (by unfold Dat.fetched Dat.blockOf blk0; rw [hA]; try rfl)
theorem found0_1_of {c : Dev nD} (dat : Dat τ (Elt F) Unit ℕ (UR sig nD τ) ℕ cfg0 c) (hA : dat.A 1 = V c (Pipeline.arrRef spec0 1))
    (hafter : ∀ t, dat.after 1 t = blk0 V c 1 t) (t : Fin cfg0.N) (d) : dat.before 1 t d = blk0 V c 1 t :=
  (dat.before_in_eq_fetched 1 rfl (fun _ => rfl) (fun _ _ _ => rfl) (fun t => by rw [hafter]; unfold Dat.blockOf blk0; rw [hA]; try rfl) t d).trans
    (by unfold Dat.fetched Dat.blockOf blk0; rw [hA]; try rfl)

/-- The whole scale block and the whole slab, as rectangles. -/
abbrev rs0 : Rect S1x1 := Rect.unit (s := S1x1) ![0, 0] S1x1.size inb_S1x1_S1x1_0_0
abbrev rb0 : Rect S512x4096 := Rect.unit (s := S512x4096) ![0, 0] S512x4096.size inb_S512x4096_S512x4096_0_0

/-- The output slab after the body: its one store, of the quantized product of the slab and the scale. -/
def slab0 (xs : Vec F S1x1 .f32) (x : Vec F S512x4096 .f32) : Vec F S512x4096 .bf16 :=
  View.canon [⟨rb0, k0_pay1 (View.ld xs rs0) (View.ld x rb0)⟩]

/-- The store covers the slab. -/
theorem slab0_cover (p0 : Vec F S512x4096 .bf16) (y : S512x4096.Idx) :
    ∃ pc ∈ ([⟨rb0, p0⟩] : List (View.Piece (Elt F) S512x4096 .bf16)), y ∈ pc.1.set :=
  View.cover_of_tiled [⟨rb0, p0⟩] S512x4096.size (by rfl) y

set_option maxHeartbeats 1000000 in
/-- The body on whole staging buffers: the two inputs at their contents, the output at anything, runs to
    the continuation with the inputs as they were and the output at `slab0` of them. -/
theorem body0_triple (c : Dev nD) (E : Set ℕ) (i : grid0.Coords) (arg1 : Memref sig .tc .vmem S512x4096 .f32) (harg1 : arg1.IsWhole) (arg2 : Memref sig .tc .vmem S1x1 .f32) (harg2 : arg2.IsWhole) (arg3 : Memref sig .tc .vmem S512x4096 .bf16) (harg3 : arg3.IsWhole)
    (x : Vec F S512x4096 .f32) (xs : Vec F S1x1 .f32) (K : PUnit → sProp 𝕄) :
    iprop(owns (c : Thread nD τ) arg1 fullShare x ∗ owns (c : Thread nD τ) arg2 fullShare xs ∗ (∃ d, owns (c : Thread nD τ) arg3 fullShare d)
        ∗ (iprop(owns (c : Thread nD τ) arg1 fullShare x ∗ owns (c : Thread nD τ) arg2 fullShare xs ∗ owns (c : Thread nD τ) arg3 fullShare (slab0 xs x)) -∗ K ⟨⟩))
      ⊢ wp frame (wpE (defs₀ (F := F)) Variants.none c none) E (cc0__quantize_x_kernel i arg1 harg1 arg2 harg2 arg3 harg3) K := by
  simp only [cc0__quantize_x_kernel_eq_skeleton]; unfold cc0__quantize_x_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slab0_cover _)

/-- The proof data of the pipeline on core `c`: the arrays as the region finds them; after the body at a
    point each input's buffer at its block, the output's at the slab of the two blocks; the invariant the
    scoped rest and the generator register, untouched; nothing owed; full shares. -/
def dat0 (c : Dev nD) : Dat τ (Elt F) Unit ℕ (UR sig nD τ) ℕ cfg0 c where
  A w := V c (Pipeline.arrRef spec0 w)
  after w t := match w with
    | ⟨0, _⟩ => blk0 V c 0 t
    | ⟨1, _⟩ => blk0 V c 1 t
    | ⟨2, _⟩ => slab0 (blk0 V c 1 t) (blk0 V c 0 t)
  Φ _ := Pipeline.ΦA spec0 c
  q _ := fullShare
  owed _ := 0

theorem dat0_A (c : Dev nD) (w : Fin cfg0.W) : (dat0 V c).A w = V c (Pipeline.arrRef spec0 w) := by
  dsimp only [dat0]
theorem dat0_after0 (c : Dev nD) (t : Fin cfg0.N) : (dat0 V c).after 0 t = blk0 V c 0 t := by dsimp only [dat0]
theorem dat0_after1 (c : Dev nD) (t : Fin cfg0.N) : (dat0 V c).after 1 t = blk0 V c 1 t := by dsimp only [dat0]
theorem dat0_after2 (c : Dev nD) (t : Fin cfg0.N) : (dat0 V c).after 2 t = slab0 (blk0 V c 1 t) (blk0 V c 0 t) := by dsimp only [dat0]
theorem dat0_found0 (c : Dev nD) (t : Fin cfg0.N) (d) : (dat0 V c).before 0 t d = blk0 V c 0 t :=
  found0_0_of V (dat0 V c) (dat0_A V c 0) (dat0_after0 V c) t d
theorem dat0_found1 (c : Dev nD) (t : Fin cfg0.N) (d) : (dat0 V c).before 1 t d = blk0 V c 1 t :=
  found0_1_of V (dat0 V c) (dat0_A V c 1) (dat0_after1 V c) t d

/-- What the body is called with at a point, the windows one by one, -/
def pre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def post0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the triple applies; the invariant and
    the core's dues pass through unread. -/
theorem body0_at (c : Dev nD) (t : Fin cfg0.N) :
    pre0 V c t ⊢ wp frame (wpE (defs₀ (F := F)) Variants.none c none) Set.univ (bodyAt0 t) (fun _ => post0 V c t) := by
  unfold pre0 post0 bodyAt0
  simp only [dat0_found0, dat0_found1]
  rw [show (dat0 V c).Φ t.succ = (dat0 V c).Φ t.castSucc from rfl,
    show (dat0 V c).owesAt () t.succ = (dat0 V c).owesAt () t.castSucc from rfl,
    dat0_after0, dat0_after1, dat0_after2]
  iintro ⟨HΦ, Ho, ⟨%d0, H0⟩, ⟨%d1, H1⟩, ⟨%d2, H2⟩⟩
  iapply (body0_triple c Set.univ _ _ _ _ _ _ _ (blk0 V c 0 t) (blk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem obligation0 (c : Dev nD) : BodyObligation (dat0 (F := F) V c) (defs₀ (F := F)) Variants.none () Set.univ := fun t => by
  rw [bigSep_W0, bigSep_W0]
  exact body0_at V c t

end Cert.KernelIdeal.Hand

end
-- ==== Proof.IdealRegion1.lean ====
/-
  Region 1 of the program: the quantization pass over the weights.  Its grid walks the array in
  slabs of 512 rows; at a point the body reads the slab and the column of that slab's reciprocal row scales, and writes the
  slab of quantized entries.  Stated at a parameter `V`, the buffers' contents when the region is entered:
  what the output slab holds after the body as a function of the two input blocks, the body's triple, the
  pipeline's proof data and the body obligation at every point.
-/
import proofs.«120888_j49770081026763_2_alg».proof.Proof.Gen.KernelIdeal.Launch
import proofs.«120888_j49770081026763_2_alg».proof.Proof.Gen.KernelIdeal.Skeleton
import proofs.«120888_j49770081026763_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def blk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, fetched there or not (a block that
    is not fetched again has not moved). -/
theorem found1_0_of {c : Dev nD} (dat : Dat τ (Elt F) Unit ℕ (UR sig nD τ) ℕ cfg1 c) (hA : dat.A 0 = V c (Pipeline.arrRef spec1 0))
    (hafter : ∀ t, dat.after 0 t = blk1 V c 0 t) (t : Fin cfg1.N) (d) : dat.before 0 t d = blk1 V c 0 t :=
  (dat.before_in_eq_fetched 0 rfl (fun _ => rfl) (fun _ _ _ => rfl) (fun t => by rw [hafter]; unfold Dat.blockOf blk1; rw [hA]; try rfl) t d).trans
    (by unfold Dat.fetched Dat.blockOf blk1; rw [hA]; try rfl)
theorem found1_1_of {c : Dev nD} (dat : Dat τ (Elt F) Unit ℕ (UR sig nD τ) ℕ cfg1 c) (hA : dat.A 1 = V c (Pipeline.arrRef spec1 1))
    (hafter : ∀ t, dat.after 1 t = blk1 V c 1 t) (t : Fin cfg1.N) (d) : dat.before 1 t d = blk1 V c 1 t :=
  (dat.before_in_eq_fetched 1 rfl (fun _ => rfl) (fun _ _ _ => rfl) (fun t => by rw [hafter]; unfold Dat.blockOf blk1; rw [hA]; try rfl) t d).trans
    (by unfold Dat.fetched Dat.blockOf blk1; rw [hA]; try rfl)

/-- The whole scale block and the whole slab, as rectangles. -/
abbrev rs1 : Rect S512x1 := Rect.unit (s := S512x1) ![0, 0] S512x1.size inb_S512x1_S512x1_0_0
abbrev rb1 : Rect S512x4096 := Rect.unit (s := S512x4096) ![0, 0] S512x4096.size inb_S512x4096_S512x4096_0_0

/-- The output slab after the body: its one store, of the quantized product of the slab and the scale. -/
def slab1 (xs : Vec F S512x1 .f32) (x : Vec F S512x4096 .f32) : Vec F S512x4096 .bf16 :=
  View.canon [⟨rb1, k1_pay1 (View.ld xs rs1) (View.ld x rb1)⟩]

/-- The store covers the slab. -/
theorem slab1_cover (p0 : Vec F S512x4096 .bf16) (y : S512x4096.Idx) :
    ∃ pc ∈ ([⟨rb1, p0⟩] : List (View.Piece (Elt F) S512x4096 .bf16)), y ∈ pc.1.set :=
  View.cover_of_tiled [⟨rb1, p0⟩] S512x4096.size (by rfl) y

set_option maxHeartbeats 1000000 in
/-- The body on whole staging buffers: the two inputs at their contents, the output at anything, runs to
    the continuation with the inputs as they were and the output at `slab1` of them. -/
theorem body1_triple (c : Dev nD) (E : Set ℕ) (i : grid1.Coords) (arg1 : Memref sig .tc .vmem S512x4096 .f32) (harg1 : arg1.IsWhole) (arg2 : Memref sig .tc .vmem S512x1 .f32) (harg2 : arg2.IsWhole) (arg3 : Memref sig .tc .vmem S512x4096 .bf16) (harg3 : arg3.IsWhole)
    (x : Vec F S512x4096 .f32) (xs : Vec F S512x1 .f32) (K : PUnit → sProp 𝕄) :
    iprop(owns (c : Thread nD τ) arg1 fullShare x ∗ owns (c : Thread nD τ) arg2 fullShare xs ∗ (∃ d, owns (c : Thread nD τ) arg3 fullShare d)
        ∗ (iprop(owns (c : Thread nD τ) arg1 fullShare x ∗ owns (c : Thread nD τ) arg2 fullShare xs ∗ owns (c : Thread nD τ) arg3 fullShare (slab1 xs x)) -∗ K ⟨⟩))
      ⊢ wp frame (wpE (defs₀ (F := F)) Variants.none c none) E (cc1__quantize_w_kernel i arg1 harg1 arg2 harg2 arg3 harg3) K := by
  simp only [cc1__quantize_w_kernel_eq_skeleton]; unfold cc1__quantize_w_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (slab1_cover _)

/-- The proof data of the pipeline on core `c`: the arrays as the region finds them; after the body at a
    point each input's buffer at its block, the output's at the slab of the two blocks; the invariant the
    scoped rest and the generator register, untouched; nothing owed; full shares. -/
def dat1 (c : Dev nD) : Dat τ (Elt F) Unit ℕ (UR sig nD τ) ℕ cfg1 c where
  A w := V c (Pipeline.arrRef spec1 w)
  after w t := match w with
    | ⟨0, _⟩ => blk1 V c 0 t
    | ⟨1, _⟩ => blk1 V c 1 t
    | ⟨2, _⟩ => slab1 (blk1 V c 1 t) (blk1 V c 0 t)
  Φ _ := Pipeline.ΦA spec1 c
  q _ := fullShare
  owed _ := 0

theorem dat1_A (c : Dev nD) (w : Fin cfg1.W) : (dat1 V c).A w = V c (Pipeline.arrRef spec1 w) := by
  dsimp only [dat1]
theorem dat1_after0 (c : Dev nD) (t : Fin cfg1.N) : (dat1 V c).after 0 t = blk1 V c 0 t := by dsimp only [dat1]
theorem dat1_after1 (c : Dev nD) (t : Fin cfg1.N) : (dat1 V c).after 1 t = blk1 V c 1 t := by dsimp only [dat1]
theorem dat1_after2 (c : Dev nD) (t : Fin cfg1.N) : (dat1 V c).after 2 t = slab1 (blk1 V c 1 t) (blk1 V c 0 t) := by dsimp only [dat1]
theorem dat1_found0 (c : Dev nD) (t : Fin cfg1.N) (d) : (dat1 V c).before 0 t d = blk1 V c 0 t :=
  found1_0_of V (dat1 V c) (dat1_A V c 0) (dat1_after0 V c) t d
theorem dat1_found1 (c : Dev nD) (t : Fin cfg1.N) (d) : (dat1 V c).before 1 t d = blk1 V c 1 t :=
  found1_1_of V (dat1 V c) (dat1_A V c 1) (dat1_after1 V c) t d

/-- What the body is called with at a point, the windows one by one, -/
def pre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d)))

/-- and what it returns. -/
def post1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t))

/-- The body at any point: the inputs' buffers hold their blocks, so the triple applies; the invariant and
    the core's dues pass through unread. -/
theorem body1_at (c : Dev nD) (t : Fin cfg1.N) :
    pre1 V c t ⊢ wp frame (wpE (defs₀ (F := F)) Variants.none c none) Set.univ (bodyAt1 t) (fun _ => post1 V c t) := by
  unfold pre1 post1 bodyAt1
  simp only [dat1_found0, dat1_found1]
  rw [show (dat1 V c).Φ t.succ = (dat1 V c).Φ t.castSucc from rfl,
    show (dat1 V c).owesAt () t.succ = (dat1 V c).owesAt () t.castSucc from rfl,
    dat1_after0, dat1_after1, dat1_after2]
  iintro ⟨HΦ, Ho, ⟨%d0, H0⟩, ⟨%d1, H1⟩, ⟨%d2, H2⟩⟩
  iapply (body1_triple c Set.univ _ _ _ _ _ _ _ (blk1 V c 0 t) (blk1 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The body obligation, at every point. -/
theorem obligation1 (c : Dev nD) : BodyObligation (dat1 (F := F) V c) (defs₀ (F := F)) Variants.none () Set.univ := fun t => by
  rw [bigSep_W1, bigSep_W1]
  exact body1_at V c t

end Cert.KernelIdeal.Hand

end
-- ==== Proof.IdealRun.lean ====
/-
  The run of the whole program: one stretch of host operations (the two scales, their reciprocals, the
  reshapes), then the three regions.  The buffers' contents at each boundary are a fold from the launch
  memory: after the host stretch, then after each region with that region's arrays at what its pipeline
  leaves and every other buffer as it was.  Each region is entered from "every unscoped buffer at the
  boundary's contents, the generator register at some state, nothing owed" and left in the same form, so the
  four segments chain.  The run ends with every unscoped buffer at the last boundary's contents; read there,
  the two arguments are as launched and the result array is what region 2's pipeline leaves.
-/
import proofs.«120888_j49770081026763_2_alg».proof.Proof.IdealRegion0
import proofs.«120888_j49770081026763_2_alg».proof.Proof.IdealRegion1
import proofs.«120888_j49770081026763_2_alg».proof.Proof.IdealAcc

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

/-- Core `c`'s buffers at launch. -/
abbrev W0 : Dev nD → Valuation τ sig (Elt F) := fun c b => (s₀ m ρ).mem ((c : Dev nD), b)
/-- After the host stretch (region 0's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At region 0's exit: its arrays at what the pipeline leaves (the inputs as entered, the output's write-backs
    folded), every other buffer as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
/-- The same read at the core's references. -/
abbrev V2 : (c : Dev nD) → (b : Ref sig .tc) → Buf (Elt F) ((c : Thread nD τ).loc b) := fun c b => W2 m ρ c b
theorem left0 (c : Dev nD) (w : Fin cfg0.W) : (dat0 (V1 m ρ) c).arrAt w cfg0.N = V2 m ρ c (Pipeline.arrRef spec0 w) :=
  (W2_arr m ρ c w).symm
theorem kept0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- At region 1's exit: its arrays at what the pipeline leaves (the inputs as entered, the output's write-backs
    folded), every other buffer as entered. -/
def W3 (c : Dev nD) : Valuation τ sig (Elt F) :=
  Pipeline.withArrays spec1 c (W2 m ρ c) fun w => (dat1 (V2 m ρ) c).arrAt w cfg1.N
theorem W3_arr (c : Dev nD) (w : Fin cfg1.W) :
    W3 m ρ c (Proc.devRef .tc (Pipeline.arrRef spec1 w)) = (dat1 (V2 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb
/-- The same read at the core's references. -/
abbrev V3 : (c : Dev nD) → (b : Ref sig .tc) → Buf (Elt F) ((c : Thread nD τ).loc b) := fun c b => W3 m ρ c b
theorem left1 (c : Dev nD) (w : Fin cfg1.W) : (dat1 (V2 m ρ) c).arrAt w cfg1.N = V3 m ρ c (Pipeline.arrRef spec1 w) :=
  (W3_arr m ρ c w).symm
theorem kept1 (c : Dev nD) : ∀ b, b ∉ Finset.univ.image (Pipeline.arrRef spec1) → V3 m ρ c b = V2 m ρ c b :=
  fun b hb => W3_of_ne m ρ c b fun w e => hb (Finset.mem_image.mpr ⟨w, Finset.mem_univ _, e⟩)

/-- At region 2's exit: its arrays at what the pipeline leaves (the inputs as entered, the output's write-backs
    folded), every other buffer as entered. -/
def W4 (c : Dev nD) : Valuation τ sig (Elt F) :=
  Pipeline.withArrays spec2 c (W3 m ρ c) fun w => (dat2 (V3 m ρ) c).arrAt w cfg2.N
theorem W4_arr (c : Dev nD) (w : Fin cfg2.W) :
    W4 m ρ c (Proc.devRef .tc (Pipeline.arrRef spec2 w)) = (dat2 (V3 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb
/-- The same read at the core's references. -/
abbrev V4 : (c : Dev nD) → (b : Ref sig .tc) → Buf (Elt F) ((c : Thread nD τ).loc b) := fun c b => W4 m ρ c b
theorem left2 (c : Dev nD) (w : Fin cfg2.W) : (dat2 (V3 m ρ) c).arrAt w cfg2.N = V4 m ρ c (Pipeline.arrRef spec2 w) :=
  (W4_arr m ρ c w).symm
theorem kept2 (c : Dev nD) : ∀ b, b ∉ Finset.univ.image (Pipeline.arrRef spec2) → V4 m ρ c b = V3 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := (W2_arr m ρ c 0).trans (((dat0 (V1 m ρ) c).arrAt_in 0 rfl _).trans (dat0_A (V1 m ρ) c 0))
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := (W3_arr m ρ c 0).trans (((dat1 (V2 m ρ) c).arrAt_in 0 rfl _).trans (dat1_A (V2 m ρ) c 0))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl

/-- The result array ends at what region 2's pipeline leaves in its output window's array. -/
theorem W4_result (c : Dev nD) : W4 m ρ c (Proc.devRef .tc main_v22) = (dat2 (V3 m ρ) c).arrAt 4 cfg2.N :=
  W4_arr m ρ c 4

/-! ## The proof data family and the thread state -/

/-- No pipeline has a prefetched table. -/
abbrev noTables : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) noTables p) c
  | ⟨0, _⟩ => fun c => dat0 (V1 m ρ) c
  | ⟨1, _⟩ => fun c => dat1 (V2 m ρ) c
  | ⟨2, _⟩ => fun c => dat2 (V3 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core
    owing nothing. -/
abbrev R (c : Dev nD) : sProp 𝕄 := iprop((∃ r, prngReg c r) ∗ ∃ W, owes (c : Thread nD τ) (0 : CellTallies nD τ sig Unit) W)
/-- The host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- No host operation allocates a buffer. -/
theorem hostOps0_noAlloc : (hostOps0 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at the last boundary's contents, the
    generator register at some state. -/
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at `W1`, left at `W2`.  Its arrays
    are split out of the unscoped buffers and put back at the exit contents; the generator register goes into
    the region's invariant and comes out; nothing is owed; the kernel has no semaphore of its own. -/
def reg0 : Pipeline.RegionSeg (pcfgs (F := F)) noTables (pdats m ρ) () defs₀ 𝒱₀ L lv 0 where
  win := launch0.win.to₀
  block_pos := launch0.block_pos
  stage_whole := launch0.stage_whole
  K := PEmpty
  osem k := k.elim
  ho := Pipeline.OwnSemFacts.none _
  hbody c := (obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) noTables (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) noTables (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (left0 m ρ c) (kept0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at `W2`, left at `W3`.  Its arrays
    are split out of the unscoped buffers and put back at the exit contents; the generator register goes into
    the region's invariant and comes out; nothing is owed; the kernel has no semaphore of its own. -/
def reg1 : Pipeline.RegionSeg (pcfgs (F := F)) noTables (pdats m ρ) () defs₀ 𝒱₀ L lv 1 where
  win := launch1.win.to₀
  block_pos := launch1.block_pos
  stage_whole := launch1.stage_whole
  K := PEmpty
  osem k := k.elim
  ho := Pipeline.OwnSemFacts.none _
  hbody c := (obligation1 (V2 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := Pipeline.arrays_of_unscopedBufs (p := 1) (pcfgs (F := F)) noTables (pdats m ρ) launch1.win launch1.arr_whole c
      ((pdats m ρ 1 c).share_full fun _ => rfl) (V2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) noTables (Ix := Unit) (Name := ℕ) (U := UR sig nD τ) (Lvl := ℕ)
      launch1.win launch1.arr_whole c (pdats m ρ) ((pdats m ρ 1 c).share_full fun _ => rfl)
      (V2 m ρ c) (V3 m ρ c) ((pdats m ρ 1 c).arrAt · cfg1.N) (left1 m ρ c) (kept1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at `W3`, left at `W4`.  Its arrays
    are split out of the unscoped buffers and put back at the exit contents; the generator register goes into
    the region's invariant and comes out; nothing is owed; the kernel has no semaphore of its own. -/
def reg2 : Pipeline.RegionSeg (pcfgs (F := F)) noTables (pdats m ρ) () defs₀ 𝒱₀ L lv 2 where
  win := launch2.win.to₀
  block_pos := launch2.block_pos
  stage_whole := launch2.stage_whole
  K := PEmpty
  osem k := k.elim
  ho := Pipeline.OwnSemFacts.none _
  hbody c := (obligation2 (V3 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V3 m ρ c)
  hentry c := by
    rw [Pipeline.ownSems0_none]
    have hsplit := Pipeline.arrays_of_unscopedBufs (p := 2) (pcfgs (F := F)) noTables (pdats m ρ) launch2.win launch2.arr_whole c
      ((pdats m ρ 2 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none]
    have hgive : (Pipeline.ΦA spec2 c : sProp 𝕄) ⊢ iprop((∃ r, prngReg c r) ∗ BI.emp ∗ Pipeline.scopedRest (Pipeline.pin (pcfgs (F := F)) noTables 2).spec c) := by
      unfold Pipeline.ΦA
      iintro ⟨Hr, Hp⟩
      isplitl [Hp]; · iexact Hp
      isplitr; · iempintro
      iexact Hr
    exact (hout2 (V3 m ρ) c).trans hgive
  hexit c := by
    have hjoin := Pipeline.unscopedBufs_of_arrays (p := 2) (pcfgs (F := F)) noTables (Ix := Unit) (Name := ℕ) (U := UR sig nD τ) (Lvl := ℕ)
      launch2.win launch2.arr_whole c (pdats m ρ) ((pdats m ρ 2 c).share_full fun _ => rfl)
      (V3 m ρ c) (V4 m ρ c) ((pdats m ρ 2 c).arrAt · cfg2.N) (left2 m ρ c) (kept2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) noTables (pdats m ρ) () defs₀ 𝒱₀ L lv) :=
  [ .host (hseg hostOps0 hostOps0_sub hostOps0_noAlloc (W0 m ρ)),
    .region (reg0 m ρ),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of the program terminates,
    nothing faulting, and every final state has the result array at what region 2's pipeline leaves in its
    output array and the two arguments as launched. -/
theorem run : θ_run defs (onTc (τ := τ) (main (F := F))) ⟨m, fun _ => 0, ρ⟩ (fun r => ∀ c : Dev nD,
      r.2.mem ((c.tc : Thread nD τ).loc main_v22) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) noTables (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v22 (by decide))).trans (W4_result m ρ c),
       (h c _ (mem_uc main_arg0 (by decide))).trans (W4_main_arg0 m ρ c),
       (h c _ (mem_uc main_arg1 (by decide))).trans (W4_main_arg1 m ρ c)⟩)

/-- The frame: the program runs and its two argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => (h c).2) (run m ρ)

end Cert.KernelIdeal.Hand

end
-- ==== Proof.IdealQuantVals.lean ====
/-
  What the two quantizing regions leave in their output arrays, as whole-array functions of the contents
  the regions are entered with.

  Each region walks its array in slabs of 512 full rows, one slab per grid point, and at point t writes
  back the quantized slab: entry (r, k) of the slab is the clipped and rounded product of the input slab's
  entry (r, k) with a scale — for the activations the one entry of the 1 × 1 scale array, for the weights
  entry r of the slab's own column of row scales.  Slab t of an array of 4096 columns sits at rows
  512·t … 512·t + 511, and the column of row scales is cut into the same slabs, so entry (r, k) of slab t
  is the array entry (512·t + r, k) and its scale is the scale of row 512·t + r.  Hence what point t
  writes back is slab t of ONE function of the whole arrays,

      i ↦ quant (x i · s)            (activations: s the scale array's one entry),
      i ↦ quant (w i · s (i₀, 0))    (weights: the scale of i's row),

  and since row ρ lies in slab ρ / 512 the slabs cover the array: after the region the output array is
  that function.
-/
import proofs.«120888_j49770081026763_2_alg».proof.Proof.IdealRegion0
import proofs.«120888_j49770081026763_2_alg».proof.Proof.IdealRegion1
import proofs.«120888_j49770081026763_2_alg».proof.Proof.Payloads
import Idealize.ShloMosaic.Lib.Pipeline.Value

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.QuantSpec ValueIdx

variable (V : (c : Dev nD) → (b : Ref sig .tc) → Buf (Elt Ideal) ((c : Thread nD τ).loc b))

/-- The zero offsets of a whole-buffer rectangle, as the constant function. -/
theorem qx_hz : (![0, 0] : Fin 2 → Nat) = fun _ => 0 := funext fun a => by fin_cases a <;> rfl

/-! ## Region 0: the activations -/

/-- The quantized activations: every entry times the scale array's one entry, clipped and rounded. -/
def qx_G (c : Dev nD) : S8192x4096.Idx → EReal :=
  fun i => quant (HMul.hMul (α := EReal) (β := EReal) (γ := EReal) (V c main_arg0 i) (V c main_v18 (ix2 0 0)))

/-- The output slab after the body, at entry (r, k), of any two input blocks. -/
theorem qx_slab_at (xs : Vec Ideal S1x1 .f32) (x : Vec Ideal S512x4096 .f32) (r : Fin 512) (k : Fin 4096) :
    slab0 (F := Ideal) xs x (ix2 r k) = quant (x (ix2 r k) * xs (ix2 0 0)) := by
  unfold slab0
  rw [View.canon_unit_zero qx_hz]
  simp only [View.ld_unit_zero (S := S512x4096) qx_hz, View.ld_unit_zero (S := S1x1) qx_hz]
  exact Pay.pay0_at xs x r k

/-- The block indices at point t: the input slab and the output slab are both slab t, block column 0; the
    scale block is always block (0, 0). -/
theorem qx_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- What point t writes back is slab t of the quantized activations. -/
theorem qx_flushed (c : Dev nD) (t : Fin cfg0.N) :
    (dat0 (F := Ideal) V c).flushed 2 t = ((cfg0.win 2).blk t).view.read (Elt Ideal) (qx_G V c) := by
  show (cfg0.win 2).cut (grid0.coords t) ((dat0 V c).after 2 t) = _
  rw [dat0_after2]
  funext j
  obtain ⟨r, k, rfl⟩ : ∃ (r : Fin 512) (k : Fin 4096), j = ix2 r k := ⟨j 0, j 1, eq_ix2 (n0 := 512) (n1 := 4096) j⟩
  obtain ⟨e0, e1, e2, e3, e4, e5⟩ := qx_idx t
  have hx : (cfg0.win 2).xinj (grid0.coords t) (ix2 r k) = ix2 r k :=
    funext fun a => by match a with | ⟨0, _⟩ => rfl | ⟨1, _⟩ => rfl
  show slab0 (blk0 V c 1 t) (blk0 V c 0 t) ((cfg0.win 2).xinj (grid0.coords t) (ix2 r k)) = _
  rw [hx]
  refine (qx_slab_at (blk0 V c 1 t) (blk0 V c 0 t) r k).trans ?_
  show quant (HMul.hMul (α := EReal) (β := EReal) (γ := EReal) (V c main_arg0 (((cfg0.win 0).blk t).view.emb (ix2 r k))) (V c main_v18 (((cfg0.win 1).blk t).view.emb (ix2 0 0))))
    = quant (HMul.hMul (α := EReal) (β := EReal) (γ := EReal) (V c main_arg0 (((cfg0.win 2).blk t).view.emb (ix2 r k))) (V c main_v18 (ix2 0 0)))
  have h0 : ((cfg0.win 0).blk t).view.emb (ix2 r k) = ((cfg0.win 2).blk t).view.emb (ix2 r k) := by
    funext a; apply Fin.ext
    match a with
    | ⟨0, _⟩ => show win0_0.index t (0 : Fin 2) * 512 + 1 * r.val = win0_2.index t (0 : Fin 2) * 512 + 1 * r.val; omega
    | ⟨1, _⟩ => show win0_0.index t (1 : Fin 2) * 4096 + 1 * k.val = win0_2.index t (1 : Fin 2) * 4096 + 1 * k.val; omega
  have h1 : ((cfg0.win 1).blk t).view.emb (ix2 0 0) = ix2 0 0 := by
    funext a; apply Fin.ext
    match a with
    | ⟨0, _⟩ => show win0_1.index t (0 : Fin 2) * 1 + 1 * 0 = 0; omega
    | ⟨1, _⟩ => show win0_1.index t (1 : Fin 2) * 1 + 1 * 0 = 0; omega
  rw [h0, h1]

/-- An index of the array is in point t's slab iff each coordinate is in the slab's range on its axis. -/
theorem qx_mem_blk (t : Fin cfg0.N) (i : S8192x4096.Idx) :
    i ∈ ((cfg0.win 2).blk t).view.set ↔ ∀ a : Fin 2, win0_2.index t a * S512x4096.size a ≤ (i a).val ∧ (i a).val < win0_2.index t a * S512x4096.size a + S512x4096.size a := by
  show i ∈ ((View.whole main_v20).slice (win0_2.rect t)).set ↔ _
  rw [View.set_slice_whole, Rect.mem_set_unit]
  exact Iff.rfl

/-- Every index lies in some point's slab: row ρ in the slab of point ρ / 512. -/
theorem qx_cover (i : S8192x4096.Idx) : ∃ t : Fin cfg0.N, (cfg0.win 2).flush t = true ∧ i ∈ ((cfg0.win 2).blk t).view.set := by
  have hN : cfg0.N = 16 := N_0
  have hi0 : (i 0).val < 8192 := (i 0).isLt
  have hi1 : (i 1).val < 4096 := (i 1).isLt
  refine ⟨⟨(i 0).val / 512, by omega⟩, flush0_2 _, ?_⟩
  rw [qx_mem_blk]
  obtain ⟨e0, e1, e2, e3, e4, e5⟩ := qx_idx ⟨(i 0).val / 512, by omega⟩
  intro a
  match a with
  | ⟨0, _⟩ =>
    show win0_2.index ⟨(i 0).val / 512, _⟩ (0 : Fin 2) * 512 ≤ (i 0).val ∧ (i 0).val < win0_2.index ⟨(i 0).val / 512, _⟩ (0 : Fin 2) * 512 + 512
    rw [e4]; show (i 0).val / 512 * 512 ≤ (i 0).val ∧ (i 0).val < (i 0).val / 512 * 512 + 512; omega
  | ⟨1, _⟩ =>
    show win0_2.index ⟨(i 0).val / 512, _⟩ (1 : Fin 2) * 4096 ≤ (i 1).val ∧ (i 1).val < win0_2.index ⟨(i 0).val / 512, _⟩ (1 : Fin 2) * 4096 + 4096
    rw [e5]; omega

/-- After region 0 its output array holds the quantized activations. -/
theorem qx_array (c : Dev nD) :
    (dat0 (F := Ideal) V c).arrAt 2 cfg0.N
      = fun i : S8192x4096.Idx => quant (HMul.hMul (α := EReal) (β := EReal) (γ := EReal) (V c main_arg0 i) (V c main_v18 (ix2 0 0))) :=
  (dat0 V c).arrAt_eq_of_cover 2 (qx_G V c) (fun t _ => qx_flushed V c t) qx_cover

/-! ## Region 1: the weights -/

/-- The quantized weights: every entry times the scale of its row, clipped and rounded. -/
def qw_G (c : Dev nD) : S4096x4096.Idx → EReal :=
  fun i => quant (HMul.hMul (α := EReal) (β := EReal) (γ := EReal) (V c main_arg1 i) (V c main_v11 (ix2 (i 0) 0)))

/-- The output slab after the body, at entry (r, k), of any two input blocks. -/
theorem qw_slab_at (xs : Vec Ideal S512x1 .f32) (x : Vec Ideal S512x4096 .f32) (r : Fin 512) (k : Fin 4096) :
    slab1 (F := Ideal) xs x (ix2 r k) = quant (x (ix2 r k) * xs (ix2 r 0)) := by
  unfold slab1
  rw [View.canon_unit_zero qx_hz]
  simp only [View.ld_unit_zero (S := S512x4096) qx_hz, View.ld_unit_zero (S := S512x1) qx_hz]
  exact Pay.pay1_at xs x r k

/-- The block indices at point t: the input slab, the scale column's block and the output slab are all
    block t on the row axis, block 0 on the column axis. -/
theorem qw_idx : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 :=
  (by decide +kernel : ∀ t : Fin grid1.N, _)

/-- What point t writes back is slab t of the quantized weights. -/
theorem qw_flushed (c : Dev nD) (t : Fin cfg1.N) :
    (dat1 (F := Ideal) V c).flushed 2 t = ((cfg1.win 2).blk t).view.read (Elt Ideal) (qw_G V c) := by
  show (cfg1.win 2).cut (grid1.coords t) ((dat1 V c).after 2 t) = _
  rw [dat1_after2]
  funext j
  obtain ⟨r, k, rfl⟩ : ∃ (r : Fin 512) (k : Fin 4096), j = ix2 r k := ⟨j 0, j 1, eq_ix2 (n0 := 512) (n1 := 4096) j⟩
  obtain ⟨e0, e1, e2, e3, e4, e5⟩ := qw_idx t
  have hx : (cfg1.win 2).xinj (grid1.coords t) (ix2 r k) = ix2 r k :=
    funext fun a => by match a with | ⟨0, _⟩ => rfl | ⟨1, _⟩ => rfl
  show slab1 (blk1 V c 1 t) (blk1 V c 0 t) ((cfg1.win 2).xinj (grid1.coords t) (ix2 r k)) = _
  rw [hx]
  refine (qw_slab_at (blk1 V c 1 t) (blk1 V c 0 t) r k).trans ?_
  show quant (HMul.hMul (α := EReal) (β := EReal) (γ := EReal) (V c main_arg1 (((cfg1.win 0).blk t).view.emb (ix2 r k))) (V c main_v11 (((cfg1.win 1).blk t).view.emb (ix2 r 0))))
    = quant (HMul.hMul (α := EReal) (β := EReal) (γ := EReal) (V c main_arg1 (((cfg1.win 2).blk t).view.emb (ix2 r k)))
        (V c main_v11 (ix2 (n0 := 4096) (n1 := 1) ((((cfg1.win 2).blk t).view.emb (ix2 r k)) 0) 0)))
  have h0 : ((cfg1.win 0).blk t).view.emb (ix2 r k) = ((cfg1.win 2).blk t).view.emb (ix2 r k) := by
    funext a; apply Fin.ext
    match a with
    | ⟨0, _⟩ => show win1_0.index t (0 : Fin 2) * 512 + 1 * r.val = win1_2.index t (0 : Fin 2) * 512 + 1 * r.val; omega
    | ⟨1, _⟩ => show win1_0.index t (1 : Fin 2) * 4096 + 1 * k.val = win1_2.index t (1 : Fin 2) * 4096 + 1 * k.val; omega
  have h1 : ((cfg1.win 1).blk t).view.emb (ix2 r 0) = ix2 (n0 := 4096) (n1 := 1) ((((cfg1.win 2).blk t).view.emb (ix2 r k)) 0) 0 := by
    funext a; apply Fin.ext
    match a with
    | ⟨0, _⟩ => show win1_1.index t (0 : Fin 2) * 512 + 1 * r.val = win1_2.index t (0 : Fin 2) * 512 + 1 * r.val; omega
    | ⟨1, _⟩ => show win1_1.index t (1 : Fin 2) * 1 + 1 * 0 = 0; omega
  rw [h0, h1]

/-- An index of the array is in point t's slab iff each coordinate is in the slab's range on its axis. -/
theorem qw_mem_blk (t : Fin cfg1.N) (i : S4096x4096.Idx) :
    i ∈ ((cfg1.win 2).blk t).view.set ↔ ∀ a : Fin 2, win1_2.index t a * S512x4096.size a ≤ (i a).val ∧ (i a).val < win1_2.index t a * S512x4096.size a + S512x4096.size a := by
  show i ∈ ((View.whole main_v21).slice (win1_2.rect t)).set ↔ _
  rw [View.set_slice_whole, Rect.mem_set_unit]
  exact Iff.rfl

/-- Every index lies in some point's slab: row ρ in the slab of point ρ / 512. -/
theorem qw_cover (i : S4096x4096.Idx) : ∃ t : Fin cfg1.N, (cfg1.win 2).flush t = true ∧ i ∈ ((cfg1.win 2).blk t).view.set := by
  have hN : cfg1.N = 8 := N_1
  have hi0 : (i 0).val < 4096 := (i 0).isLt
  have hi1 : (i 1).val < 4096 := (i 1).isLt
  refine ⟨⟨(i 0).val / 512, by omega⟩, flush1_2 _, ?_⟩
  rw [qw_mem_blk]
  obtain ⟨e0, e1, e2, e3, e4, e5⟩ := qw_idx ⟨(i 0).val / 512, by omega⟩
  intro a
  match a with
  | ⟨0, _⟩ =>
    show win1_2.index ⟨(i 0).val / 512, _⟩ (0 : Fin 2) * 512 ≤ (i 0).val ∧ (i 0).val < win1_2.index ⟨(i 0).val / 512, _⟩ (0 : Fin 2) * 512 + 512
    rw [e4]; show (i 0).val / 512 * 512 ≤ (i 0).val ∧ (i 0).val < (i 0).val / 512 * 512 + 512; omega
  | ⟨1, _⟩ =>
    show win1_2.index ⟨(i 0).val / 512, _⟩ (1 : Fin 2) * 4096 ≤ (i 1).val ∧ (i 1).val < win1_2.index ⟨(i 0).val / 512, _⟩ (1 : Fin 2) * 4096 + 4096
    rw [e5]; omega

/-- After region 1 its output array holds the quantized weights. -/
theorem qw_array (c : Dev nD) :
    (dat1 (F := Ideal) V c).arrAt 2 cfg1.N
      = fun i : S4096x4096.Idx => quant (HMul.hMul (α := EReal) (β := EReal) (γ := EReal) (V c main_arg1 i) (V c main_v11 (ix2 (i 0) 0))) :=
  (dat1 V c).arrAt_eq_of_cover 2 (qw_G V c) (fun t _ => qw_flushed V c t) qw_cover

end Cert.KernelIdeal.Hand

end
-- ==== Proof.Scales.lean ====
/-
  The two quantization scales as the host computes them from the argument arrays, over the extended reals:
  the per-tensor activation scale  max (max |x|, ε) / 127  and the per-row weight scale
  max (max (|min_k w q k|, |max_k w q k|), ε) / 127.  Both programs spell them with the same operations, so
  each side's scale is one of these two terms.
-/
import Idealize.ShloMosaic.PureOps.Ideal
import Idealize.ShloMosaic.PureOps
import Idealize.ShloMosaic.Lib.ValueIdx

noncomputable section

namespace Cert.QuantSpec

open Idealize.ShloMosaic

abbrev SX : Shape := ⟨2, ![8192, 4096]⟩
abbrev SW : Shape := ⟨2, ![4096, 4096]⟩
abbrev S0 : Shape := ⟨0, ![]⟩
abbrev SR : Shape := ⟨1, ![4096]⟩

/-- The activation scale, a scalar array: max (max over all entries of |x| from -∞, ε) / 127. -/
def xScaleV (h : SX.ReducesTo [0, 1] S0) (h0 : 0 < S0.numel) (x : FVec Ideal SX .f32) : FVec Ideal S0 .f32 :=
  Host.divf (F := Ideal)
    (maximumf (Host.reduce (FloatOps.maximumf : Ideal .f32 → Ideal .f32 → Ideal .f32) (Host.absf (F := Ideal) x) (constant (F := Ideal) S0 .f32 0xFF800000#32) h h0)
      (constant (F := Ideal) S0 .f32 0x322BCC77#32))
    (constant (F := Ideal) S0 .f32 0x42FE0000#32)

/-- The weight scales, one per row: max (max (|row minimum|, |row maximum|), ε) / 127. -/
def wScaleV (h : SW.ReducesTo [1] SR) (h0 : 0 < S0.numel) (hb : S0.BroadcastsInDim SR (![] : Fin 0 → Fin SR.rank))
    (w : FVec Ideal SW .f32) : FVec Ideal SR .f32 :=
  Host.divf (F := Ideal)
    (maximumf
      (maximumf (Host.absf (F := Ideal) (Host.reduce (FloatOps.minimumf : Ideal .f32 → Ideal .f32 → Ideal .f32) w (constant (F := Ideal) S0 .f32 0x7F800000#32) h h0))
        (Host.absf (F := Ideal) (Host.reduce (FloatOps.maximumf : Ideal .f32 → Ideal .f32 → Ideal .f32) w (constant (F := Ideal) S0 .f32 0xFF800000#32) h h0)))
      (broadcastInDim SR ![] hb (constant (F := Ideal) S0 .f32 0x322BCC77#32)))
    (broadcastInDim SR ![] hb (constant (F := Ideal) S0 .f32 0x42FE0000#32))

end Cert.QuantSpec

end
-- ==== Proof.IdealHostVals.lean ====
/-
  What the host leaves, before the three kernels run, in the arrays the kernels read.

  The host computes the two scales from the argument arrays — the activation scale xs, one number, and the
  weight scales ws, one per row of the weight —, their reciprocals 1 / xs and 1 / ws q, and lays the four
  results out as the kernels want them: 1 / xs and xs as 1 × 1 arrays, the reciprocal weight scales as a
  column [4096, 1], the weight scales as a row [1, 4096].  A reshape keeps the row-major position of every
  entry, so each of these arrays reads, at its one non-unit coordinate, the scale or reciprocal of that
  coordinate.  The host writes neither argument array.
-/
import proofs.«120888_j49770081026763_2_alg».proof.Proof.Gen.KernelIdeal.Launch
import proofs.«120888_j49770081026763_2_alg».proof.Proof.Scales
import proofs.«120888_j49770081026763_2_alg».proof.Proof.Spec
import Idealize.ShloMosaic.Lib.StableHlo.Run
import Idealize.ShloMosaic.Lib.Pipeline.Value
import Idealize.ShloMosaic.Lib.ValueLayout
import Idealize.ShloMosaic.Lib.ValueIdx

noncomputable section

namespace Cert.KernelIdeal.HostVals

open Idealize.ShloMosaic Idealize.ShloMosaic.TcCoe
open Idealize.SL Idealize.SL.Sem
open Cert.KernelIdeal Cert.KernelIdeal.Gen Cert.QuantSpec ValueIdx

variable (m : (ℓ : Loc nD τ sig) → Buf (Elt Ideal) ℓ) (c : Dev nD)

/-! ## The argument arrays are not written -/

/-- The activations are, after the host's operations, what they were at launch. -/
theorem arg0_kept :
    StableHlo.after (hostOps0 (F := Ideal)) (fun b => m (c, b)) (Proc.devRef .tc main_arg0)
      = m ((c : Thread nD τ).loc main_arg0) := by
  after_results

/-- The weights are, after the host's operations, what they were at launch. -/
theorem arg1_kept :
    StableHlo.after (hostOps0 (F := Ideal)) (fun b => m (c, b)) (Proc.devRef .tc main_arg1)
      = m ((c : Thread nD τ).loc main_arg1) := by
  after_results

/-! ## The four arrays as reshapes of the scales and their reciprocals -/

/-- The 1 × 1 array of the reciprocal activation scale: the reshape of 1 / xs. -/
theorem inv_xs_cell_eq :
    (StableHlo.after (hostOps0 (F := Ideal)) (fun b => m (c, b)) (Proc.devRef .tc main_v18) : S1x1.Idx → EReal)
      = shapeCast S1x1 (Host.divf (F := Ideal) (constant (F := Ideal) S_ .f32 0x3F800000#32)
          (xScaleV reducesTo_S8192x4096_S_d0_1 h_S_ (m ((c : Thread nD τ).loc main_arg0)))) shapeCasts_S_S1x1 := by
  after_results
  rfl

/-- The 1 × 1 array of the activation scale: the reshape of xs. -/
theorem xs_cell_eq :
    (StableHlo.after (hostOps0 (F := Ideal)) (fun b => m (c, b)) (Proc.devRef .tc main_v19) : S1x1.Idx → EReal)
      = shapeCast S1x1 (xScaleV reducesTo_S8192x4096_S_d0_1 h_S_ (m ((c : Thread nD τ).loc main_arg0))) shapeCasts_S_S1x1 := by
  after_results
  rfl

/-- The column of reciprocal weight scales: the reshape of 1 / ws. -/
theorem inv_ws_col_eq :
    (StableHlo.after (hostOps0 (F := Ideal)) (fun b => m (c, b)) (Proc.devRef .tc main_v11) : S4096x1.Idx → EReal)
      = shapeCast S4096x1 (Host.divf (F := Ideal)
          (broadcastInDim S4096 ![] bcast_S_S4096 (constant (F := Ideal) S_ .f32 0x3F800000#32))
          (wScaleV reducesTo_S4096x4096_S4096_d1 h_S_ bcast_S_S4096 (m ((c : Thread nD τ).loc main_arg1)))) shapeCasts_S4096_S4096x1 := by
  after_results
  rfl

/-- The row of weight scales: the reshape of ws. -/
theorem ws_row_eq :
    (StableHlo.after (hostOps0 (F := Ideal)) (fun b => m (c, b)) (Proc.devRef .tc main_v12) : S1x4096.Idx → EReal)
      = shapeCast S1x4096 (wScaleV reducesTo_S4096x4096_S4096_d1 h_S_ bcast_S_S4096 (m ((c : Thread nD τ).loc main_arg1))) shapeCasts_S4096_S1x4096 := by
  after_results
  rfl

/-! ## The reshapes at an entry -/

/-- A scalar reshaped to 1 × 1 reads the scalar at (0, 0). -/
theorem cell_of_scalar (v : S_.Idx → EReal) (h : S_.ShapeCasts S1x1) : shapeCast S1x1 v h (ix2 0 0) = v ix0 := by
  refine shapeCast_apply v h (ix2 0 0) ix0 ?_
  rw [Shape.rowMajor_val_two]
  have hlt : (S_.rowMajor ix0).val < 1 := (S_.rowMajor ix0).isLt
  show (S_.rowMajor ix0).val = 0 * 1 + 0
  omega

/-- 4096 entries reshaped to a column read entry q at (q, 0). -/
theorem col_of_vec (v : S4096.Idx → EReal) (h : S4096.ShapeCasts S4096x1) (q : Fin 4096) :
    shapeCast S4096x1 v h (ix2 q 0) = v (ix1 q) := by
  refine shapeCast_apply v h (ix2 q 0) (ix1 q) ?_
  rw [Shape.rowMajor_val_two, Shape.rowMajor_val_one]
  show q.val = q.val * 1 + 0
  omega

/-- 4096 entries reshaped to a row read entry q at (0, q). -/
theorem row_of_vec (v : S4096.Idx → EReal) (h : S4096.ShapeCasts S1x4096) (q : Fin 4096) :
    shapeCast S1x4096 v h (ix2 0 q) = v (ix1 q) := by
  refine shapeCast_apply v h (ix2 0 q) (ix1 q) ?_
  rw [Shape.rowMajor_val_two, Shape.rowMajor_val_one]
  show q.val = 0 * 4096 + q.val
  omega

/-! ## The four arrays at an entry -/

/-- The reciprocal activation scale, as the first kernel reads it: 1 / xs. -/
theorem inv_xs_cell :
    (StableHlo.after (hostOps0 (F := Ideal)) (fun b => m (c, b)) (Proc.devRef .tc main_v18) : S1x1.Idx → EReal) (ix2 0 0)
      = Ideal.div one (xScaleV reducesTo_S8192x4096_S_d0_1 h_S_ (m ((c : Thread nD τ).loc main_arg0)) ix0) := by
  refine (congrFun (inv_xs_cell_eq m c) (ix2 0 0)).trans ?_
  refine (cell_of_scalar _ _).trans ?_
  rfl

/-- The activation scale, as the product kernel reads it: xs. -/
theorem xs_cell :
    (StableHlo.after (hostOps0 (F := Ideal)) (fun b => m (c, b)) (Proc.devRef .tc main_v19) : S1x1.Idx → EReal) (ix2 0 0)
      = xScaleV reducesTo_S8192x4096_S_d0_1 h_S_ (m ((c : Thread nD τ).loc main_arg0)) ix0 := by
  refine (congrFun (xs_cell_eq m c) (ix2 0 0)).trans ?_
  exact cell_of_scalar _ _

/-- The reciprocal weight scale of row q, as the second kernel reads it: 1 / ws q. -/
theorem inv_ws_col (q : Fin 4096) :
    (StableHlo.after (hostOps0 (F := Ideal)) (fun b => m (c, b)) (Proc.devRef .tc main_v11) : S4096x1.Idx → EReal) (ix2 q 0)
      = Ideal.div one (wScaleV reducesTo_S4096x4096_S4096_d1 h_S_ bcast_S_S4096 (m ((c : Thread nD τ).loc main_arg1)) (ix1 q)) := by
  refine (congrFun (inv_ws_col_eq m c) (ix2 q 0)).trans ?_
  refine (col_of_vec _ _ q).trans ?_
  rfl

/-- The weight scale of row q, as the product kernel reads it in column q: ws q. -/
theorem ws_row (q : Fin 4096) :
    (StableHlo.after (hostOps0 (F := Ideal)) (fun b => m (c, b)) (Proc.devRef .tc main_v12) : S1x4096.Idx → EReal) (ix2 0 q)
      = wScaleV reducesTo_S4096x4096_S4096_d1 h_S_ bcast_S_S4096 (m ((c : Thread nD τ).loc main_arg1)) (ix1 q) := by
  refine (congrFun (ws_row_eq m c) (ix2 0 q)).trans ?_
  exact row_of_vec _ _ q

end Cert.KernelIdeal.HostVals

end
-- ==== Proof.IdealInputs.lean ====
/-
  What the product region finds in the four arrays it reads, in terms of the launch memory.

  The contents of the buffers at the product region's entry are a fold from the launch memory: the host's
  operations, then the activation quantizer, which changes only its output array, then the weight quantizer,
  which changes only its own.  So the two scale arrays the product region reads are still what the host
  left — the activation scale xs in a 1 × 1 array, the weight scales ws as a row —, and the two quantized
  arrays are what the quantizers leave, read over what THEY were entered with: the argument arrays as
  launched and the host's reciprocal scales.  Hence the quantized activations are
  i ↦ quant (x i · (1 / xs)) and the quantized weights i ↦ quant (w i · (1 / ws (row of i))).
-/
import proofs.«120888_j49770081026763_2_alg».proof.Proof.IdealRun
import proofs.«120888_j49770081026763_2_alg».proof.Proof.IdealQuantVals
import proofs.«120888_j49770081026763_2_alg».proof.Proof.IdealHostVals

noncomputable section

namespace Cert.KernelIdeal.Hand

open Idealize.ShloMosaic Idealize.ShloMosaic.TcCoe Idealize.SL.Sem
open Cert.KernelIdeal Cert.KernelIdeal.Gen Cert.QuantSpec ValueIdx

variable (m : (ℓ : Loc nD τ sig) → Buf (Elt Ideal) ℓ) (ρ : Dev nD → PrngReg) (c : Dev nD)

/-- After the host's operations the buffers are the host's fold over the launch memory. -/
theorem in_W1 : W1 (F := Ideal) m ρ c = StableHlo.after (hostOps0 (F := Ideal)) (fun b => m (c, b)) := rfl

/-! ## The scale arrays are as the host left them -/

/-- The activation scale's 1 × 1 array at the product region's entry is the host's: neither quantizer writes it. -/
theorem in_v19 :
    W3 (F := Ideal) m ρ c (Proc.devRef .tc main_v19)
      = StableHlo.after (hostOps0 (F := Ideal)) (fun b => m (c, b)) (Proc.devRef .tc main_v19) :=
  (W3_of_ne m ρ c main_v19 (by decide)).trans ((W2_of_ne m ρ c main_v19 (by decide)).trans rfl)

/-- The row of weight scales at the product region's entry is the host's: neither quantizer writes it. -/
theorem in_v12 :
    W3 (F := Ideal) m ρ c (Proc.devRef .tc main_v12)
      = StableHlo.after (hostOps0 (F := Ideal)) (fun b => m (c, b)) (Proc.devRef .tc main_v12) :=
  (W3_of_ne m ρ c main_v12 (by decide)).trans ((W2_of_ne m ρ c main_v12 (by decide)).trans rfl)

/-- The product region reads the activation scale xs. -/
theorem in_xs :
    (V3 (F := Ideal) m ρ c main_v19 : S1x1.Idx → EReal) (ix2 0 0)
      = xScaleV reducesTo_S8192x4096_S_d0_1 h_S_ (m ((c : Thread nD τ).loc main_arg0)) ix0 :=
  (congrArg (fun f : S1x1.Idx → EReal => f (ix2 0 0)) (in_v19 m ρ c)).trans (HostVals.xs_cell m c)

/-- The product region reads, in column q, the weight scale ws q. -/
theorem in_ws (q : Fin 4096) :
    (V3 (F := Ideal) m ρ c main_v12 : S1x4096.Idx → EReal) (ix2 0 q)
      = wScaleV reducesTo_S4096x4096_S4096_d1 h_S_ bcast_S_S4096 (m ((c : Thread nD τ).loc main_arg1)) (ix1 q) :=
  (congrArg (fun f : S1x4096.Idx → EReal => f (ix2 0 q)) (in_v12 m ρ c)).trans (HostVals.ws_row m c q)

/-! ## The quantized arrays -/

/-- The quantized activations the product region reads: every entry of x times 1 / xs, clipped and rounded. -/
theorem in_xq :
    (V3 (F := Ideal) m ρ c main_v20 : S8192x4096.Idx → EReal)
      = fun i => quant (HMul.hMul (α := EReal) (β := EReal) (γ := EReal)
          ((m ((c : Thread nD τ).loc main_arg0) : S8192x4096.Idx → EReal) i)
          (Ideal.div one (xScaleV reducesTo_S8192x4096_S_d0_1 h_S_ (m ((c : Thread nD τ).loc main_arg0)) ix0))) := by
  have h1 : W3 (F := Ideal) m ρ c (Proc.devRef .tc main_v20) = (dat0 (F := Ideal) (V1 m ρ) c).arrAt 2 cfg0.N :=
    (W3_of_ne m ρ c main_v20 (by decide)).trans (W2_arr m ρ c 2)
  refine h1.trans ((qx_array (V1 m ρ) c).trans ?_)
  funext i
  have hx : (V1 (F := Ideal) m ρ c main_arg0 : S8192x4096.Idx → EReal) = m ((c : Thread nD τ).loc main_arg0) :=
    HostVals.arg0_kept m c
  have hs : (V1 (F := Ideal) m ρ c main_v18 : S1x1.Idx → EReal) (ix2 0 0)
      = Ideal.div one (xScaleV reducesTo_S8192x4096_S_d0_1 h_S_ (m ((c : Thread nD τ).loc main_arg0)) ix0) :=
    HostVals.inv_xs_cell m c
  show quant (HMul.hMul (α := EReal) (β := EReal) (γ := EReal)
      ((V1 (F := Ideal) m ρ c main_arg0 : S8192x4096.Idx → EReal) i)
      ((V1 (F := Ideal) m ρ c main_v18 : S1x1.Idx → EReal) (ix2 0 0))) = _
  rw [hx, hs]

/-- The quantized weights the product region reads: every entry of w times 1 / ws of its row, clipped and rounded. -/
theorem in_wq :
    (V3 (F := Ideal) m ρ c main_v21 : S4096x4096.Idx → EReal)
      = fun i => quant (HMul.hMul (α := EReal) (β := EReal) (γ := EReal)
          ((m ((c : Thread nD τ).loc main_arg1) : S4096x4096.Idx → EReal) i)
          (Ideal.div one (wScaleV reducesTo_S4096x4096_S4096_d1 h_S_ bcast_S_S4096 (m ((c : Thread nD τ).loc main_arg1))
            (ix1 (⟨(i 0).val, (i 0).isLt⟩ : Fin 4096))))) := by
  refine (W3_arr m ρ c 2).trans ((qw_array (V2 m ρ) c).trans ?_)
  funext i
  have hw : (V2 (F := Ideal) m ρ c main_arg1 : S4096x4096.Idx → EReal) = m ((c : Thread nD τ).loc main_arg1) :=
    (W2_of_ne m ρ c main_arg1 (by decide)).trans (HostVals.arg1_kept m c)
  have hs : (V2 (F := Ideal) m ρ c main_v11 : S4096x1.Idx → EReal) (ix2 (⟨(i 0).val, (i 0).isLt⟩ : Fin 4096) 0)
      = Ideal.div one (wScaleV reducesTo_S4096x4096_S4096_d1 h_S_ bcast_S_S4096 (m ((c : Thread nD τ).loc main_arg1))
          (ix1 (⟨(i 0).val, (i 0).isLt⟩ : Fin 4096))) :=
    (congrArg (fun f : S4096x1.Idx → EReal => f (ix2 (⟨(i 0).val, (i 0).isLt⟩ : Fin 4096) 0))
      (W2_of_ne m ρ c main_v11 (by decide))).trans (HostVals.inv_ws_col m c _)
  show quant (HMul.hMul (α := EReal) (β := EReal) (γ := EReal)
      ((V2 (F := Ideal) m ρ c main_arg1 : S4096x4096.Idx → EReal) i)
      ((V2 (F := Ideal) m ρ c main_v11 : S4096x1.Idx → EReal) (ix2 (⟨(i 0).val, (i 0).isLt⟩ : Fin 4096) 0))) = _
  rw [hw, hs]

end Cert.KernelIdeal.Hand

end
-- ==== Proof.IdealValue.lean ====
/-
  The result array of the kernel's program at the exact instance, as one function of the two argument
  arrays: what region 2 leaves, with the arrays it reads replaced by what the host operations and the two
  quantization regions left in them.
-/
import proofs.«120888_j49770081026763_2_alg».proof.Proof.IdealGemmVals
import proofs.«120888_j49770081026763_2_alg».proof.Proof.IdealInputs

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Cert.QuantSpec ValueIdx

variable (m : (ℓ : Loc nD τ sig) → Buf (Elt Ideal) ℓ) (ρ : Dev nD → PrngReg)

/-- The activation scale and the weight scales of the launch memory on core `c`. -/
abbrev xsOf (c : Dev nD) : EReal := xScaleV reducesTo_S8192x4096_S_d0_1 h_S_ (m ((c : Thread nD τ).loc main_arg0)) ix0
abbrev wsOf (c : Dev nD) (q : Fin 4096) : EReal := wScaleV reducesTo_S4096x4096_S4096_d1 h_S_ bcast_S_S4096 (m ((c : Thread nD τ).loc main_arg1)) (ix1 q)
/-- The two argument arrays by coordinates. -/
abbrev xOf (c : Dev nD) (p : Fin 8192) (k : Fin 4096) : EReal := (m ((c : Thread nD τ).loc main_arg0) : S8192x4096.Idx → EReal) (ix2 p k)
abbrev wOf (c : Dev nD) (q : Fin 4096) (k : Fin 4096) : EReal := (m ((c : Thread nD τ).loc main_arg1) : S4096x4096.Idx → EReal) (ix2 q k)

/-- The quantized activations region 2 reads, by coordinates. -/
theorem xq_at (c : Dev nD) (p : Fin 8192) (k : Fin 4096) :
    XQ (V3 (F := Ideal) m ρ) c (ix2 p k) = quant (xOf m c p k * Ideal.div one (xsOf m c)) :=
  congrFun (in_xq m ρ c) (ix2 p k)

/-- The quantized weights region 2 reads, by coordinates. -/
theorem wq_at (c : Dev nD) (q : Fin 4096) (k : Fin 4096) :
    WQ (V3 (F := Ideal) m ρ) c (ix2 q k) = quant (wOf m c q k * Ideal.div one (wsOf m c q)) :=
  congrFun (in_wq m ρ c) (ix2 q k)

/-- THE KERNEL'S RESULT ARRAY: the quantized linear map of the two arguments, in the arrangement that
    multiplies by reciprocal scales. -/
theorem kernel_array (c : Dev nD) :
    (dat2 (V3 (F := Ideal) m ρ) c).arrAt 4 cfg2.N
      = fun i : S8192x4096.Idx => Gk (xOf m c) (wOf m c) (xsOf m c) (wsOf m c) ⟨(i 0).val, (i 0).isLt⟩ ⟨(i 1).val, (i 1).isLt⟩ := by
  rw [gemm_array]
  funext i
  refine (Gm_at (V3 (F := Ideal) m ρ) c i ⟨(i 0).val, (i 0).isLt⟩ rfl ⟨(i 1).val, (i 1).isLt⟩ rfl).trans ?_
  unfold Gk
  have hsum : ∑ k : Fin 4096, XQ (V3 (F := Ideal) m ρ) c (ix2 (⟨(i 0).val, (i 0).isLt⟩ : Fin 8192) k) * WQ (V3 (F := Ideal) m ρ) c (ix2 (⟨(i 1).val, (i 1).isLt⟩ : Fin 4096) k)
      = ∑ k : Fin 4096, quant (xOf m c ⟨(i 0).val, (i 0).isLt⟩ k * Ideal.div one (xsOf m c)) * quant (wOf m c ⟨(i 1).val, (i 1).isLt⟩ k * Ideal.div one (wsOf m c ⟨(i 1).val, (i 1).isLt⟩)) :=
    Finset.sum_congr rfl fun k _ => congr (congrArg HMul.hMul (xq_at m ρ c ⟨(i 0).val, (i 0).isLt⟩ k)) (wq_at m ρ c ⟨(i 1).val, (i 1).isLt⟩ k)
  exact congr (congrArg HMul.hMul (congr (congrArg HMul.hMul (congrArg rnd hsum)) (in_xs m ρ c))) (in_ws m ρ c ⟨(i 1).val, (i 1).isLt⟩)

/-- The kernel's program run to the end, with its result array named. -/
theorem kernel_run : θ_run defs (onTc (τ := τ) (main (F := Ideal))) ⟨m, fun _ => 0, ρ⟩ (fun r => ∀ c : Dev nD,
      r.2.mem ((c.tc : Thread nD τ).loc main_v22)
        = (fun i : S8192x4096.Idx => Gk (xOf m c) (wOf m c) (xsOf m c) (wsOf m c) ⟨(i 0).val, (i 0).isLt⟩ ⟨(i 1).val, (i 1).isLt⟩)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c => ⟨(h c).1.trans (kernel_array m ρ c), (h c).2⟩) (run (F := Ideal) m ρ)

end Cert.KernelIdeal.Hand

end
-- ==== Proof.RefRead.lean ====
/-
  The reference program's result, read entry by entry, is the arrangement `Gr` of the quantized linear map:
  at (p, q) it is the straight-through rounding of ∑ₖ (quantized x p k) · (quantized w q k), times the
  activation scale, times row q's weight scale.

  The reference divides each activation by the per-tensor scale and each weight by its row's scale, clips
  the quotient into [-127, 127] and rounds it through the straight-through form; it transposes the
  quantized weight before contracting, so the contraction's right operand at (k, q) is the quantized weight
  at (q, k).  The two scales are kept as the whole-array terms `xScaleV` and `wScaleV`: the reference
  spells them operation for operation as those terms do.
-/
import proofs.«120888_j49770081026763_2_alg».proof.Defs
import proofs.«120888_j49770081026763_2_alg».proof.Proof.Gen.ReferenceIdeal.Run
import proofs.«120888_j49770081026763_2_alg».proof.Proof.Gen.ReferenceIdeal.Read
import proofs.«120888_j49770081026763_2_alg».proof.Proof.Spec
import proofs.«120888_j49770081026763_2_alg».proof.Proof.Scales

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Cert.QuantSpec

/-! ### The two scales -/

/-- The reference's activation scale is the term `xScaleV` of the activations. -/
theorem xscale_eq (x0 : (⟨S8192x4096, .f32⟩ : BufTy).Contents (Elt Ideal)) :
    val_main_v19 (F := Ideal) x0 = xScaleV reducesTo_S8192x4096_S_d0_1 h_S_ x0 := by
  unfold val_main_v19 val_main_v18 val_main_v17 val_main_v16 val_main_cst_5 val_main_cst_6 val_main_cst_7 xScaleV
  rfl

/-- The reference's weight scales are the term `wScaleV` of the weights. -/
theorem wscale_eq (x1 : (⟨S4096x4096, .f32⟩ : BufTy).Contents (Elt Ideal)) :
    val_main_v8 (F := Ideal) x1 = wScaleV reducesTo_S4096x4096_S4096_d1 h_S_ bcast_S_S4096 x1 := by
  unfold val_main_v8 val_main_v7 val_main_v6 val_main_v5 val_main_v4 val_main_v3 val_main_v2 val_main_v1 val_main_v0
    val_main_cst val_main_cst_0 val_main_cst_1 val_main_cst_2 wScaleV
  rfl

/-! ### Where each layout operation reads -/

/-- The contraction's left operand for output (p, q) at step k is the activation entry (p, k). -/
theorem lidx_eq (p : Fin 8192) (q k : Fin 4096) : lidx_main_v27 (ValueIdx.ix2 p q) k = ValueIdx.ix2 p k :=
  funext fun a => by match a with | ⟨0, _⟩ => rfl | ⟨1, _⟩ => rfl

/-- The contraction's right operand at step k is the transposed weight at (k, q), the weight entry (q, k). -/
theorem ridx_eq (p : Fin 8192) (q k : Fin 4096) :
    idx_main_v26 (ridx_main_v27 (ValueIdx.ix2 p q) k) = ValueIdx.ix2 q k :=
  funext fun a => by match a with | ⟨0, _⟩ => rfl | ⟨1, _⟩ => rfl

/-- The weight scale spread over the weight array reads row q's scale at (q, k). -/
theorem widx_eq (q k : Fin 4096) : idx_main_v9 (idx_main_v10 (ValueIdx.ix2 q k)) = ValueIdx.ix1 q :=
  funext fun a => by match a with | ⟨0, _⟩ => rfl

/-- The weight scale spread over the output reads column q's scale at (p, q). -/
theorem oidx_eq (p : Fin 8192) (q : Fin 4096) : idx_main_v33 (idx_main_v34 (ValueIdx.ix2 p q)) = ValueIdx.ix1 q :=
  funext fun a => by match a with | ⟨0, _⟩ => rfl

/-! ### The two quantized operands -/

/-- The reference's quantized activation at (p, k): divide by the scale, clip, round straight through. -/
theorem xq_eq (x0 : (⟨S8192x4096, .f32⟩ : BufTy).Contents (Elt Ideal)) (p : Fin 8192) (k : Fin 4096) :
    val_main_v25 (F := Ideal) x0 (ValueIdx.ix2 p k)
      = ste (clip (Ideal.div (x0 (ValueIdx.ix2 p k)) (xScaleV reducesTo_S8192x4096_S_d0_1 h_S_ x0 ValueIdx.ix0))) := by
  rw [val_main_v25_apply, val_main_v24_apply, val_main_v23_apply, val_main_v22_apply, val_main_call2_v4_apply,
    val_main_call2_v3_apply, val_main_cst_9_apply, val_main_call2_v2_apply, val_main_call2_v1_apply,
    val_main_call2_v0_apply, val_main_cst_8_apply, val_main_v21_apply, val_main_v20_apply, xscale_eq]
  rfl

/-- The reference's quantized weight at (q, k): divide by row q's scale, clip, round straight through. -/
theorem wq_eq (x1 : (⟨S4096x4096, .f32⟩ : BufTy).Contents (Elt Ideal)) (q k : Fin 4096) :
    val_main_v15 (F := Ideal) x1 (ValueIdx.ix2 q k)
      = ste (clip (Ideal.div (x1 (ValueIdx.ix2 q k))
          (wScaleV reducesTo_S4096x4096_S4096_d1 h_S_ bcast_S_S4096 x1 (ValueIdx.ix1 q)))) := by
  rw [val_main_v15_apply, val_main_v14_apply, val_main_v13_apply, val_main_v12_apply, val_main_call0_v4_apply,
    val_main_call0_v3_apply, val_main_cst_4_apply, val_main_call0_v2_apply, val_main_call0_v1_apply,
    val_main_call0_v0_apply, val_main_cst_3_apply, val_main_v11_apply, val_main_v10_apply, val_main_v9_apply,
    wscale_eq, widx_eq]
  rfl

/-! ### The result -/

/-- The reference's result at (p, q) is `Gr` of the two argument arrays and the two scales. -/
theorem ref_value (x0 : (⟨S8192x4096, .f32⟩ : BufTy).Contents (Elt Ideal)) (x1 : (⟨S4096x4096, .f32⟩ : BufTy).Contents (Elt Ideal))
    (p : Fin 8192) (q : Fin 4096) :
    Cert.ReferenceIdeal.Read.val_main_v35 (F := Ideal) x0 x1 (ValueIdx.ix2 p q)
      = Cert.QuantSpec.Gr (fun p k => x0 (ValueIdx.ix2 p k)) (fun q k => x1 (ValueIdx.ix2 q k))
          (Cert.QuantSpec.xScaleV reducesTo_S8192x4096_S_d0_1 h_S_ x0 ValueIdx.ix0)
          (fun q => Cert.QuantSpec.wScaleV reducesTo_S4096x4096_S4096_d1 h_S_ bcast_S_S4096 x1 (ValueIdx.ix1 q)) p q := by
  have hsum : (∑ k : Fin 4096, (val_main_v25 (F := Ideal) x0) (lidx_main_v27 (ValueIdx.ix2 p q) k)
        * (val_main_v26 (F := Ideal) x1) (ridx_main_v27 (ValueIdx.ix2 p q) k))
      = ∑ k : Fin 4096,
          ste (clip (Ideal.div (x0 (ValueIdx.ix2 p k)) (xScaleV reducesTo_S8192x4096_S_d0_1 h_S_ x0 ValueIdx.ix0)))
          * ste (clip (Ideal.div (x1 (ValueIdx.ix2 q k))
              (wScaleV reducesTo_S4096x4096_S4096_d1 h_S_ bcast_S_S4096 x1 (ValueIdx.ix1 q)))) :=
    Finset.sum_congr rfl fun k _ => by rw [lidx_eq, xq_eq, val_main_v26_apply, ridx_eq, wq_eq]
  rw [val_main_v35_apply, val_main_v32_apply, val_main_v30_apply, val_main_v29_apply, val_main_v28_apply,
    val_main_v27_apply, val_main_v31_apply, val_main_v34_apply, val_main_v33_apply, xscale_eq, wscale_eq, oidx_eq, hsum]
  rfl

end Cert.ReferenceIdeal.RefValue

end
-- ==== Proof.SpecLaw.lean ====
/-
  The two arrangements of the quantized linear map agree on positive real scales.

  Three facts carry it.  Dividing by a nonzero real is multiplying by its reciprocal, and the reciprocal is
  what dividing the word of 1 by it gives; so `v / s = v · (1 / s)` for every extended real `v`.  A clipped
  value lies between -127 and 127 and is therefore a real, and rounding a real gives a real (an integer).
  For a real `v` the straight-through form `v + (round v − v)` is `round v`: inside the reals the two
  copies of `v` cancel.  Hence each straight-through rounded clip is the quantized value, every summand of
  the integer product is a product of two reals, the finite sum of them is a real, and the outer
  straight-through rounding is again the plain rounding.
-/
import proofs.«120888_j49770081026763_2_alg».proof.Proof.Spec
import Mathlib.Data.EReal.Operations
import Mathlib.Algebra.BigOperators.Group.Finset.Basic

noncomputable section

namespace Cert.QuantSpec

open Idealize.ShloMosaic

/-- The word of the upper clip bound denotes the real 127. -/
theorem hi_eq : hi = ((127 : ℝ) : EReal) := by
  simp [Ideal.ofBits, Ideal.ieee, -EReal.coe_mul]; norm_num

/-- The word of the lower clip bound denotes the real -127. -/
theorem lo_eq : lo = ((-127 : ℝ) : EReal) := by
  simp [Ideal.ofBits, Ideal.ieee, -EReal.coe_mul]; norm_num

/-- The word of the reciprocal's numerator denotes the real 1. -/
theorem one_eq : one = ((1 : ℝ) : EReal) := by
  simp [Ideal.ofBits, Ideal.ieee, -EReal.coe_mul]; norm_num

/-- Dividing by a nonzero real is multiplying by the quotient of 1 by it, at every extended real. -/
theorem div_eq_mul_inv_of_ne_zero {s : ℝ} (hs : s ≠ 0) (v : EReal) :
    Ideal.div v (s : EReal) = v * Ideal.div one (s : EReal) := by
  rw [Ideal.div_coe hs v, Ideal.div_coe hs one, one_eq, ← EReal.coe_mul, one_mul]

/-- Dividing by a positive real is multiplying by the quotient of 1 by it. -/
theorem div_eq_mul_inv_of_pos {s : ℝ} (hs : 0 < s) (v : EReal) :
    Ideal.div v (s : EReal) = v * Ideal.div one (s : EReal) :=
  div_eq_mul_inv_of_ne_zero hs.ne' v

/-- A clipped value lies in [-127, 127], so it is a real. -/
theorem clip_real (v : EReal) : ∃ r : ℝ, clip v = (r : EReal) := by
  have hle : clip v ≤ ((127 : ℝ) : EReal) := by
    unfold clip; rw [hi_eq]; exact min_le_left _ _
  have hge : ((-127 : ℝ) : EReal) ≤ clip v := by
    unfold clip; rw [hi_eq, lo_eq]
    exact le_min (by exact_mod_cast (by norm_num : (-127 : ℝ) ≤ 127)) (le_max_left _ _)
  have htop : clip v ≠ ⊤ := ne_top_of_le_ne_top (EReal.coe_ne_top _) hle
  have hbot : clip v ≠ ⊥ := ne_bot_of_le_ne_bot (EReal.coe_ne_bot _) hge
  exact ⟨(clip v).toReal, (EReal.coe_toReal htop hbot).symm⟩

/-- Rounding a real gives a real. -/
theorem rnd_coe (r : ℝ) : rnd (r : EReal) = (((Ideal.roundHalfEven r : ℤ) : ℝ) : EReal) := rfl

/-- A quantized value, the rounding of a clipped one, is a real. -/
theorem quant_real (v : EReal) : ∃ r : ℝ, quant v = (r : EReal) := by
  obtain ⟨c, hc⟩ := clip_real v
  exact ⟨((Ideal.roundHalfEven c : ℤ) : ℝ), by unfold quant; rw [hc, rnd_coe]⟩

/-- On a real the straight-through form of rounding is rounding. -/
theorem ste_of_real (r : ℝ) : ste (r : EReal) = rnd (r : EReal) := by
  unfold ste
  rw [rnd_coe, ← EReal.coe_sub, ← EReal.coe_add, add_sub_cancel]

/-- The straight-through rounding of a clipped value is its quantization. -/
theorem ste_clip (v : EReal) : ste (clip v) = quant v := by
  obtain ⟨c, hc⟩ := clip_real v
  unfold quant; rw [hc, ste_of_real]

/-- A finite sum of reals, formed in the extended reals, is a real. -/
theorem sum_real {ι : Type*} (s : Finset ι) (f : ι → EReal) (h : ∀ i, ∃ r : ℝ, f i = (r : EReal)) :
    ∃ r : ℝ, ∑ i ∈ s, f i = (r : EReal) := by
  classical
  refine Finset.induction_on s ⟨0, by simp⟩ ?_
  rintro a t ha ⟨r, hr⟩
  obtain ⟨ra, hra⟩ := h a
  exact ⟨ra + r, by rw [Finset.sum_insert ha, hr, hra, EReal.coe_add]⟩

/-- A product of two reals, formed in the extended reals, is a real. -/
theorem mul_real {a b : EReal} (ha : ∃ r : ℝ, a = (r : EReal)) (hb : ∃ r : ℝ, b = (r : EReal)) :
    ∃ r : ℝ, a * b = (r : EReal) := by
  obtain ⟨ra, rfl⟩ := ha
  obtain ⟨rb, rfl⟩ := hb
  exact ⟨ra * rb, (EReal.coe_mul ra rb).symm⟩

/-- With real entries and positive real scales the arrangement that divides and rounds through the
    straight-through form equals the one that multiplies by reciprocals and rounds once. -/
theorem Gr_eq_Gk (x : Fin 8192 → Fin 4096 → EReal) (w : Fin 4096 → Fin 4096 → EReal) (xs : EReal) (ws : Fin 4096 → EReal)
    (hx : ∀ p k, ∃ r : ℝ, x p k = (r : EReal)) (hw : ∀ q k, ∃ r : ℝ, w q k = (r : EReal))
    (hxs : ∃ r : ℝ, 0 < r ∧ xs = (r : EReal)) (hws : ∀ q, ∃ r : ℝ, 0 < r ∧ ws q = (r : EReal))
    (p : Fin 8192) (q : Fin 4096) : Gr x w xs ws p q = Gk x w xs ws p q := by
  obtain ⟨sx, hsx, rfl⟩ := hxs
  obtain ⟨sw, hsw, hsw'⟩ := hws q
  unfold Gr Gk
  rw [hsw']
  have hterm : ∀ k : Fin 4096,
      ste (clip (Ideal.div (x p k) (sx : EReal))) * ste (clip (Ideal.div (w q k) (sw : EReal)))
        = quant (x p k * Ideal.div one (sx : EReal)) * quant (w q k * Ideal.div one (sw : EReal)) := fun k => by
    rw [ste_clip, ste_clip, div_eq_mul_inv_of_pos hsx, div_eq_mul_inv_of_pos hsw]
  rw [Finset.sum_congr rfl fun k _ => hterm k]
  obtain ⟨t, ht⟩ := sum_real Finset.univ
    (fun k : Fin 4096 => quant (x p k * Ideal.div one (sx : EReal)) * quant (w q k * Ideal.div one (sw : EReal)))
    (fun k => mul_real (quant_real _) (quant_real _))
  rw [ht, ste_of_real]

end Cert.QuantSpec

end
-- ==== Proof.Finite.lean ====
/-
  What the precondition says of the two argument arrays over the extended reals: every entry is a real.

  The precondition is the conjunction of two statements "every entry's absolute value is below +∞", one per
  array.  Over the extended reals the absolute value of x is max x (-x), which is +∞ at both infinities, so
  an entry whose absolute value lies strictly below +∞ is neither infinity: it is a real number.
-/
import proofs.«120888_j49770081026763_2_alg».proof.Defs
import Idealize.ShloMosaic.Lib.ReduceAll
import Idealize.ShloMosaic.Lib.ValueIdx
import Idealize.ShloMosaic.PureOps.Ideal.Laws

noncomputable section

namespace Cert.FiniteInputs

open Idealize.ShloMosaic ValueIdx

/-- The rank-0 shape has one index. -/
instance : Subsingleton Cert.Pre_finite_inputs.S_.Idx := ⟨fun _ _ => funext fun d => d.elim0⟩

/-- The word of +∞ in the 32-bit format denotes the top of the extended reals. -/
theorem inf_word : Ideal.ofBits .f32 0x7F800000#32 = (⊤ : EReal) := by simp [Ideal.ofBits, Ideal.ieee]

/-- An extended real whose absolute value compares strictly below +∞ is a real. -/
theorem real_of_abs_lt (x : EReal)
    (h : Ideal.cmp .olt (max x (-x)) (Ideal.ofBits .f32 0x7F800000#32) = 1#1) : ∃ r : ℝ, x = (r : EReal) := by
  rw [inf_word] at h
  have hlt : max x (-x) < ⊤ := by
    by_contra hn
    simp [Ideal.cmp, hn] at h
  induction x using EReal.rec with
  | bot => exact absurd hlt (by simp)
  | top => exact absurd hlt (by simp)
  | coe r => exact ⟨r, rfl⟩

/-- Under the precondition every entry of both argument arrays is a real. -/
theorem real_entries [Cert.Pre_finite_inputs.Facts]
    (x0 : (⟨Cert.Pre_finite_inputs.S8192x4096, .f32⟩ : BufTy).Contents (Elt Ideal))
    (x1 : (⟨Cert.Pre_finite_inputs.S4096x4096, .f32⟩ : BufTy).Contents (Elt Ideal))
    (h : Cert.Pre_finite_inputs.fn (F := Ideal) x0 x1 = fun _ => 1#1) :
    (∀ i, ∃ r : ℝ, x0 i = (r : EReal)) ∧ (∀ i, ∃ r : ℝ, x1 i = (r : EReal)) := by
  have h0 := congrFun h ix0
  dsimp only [Cert.Pre_finite_inputs.fn] at h0
  obtain ⟨ha, hb⟩ := IntOp.andi_eq_one.1 h0
  exact ⟨fun i => real_of_abs_lt (x0 i) (Host.reduce_andi_all _ _ _ _ _ ha i),
    fun i => real_of_abs_lt (x1 i) (Host.reduce_andi_all _ _ _ _ _ hb i)⟩

end Cert.FiniteInputs

end
-- ==== Proof.ScalesPos.lean ====
/-
  The two quantization scales are positive reals whenever the argument arrays have real entries.

  A maximum folded from -∞ over real entries never reaches +∞, so the larger of it and the positive real ε
  is a real at least ε; over a nonempty row of reals a minimum folded from +∞, and a maximum folded from -∞,
  are reals, and so are their absolute values.  Dividing a positive real by 127 leaves a positive real.
-/
import proofs.«120888_j49770081026763_2_alg».proof.Proof.Scales
import Idealize.ShloMosaic.PureOps.Ideal.Laws
import Idealize.ShloMosaic.PureOps.Reduce

noncomputable section

namespace Cert.QuantSpec

open Idealize.ShloMosaic

/-! ### The four literal words -/

/-- The word of -∞ denotes the bottom of the extended reals. -/
theorem ofBits_negInf : Ideal.ofBits .f32 0xFF800000#32 = ⊥ := by simp [Ideal.ofBits, Ideal.ieee]

/-- The word of +∞ denotes the top of the extended reals. -/
theorem ofBits_posInf : Ideal.ofBits .f32 0x7F800000#32 = ⊤ := by simp [Ideal.ofBits, Ideal.ieee]

/-- The divisor's word denotes the real 127. -/
theorem ofBits_127 : Ideal.ofBits .f32 0x42FE0000#32 = ((127 : ℝ) : EReal) := by
  simp [Ideal.ofBits, Ideal.ieee, -EReal.coe_mul]; norm_num

/-- The word of ε denotes the real 11258999 · 2⁻⁵⁰. -/
theorem ofBits_eps : Ideal.ofBits .f32 0x322BCC77#32 = ((11258999 * (2 : ℝ) ^ (-50 : ℤ) : ℝ) : EReal) := by
  simp [Ideal.ofBits, Ideal.ieee, -EReal.coe_mul]

/-- ε is a positive real. -/
theorem eps_pos : ∃ e : ℝ, 0 < e ∧ Ideal.ofBits .f32 0x322BCC77#32 = (e : EReal) :=
  ⟨11258999 * (2 : ℝ) ^ (-50 : ℤ), by positivity, ofBits_eps⟩

/-! ### Folds keep a property their operation keeps -/

/-- A left fold of `op` stays inside a set closed under `op` when it starts there and every entry is there. -/
theorem foldl_closed {α ι : Type} (P : α → Prop) (op : α → α → α) (hop : ∀ a b, P a → P b → P (op a b))
    (g : ι → α) (hg : ∀ i, P (g i)) (l : List ι) (b : α) (hb : P b) :
    P (l.foldl (fun r i => op r (g i)) b) := by
  induction l generalizing b with
  | nil => exact hb
  | cons i l ih => exact ih _ (hop _ _ hb (hg i))

/-- The same for the fold over a finite set, of a commutative and associative operation. -/
theorem fold_closed {α ι : Type} (P : α → Prop) (op : α → α → α) [Std.Commutative op] [Std.Associative op]
    (hop : ∀ a b, P a → P b → P (op a b)) (g : ι → α) (hg : ∀ i, P (g i)) (s : Finset ι) (b : α) (hb : P b) :
    P (s.fold op b g) := by
  induction s using Finset.cons_induction with
  | empty => rw [Finset.fold_empty]; exact hb
  | cons a s ha ih => rw [Finset.fold_cons]; exact hop _ _ (hg a) ih

/-! ### Reals inside the extended reals -/

/-- An extended real that is neither infinity is a real. -/
theorem real_of_ne {v : EReal} (hb : v ≠ ⊥) (ht : v ≠ ⊤) : ∃ r : ℝ, v = (r : EReal) :=
  ⟨v.toReal, (EReal.coe_toReal ht hb).symm⟩

/-- The larger of two extended reals is +∞ only if one of them is. -/
theorem max_ne_top' {a b : EReal} (ha : a ≠ ⊤) (hb : b ≠ ⊤) : max a b ≠ ⊤ := by
  rcases max_choice a b with h | h <;> rw [h] <;> assumption

/-- The smaller of two extended reals is -∞ only if one of them is. -/
theorem min_ne_bot' {a b : EReal} (ha : a ≠ ⊥) (hb : b ≠ ⊥) : min a b ≠ ⊥ := by
  rcases min_choice a b with h | h <;> rw [h] <;> assumption

/-- The absolute value `max v (-v)` of a real is a real. -/
theorem abs_real (r : ℝ) : ∃ a : ℝ, max (r : EReal) (-(r : EReal)) = (a : EReal) := by
  rcases max_choice (r : EReal) (-(r : EReal)) with h | h
  · exact ⟨r, h⟩
  · exact ⟨-r, h.trans (EReal.coe_neg r).symm⟩

/-- A minimum folded from +∞ over a nonempty finite family of reals is a real. -/
theorem fold_min_real {ι : Type} (s : Finset ι) (hs : s.Nonempty) (g : ι → EReal) (hg : ∀ i, ∃ r : ℝ, g i = (r : EReal)) :
    ∃ r : ℝ, s.fold min ⊤ g = (r : EReal) := by
  refine real_of_ne ?_ ?_
  · exact fold_closed (· ≠ ⊥) min (fun _ _ => min_ne_bot') g
      (fun i => by obtain ⟨r, hr⟩ := hg i; rw [hr]; exact EReal.coe_ne_bot r) s ⊤ top_ne_bot
  · obtain ⟨i, hi⟩ := hs
    obtain ⟨r, hr⟩ := hg i
    have hle : s.fold min ⊤ g ≤ (r : EReal) := (Finset.fold_min_le _).2 (Or.inr ⟨i, hi, hr.le⟩)
    exact ne_top_of_le_ne_top (EReal.coe_ne_top r) hle

/-- A maximum folded from -∞ over a nonempty finite family of reals is a real. -/
theorem fold_max_real {ι : Type} (s : Finset ι) (hs : s.Nonempty) (g : ι → EReal) (hg : ∀ i, ∃ r : ℝ, g i = (r : EReal)) :
    ∃ r : ℝ, s.fold max ⊥ g = (r : EReal) := by
  refine real_of_ne ?_ ?_
  · obtain ⟨i, hi⟩ := hs
    obtain ⟨r, hr⟩ := hg i
    have hle : (r : EReal) ≤ s.fold max ⊥ g := (Finset.le_fold_max _).2 (Or.inr ⟨i, hi, hr.ge⟩)
    exact ne_bot_of_le_ne_bot (EReal.coe_ne_bot r) hle
  · exact fold_closed (· ≠ ⊤) max (fun _ _ => max_ne_top') g
      (fun i => by obtain ⟨r, hr⟩ := hg i; rw [hr]; exact EReal.coe_ne_top r) s ⊥ bot_ne_top

/-- The larger of an extended real below +∞ and a positive real, divided by 127, is a positive real. -/
theorem scale_pos_core {v ε c : EReal} (hv : v ≠ ⊤) (hε : ∃ e : ℝ, 0 < e ∧ ε = (e : EReal)) (hc : c = ((127 : ℝ) : EReal)) :
    ∃ r : ℝ, 0 < r ∧ Ideal.div (max v ε) c = (r : EReal) := by
  obtain ⟨e, he, hε⟩ := hε
  rw [hε, hc, Ideal.div_coe (by norm_num : (127 : ℝ) ≠ 0)]
  have hge : (e : EReal) ≤ max v (e : EReal) := le_max_right _ _
  obtain ⟨m, hm⟩ := real_of_ne (ne_bot_of_le_ne_bot (EReal.coe_ne_bot e) hge) (max_ne_top' hv (EReal.coe_ne_top e))
  have hmpos : 0 < m := by
    rw [hm] at hge
    exact lt_of_lt_of_le he (EReal.coe_le_coe_iff.1 hge)
  exact ⟨m * (1 / 127), by positivity, by rw [hm, ← EReal.coe_mul]⟩

/-! ### The two scale formulas over arrays left general

  Stated over arbitrary arrays, so that reading the formulas at an index never meets a literal word. -/

/-- A constant array read at an index is the value its word denotes. -/
theorem constant_apply {s : Shape} (w : BitVec 32) (j : s.Idx) :
    constant (F := Ideal) s .f32 w j = Ideal.ofBits .f32 w := rfl

/-- A broadcast constant array read at an index is the value its word denotes. -/
theorem broadcastInDim_constant_apply {s t : Shape} (dims : Fin s.rank → Fin t.rank) (h : s.BroadcastsInDim t dims)
    (w : BitVec 32) (j : t.Idx) :
    broadcastInDim t dims h (constant (F := Ideal) s .f32 w) j = Ideal.ofBits .f32 w := rfl

/-- `max (R, E) / C` at an index where `R` is below +∞, `E` a positive real and `C` is 127: a positive real. -/
theorem scale_generic {s : Shape} (R E C : FVec Ideal s .f32) (j : s.Idx) (hR : R j ≠ ⊤)
    (hE : ∃ e : ℝ, 0 < e ∧ E j = (e : EReal)) (hC : C j = ((127 : ℝ) : EReal)) :
    ∃ r : ℝ, 0 < r ∧ Host.divf (F := Ideal) (maximumf R E) C j = (r : EReal) :=
  scale_pos_core (v := R j) (ε := E j) (c := C j) hR hE hC

/-- `max (max (|A|, |B|), E) / C` at an index where `A` and `B` are reals, `E` a positive real and `C` is 127. -/
theorem scale_generic2 {s : Shape} (A B E C : FVec Ideal s .f32) (j : s.Idx) (hA : ∃ a : ℝ, A j = (a : EReal))
    (hB : ∃ b : ℝ, B j = (b : EReal)) (hE : ∃ e : ℝ, 0 < e ∧ E j = (e : EReal)) (hC : C j = ((127 : ℝ) : EReal)) :
    ∃ r : ℝ, 0 < r ∧ Host.divf (F := Ideal) (maximumf (maximumf (Host.absf (F := Ideal) A) (Host.absf (F := Ideal) B)) E) C j
      = (r : EReal) := by
  obtain ⟨a, ha⟩ := hA
  obtain ⟨b, hb⟩ := hB
  obtain ⟨a', ha'⟩ := abs_real a
  obtain ⟨b', hb'⟩ := abs_real b
  have hne : max (max (A j) (-(A j))) (max (B j) (-(B j))) ≠ ⊤ := by
    rw [ha, hb, ha', hb']
    exact max_ne_top' (EReal.coe_ne_top a') (EReal.coe_ne_top b')
  exact scale_pos_core (v := max (max (A j) (-(A j))) (max (B j) (-(B j)))) (ε := E j) (c := C j) hne hE hC

/-! ### A host reduce, at shapes left general -/

/-- A host reduce stays inside a set closed under its body when the initial value and every entry are there. -/
theorem hostReduce_closed {s t u : Shape} {axes : List (Fin s.rank)} (P : EReal → Prop) (op : EReal → EReal → EReal)
    (hop : ∀ a b, P a → P b → P (op a b)) (x : s.Idx → EReal) (hx : ∀ i, P (x i)) (init : u.Idx → EReal)
    (h : s.ReducesTo axes t) (hu : 0 < u.numel) (hinit : P (init (Shape.Idx.first hu))) (j : t.Idx) :
    P (Host.reduce op x init h hu j) := by
  rw [Host.reduce_eq_foldl]
  exact foldl_closed P op hop x hx _ _ hinit

/-- Along one axis of positive extent, a host minimum from +∞ over an array of reals is a real. -/
theorem hostReduce_min_real {s t u : Shape} {a : Fin s.rank} (x : s.Idx → EReal) (hx : ∀ i, ∃ r : ℝ, x i = (r : EReal))
    (init : u.Idx → EReal) (h' : s.ReducesTo [a] t) (h : s.Reduces [a] t) (hu : 0 < u.numel)
    (hinit : init (Shape.Idx.first hu) = ⊤) (ha : 0 < s.size a) (j : t.Idx) :
    ∃ r : ℝ, Host.reduce (FloatOps.minimumf : Ideal .f32 → Ideal .f32 → Ideal .f32) x init h' hu j = (r : EReal) := by
  rw [Host.reduce_eq_fold_single (FloatOps.minimumf : Ideal .f32 → Ideal .f32 → Ideal .f32) x init h' h hu, hinit]
  exact fold_min_real _ ⟨⟨0, ha⟩, Finset.mem_univ _⟩ _ (fun k => hx _)

/-- Along one axis of positive extent, a host maximum from -∞ over an array of reals is a real. -/
theorem hostReduce_max_real {s t u : Shape} {a : Fin s.rank} (x : s.Idx → EReal) (hx : ∀ i, ∃ r : ℝ, x i = (r : EReal))
    (init : u.Idx → EReal) (h' : s.ReducesTo [a] t) (h : s.Reduces [a] t) (hu : 0 < u.numel)
    (hinit : init (Shape.Idx.first hu) = ⊥) (ha : 0 < s.size a) (j : t.Idx) :
    ∃ r : ℝ, Host.reduce (FloatOps.maximumf : Ideal .f32 → Ideal .f32 → Ideal .f32) x init h' hu j = (r : EReal) := by
  rw [Host.reduce_eq_fold_single (FloatOps.maximumf : Ideal .f32 → Ideal .f32 → Ideal .f32) x init h' h hu, hinit]
  exact fold_max_real _ ⟨⟨0, ha⟩, Finset.mem_univ _⟩ _ (fun k => hx _)

/-! ### The activation scale -/

/-- On an array of reals the activation scale is a positive real. -/
theorem xScale_pos (h : SX.ReducesTo [0, 1] S0) (h0 : 0 < S0.numel) (x : FVec Ideal SX .f32)
    (hx : ∀ i, ∃ r : ℝ, x i = (r : EReal)) :
    ∃ r : ℝ, 0 < r ∧ xScaleV h h0 x ValueIdx.ix0 = (r : EReal) := by
  -- the maximum of |x| from -∞ is below +∞
  have hne : Host.reduce (FloatOps.maximumf : Ideal .f32 → Ideal .f32 → Ideal .f32) (Host.absf (F := Ideal) x)
      (constant (F := Ideal) S0 .f32 0xFF800000#32) h h0 ValueIdx.ix0 ≠ ⊤ := by
    refine hostReduce_closed (· ≠ ⊤) _ (fun _ _ => max_ne_top') _ (fun i => ?_) _ h h0 ?_ _
    · obtain ⟨r, hr⟩ := hx i
      obtain ⟨a, ha⟩ := abs_real r
      show max (x i) (-(x i)) ≠ ⊤
      rw [hr, ha]
      exact EReal.coe_ne_top a
    · exact ne_of_eq_of_ne ((constant_apply _ _).trans ofBits_negInf) bot_ne_top
  unfold xScaleV
  exact scale_generic _ _ _ _ hne
    (eps_pos.imp fun e he => ⟨he.1, (constant_apply _ _).trans he.2⟩) ((constant_apply _ _).trans ofBits_127)

/-! ### The weight scales -/

/-- On an array of reals every weight scale is a positive real. -/
theorem wScale_pos (h : SW.ReducesTo [1] SR) (h0 : 0 < S0.numel) (hb : S0.BroadcastsInDim SR (![] : Fin 0 → Fin SR.rank))
    (w : FVec Ideal SW .f32) (hw : ∀ i, ∃ r : ℝ, w i = (r : EReal)) (q : Fin 4096) :
    ∃ r : ℝ, 0 < r ∧ wScaleV h h0 hb w (ValueIdx.ix1 q) = (r : EReal) := by
  have hR : SW.Reduces [1] SR := by decide
  have hpos : 0 < SW.size 1 := by decide
  -- the row minimum and the row maximum are reals
  have hmin := hostReduce_min_real w hw (constant (F := Ideal) S0 .f32 0x7F800000#32) h hR h0
    ((constant_apply _ _).trans ofBits_posInf) hpos (ValueIdx.ix1 q)
  have hmax := hostReduce_max_real w hw (constant (F := Ideal) S0 .f32 0xFF800000#32) h hR h0
    ((constant_apply _ _).trans ofBits_negInf) hpos (ValueIdx.ix1 q)
  unfold wScaleV
  exact scale_generic2 _ _ _ _ _ hmin hmax
    (eps_pos.imp fun e he => ⟨he.1, (broadcastInDim_constant_apply _ _ _ _).trans he.2⟩)
    ((broadcastInDim_constant_apply _ _ _ _).trans ofBits_127)

end Cert.QuantSpec

end
-- ==== Proof.RefSide.lean ====
/-
  The reference program's side of the comparison.

  Read entry by entry the reference computes the arrangement that divides by the scales and rounds through
  the straight-through form.  When every entry of the two argument arrays is a real, both scales are
  positive reals — each is a maximum with a positive ε divided by 127 — and on positive real scales that
  arrangement equals the one that multiplies by the reciprocal scales and rounds the integer product once.
  So the reference's result array is, at (p, q),

      round (∑ₖ quant (x p k · (1 / xs)) · quant (w q k · (1 / ws q))) · xs · ws q,

  with xs and ws the scales computed from the arrays themselves; its run ends with the result array at
  that function and the argument arrays unchanged.
-/
import proofs.«120888_j49770081026763_2_alg».proof.Proof.RefRead
import proofs.«120888_j49770081026763_2_alg».proof.Proof.SpecLaw
import proofs.«120888_j49770081026763_2_alg».proof.Proof.Finite
import proofs.«120888_j49770081026763_2_alg».proof.Proof.ScalesPos
import proofs.«120888_j49770081026763_2_alg».proof.Proof.Gen.Pre_finite_inputs

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.Read Cert.QuantSpec

/-- With real entries the reference's result array is the reciprocal-scale arrangement of the quantized
    linear map, entry by entry. -/
theorem quant_value (x0 : (⟨S8192x4096, .f32⟩ : BufTy).Contents (Elt Ideal)) (x1 : (⟨S4096x4096, .f32⟩ : BufTy).Contents (Elt Ideal))
    (hx : ∀ i, ∃ r : ℝ, x0 i = (r : EReal)) (hw : ∀ i, ∃ r : ℝ, x1 i = (r : EReal)) :
    Cert.ReferenceIdeal.Read.val_main_v35 (F := Ideal) x0 x1
      = fun i : S8192x4096.Idx => Cert.QuantSpec.Gk (fun p k => x0 (ValueIdx.ix2 p k)) (fun q k => x1 (ValueIdx.ix2 q k))
          (xScaleV reducesTo_S8192x4096_S_d0_1 h_S_ x0 ValueIdx.ix0)
          (fun q => wScaleV reducesTo_S4096x4096_S4096_d1 h_S_ bcast_S_S4096 x1 (ValueIdx.ix1 q))
          ⟨(i 0).val, (i 0).isLt⟩ ⟨(i 1).val, (i 1).isLt⟩ := by
  funext i
  have hi : i = ValueIdx.ix2 (⟨(i 0).val, (i 0).isLt⟩ : Fin 8192) (⟨(i 1).val, (i 1).isLt⟩ : Fin 4096) :=
    funext fun a => by match a with | ⟨0, _⟩ => rfl | ⟨1, _⟩ => rfl
  refine (congrArg (val_main_v35 (F := Ideal) x0 x1) hi).trans ?_
  rw [ref_value]
  exact Gr_eq_Gk _ _ _ _ (fun p k => hx _) (fun q k => hw _)
    (xScale_pos reducesTo_S8192x4096_S_d0_1 h_S_ x0 hx)
    (fun q => wScale_pos reducesTo_S4096x4096_S4096_d1 h_S_ bcast_S_S4096 x1 hw q) _ _

/-- The reference's run from a memory whose argument arrays have real entries: it terminates with the
    result array at the quantized linear map of the arguments, the arguments unchanged. -/
theorem ref_run (m' : (ℓ : Loc nD τ sig) → Buf (Elt Ideal) ℓ) (ρ' : Dev nD → PrngReg)
    (hx : ∀ (c : Dev nD) i, ∃ r : ℝ, m' ((c.tc : Thread nD τ).loc main_arg0) i = (r : EReal))
    (hw : ∀ (c : Dev nD) i, ∃ r : ℝ, m' ((c.tc : Thread nD τ).loc main_arg1) i = (r : EReal)) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v35)
          = (fun i : S8192x4096.Idx => Cert.QuantSpec.Gk
              (fun p k => m' ((c.tc : Thread nD τ).loc main_arg0) (ValueIdx.ix2 p k))
              (fun q k => m' ((c.tc : Thread nD τ).loc main_arg1) (ValueIdx.ix2 q k))
              (xScaleV reducesTo_S8192x4096_S_d0_1 h_S_ (m' ((c.tc : Thread nD τ).loc main_arg0)) ValueIdx.ix0)
              (fun q => wScaleV reducesTo_S4096x4096_S4096_d1 h_S_ bcast_S_S4096 (m' ((c.tc : Thread nD τ).loc main_arg1)) (ValueIdx.ix1 q))
              ⟨(i 0).val, (i 0).isLt⟩ ⟨(i 1).val, (i 1).isLt⟩)
        ∧ r.2.mem ((c.tc : Thread nD τ).loc main_arg0) = m' ((c.tc : Thread nD τ).loc main_arg0)
        ∧ r.2.mem ((c.tc : Thread nD τ).loc main_arg1) = m' ((c.tc : Thread nD τ).loc main_arg1)) :=
  (θ_run Cert.ReferenceIdeal.defs _ _).mono
    (fun _ h c => ⟨(h c).1.trans ((Cert.ReferenceIdeal.Read.val_main_v35_eq m' c).trans (quant_value _ _ (hx c) (hw c))), (h c).2⟩)
    (Cert.ReferenceIdeal.Value.run (F := Ideal) m' ρ')

/-- The reference runs and leaves its argument arrays unchanged: its run with the result dropped. -/
theorem ref_frame : Cert.frame_ReferenceIdeal := fun m ρ _ =>
  (θ_run Cert.ReferenceIdeal.defs _ _).mono (fun _ h c => (h c).2) (Cert.ReferenceIdeal.Value.run (F := Ideal) m ρ)

end Cert.ReferenceIdeal.RefValue

end
-- ==== Proof.lean ====
/-
  The certificate of the quantized linear layer: a kernel program of three regions — quantize the
  activations by the per-tensor scale, quantize the weights by their per-row scales, then the integer
  product accumulated over the contraction axis, rounded and rescaled — against the reference that divides by
  the scales and rounds through the straight-through form.

  The three frames.  The kernel's program, at either instance, is one stretch of host operations followed by
  the three regions; each region is entered from "every unscoped buffer at known contents" and left in the
  same form, the accumulating region carrying its accumulator from point to point in its invariant, so the
  program runs to the end and its two arguments are never written.  The reference has no kernel: it is its
  host operations run in order.

  The value.  Over the extended reals the kernel's result entry (p, q) is
  round (∑ k, quant (x p k · (1 / xs)) · quant (w q k · (1 / ws q))) · xs · ws q, with xs and ws the two scales
  the host computes, and the reference's is the same with the divisions and the straight-through roundings.
  Under the precondition every entry of both arguments is a real, so both scales are positive reals; then a
  quotient by a scale is the product with its reciprocal, and v + (round v − v) = round v on the reals that
  clipping and integer sums produce.  No rewrite was applied in idealizing the kernel, so nothing is owed
  for it.
-/
import proofs.«120888_j49770081026763_2_alg».proof.Defs
import proofs.«120888_j49770081026763_2_alg».proof.Proof.Gen.Kernel
import proofs.«120888_j49770081026763_2_alg».proof.Proof.Gen.KernelIdeal
import proofs.«120888_j49770081026763_2_alg».proof.Proof.Gen.ReferenceIdeal
import proofs.«120888_j49770081026763_2_alg».proof.Proof.Gen.Pre_finite_inputs
import proofs.«120888_j49770081026763_2_alg».proof.Proof.BitsRun
import proofs.«120888_j49770081026763_2_alg».proof.Proof.IdealValue
import proofs.«120888_j49770081026763_2_alg».proof.Proof.RefSide
import proofs.«120888_j49770081026763_2_alg».proof.Proof.Finite
import Idealize.ShloMosaic.Adequacy
import Idealize.ShloMosaic.Init

noncomputable section

namespace Cert.Proof

open Idealize.ShloMosaic Idealize.SL.Sem

/-- The kernel's program at the word-level instance runs and leaves its arguments as launched. -/
theorem frame_kernel : Cert.frame_Kernel (hKernel := Cert.Kernel.Gen.facts) (hPre_finite_inputs := Cert.Pre_finite_inputs.Gen.facts) :=
  fun m ρ _ => Cert.Kernel.Hand.frame (F := Bits) m ρ

/-- The same program read over the extended reals. -/
theorem frame_kernelIdeal : Cert.frame_KernelIdeal (hKernelIdeal := Cert.KernelIdeal.Gen.facts) (hPre_finite_inputs := Cert.Pre_finite_inputs.Gen.facts) :=
  fun m ρ _ => Cert.KernelIdeal.Hand.frame (F := Ideal) m ρ

/-- Both programs end with the quantized linear map of the arguments, in the arrangement that multiplies by
    the reciprocal scales: the kernel by its three regions, the reference because on real arguments its
    arrangement is the same function. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hreal := fun c => Cert.FiniteInputs.real_entries _ _ (hpre c)
  refine ⟨_, Cert.KernelIdeal.Hand.kernel_run m ρ, ?_⟩
  refine (θ_run Cert.ReferenceIdeal.defs _ _).mono (fun _ h c => ⟨(h c).1.trans ?_, (h c).2⟩)
    (Cert.ReferenceIdeal.RefValue.ref_run m' ρ' (fun c => by rw [(hagree c).1]; exact (hreal c).1) (fun c => by rw [(hagree c).2]; exact (hreal c).2))
  rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, Cert.ReferenceIdeal.RefValue.ref_frame, trivial, algebraic⟩

end Cert.Proof

end
